-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S40 1) : IVec S_ 1 :=
  let main_c_5 : IVec S_ 1 := constantI S_ 1 1#1
  let main_v17 : IVec S_ 1 := (fun x v => Host.reduce IntOp.andi x v reducesTo_S40_S_d0 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S40x128 .f32) (main_arg4 : FVec F S40 .f32) (main_arg5 : FVec F S40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40x128 .f32 := Host.absf main_arg3
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg4
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40 .f32 := Host.absf main_arg5
  let main_cst_4 : FVec F S_ .f32 := constant S_ .f32 0x7F800000#32
  let main_v15 : FVec F S40 .f32 := broadcastInDim S40 ![] bcast_S_S40 main_cst_4
  let main_v16 : IVec S40 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S40x128 : Shape := ⟨2, ![40, 128]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S128x40 : Shape := ⟨2, ![128, 40]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 90
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S40x128, .f32⟩
  | .hbm, ⟨4, _⟩ => ⟨S40, .f32⟩
  | .hbm, ⟨5, _⟩ => ⟨S40, .f32⟩
  | .hbm, ⟨6, _⟩ => ⟨S40, .f32⟩
  | .hbm, ⟨7, _⟩ => ⟨S_, .f32⟩
  | .hbm, ⟨8, _⟩ => ⟨S100000, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S_, .f32⟩
  | .hbm, ⟨18, _⟩ => ⟨S1600000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S128x40, .f32⟩
  | .hbm, ⟨86, _⟩ => ⟨S1x40, .f32⟩
  | .hbm, ⟨87, _⟩ => ⟨S1x40, .f32⟩
  | .hbm, ⟨88, _⟩ => ⟨S1x40, .f32⟩
  | .hbm, ⟨89, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x40, .f32⟩
  | .local _ .vmem, ⟨37, _⟩ => ⟨S1x40, .f32⟩
  | .local _ .vmem, ⟨38, _⟩ => ⟨S1x40, .f32⟩
  | .local _ .vmem, ⟨39, _⟩ => ⟨S1x40, .f32⟩
  | .local _ .vmem, ⟨40, _⟩ => ⟨S5000x40, .f32⟩
  | .local _ .vmem, ⟨41, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47_0 : Ref sig .tc := ⟨.hbm, 70, rfl⟩
abbrev main_v47_1 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x40 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x40 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x40 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  transposes_S40x128_S128x40_1_0 : S40x128.Transposes [1, 0] S128x40
  shapeCasts_S40_S1x40 : S40.ShapeCasts S1x40
  bitsLt_bf16_f32 : FTy.bits .bf16 < FTy.bits .f32
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x40.size a ≤ S1x40.size a
  hwx3_5 : ∀ i : grid3.Coords, EltTy.bits .f32 = 32 ∨ (Rect.block (s := S1x40) S1x40.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x40.size a ≤ S1x40.size a
  hwx3_6 : ∀ i : grid3.Coords, EltTy.bits .f32 = 32 ∨ (Rect.block (s := S1x40) S1x40.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x40.size a ≤ S100000x40.size a
  hwx3_7 : ∀ i : grid3.Coords, EltTy.bits .f32 = 32 ∨ (Rect.block (s := S100000x40) S5000x40.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v36_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S1x40.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1x40.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v62) S5000x40.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S40x128 : Shape := ⟨2, ![40, 128]⟩
abbrev S40 : Shape := ⟨1, ![40]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S128x40 : Shape := ⟨2, ![128, 40]⟩
abbrev S100000x40 : Shape := ⟨2, ![100000, 40]⟩
abbrev S1x40 : Shape := ⟨2, ![1, 40]⟩

abbrev nBuf : Space → Nat
  | .hbm => 201
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S40x128, .f32⟩
  | 4 => ⟨S40, .f32⟩
  | 5 => ⟨S40, .f32⟩
  | 6 => ⟨S40, .f32⟩
  | 7 => ⟨S_, .f32⟩
  | 8 => ⟨S100000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S_, .f32⟩
  | 18 => ⟨S1600000, .f32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S100000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x1, .f32⟩
  | 61 => ⟨S100000x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x1, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x1, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S1600000x1, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x1, .f32⟩
  | 115 => ⟨S100000x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S1600000x1, .f32⟩
  | 7 => ⟨S1600000x128, .f32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x1, .f32⟩
  | 14 => ⟨S100000x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S128x40, .f32⟩
  | 25 => ⟨S100000x40, .f32⟩
  | 26 => ⟨S1x40, .f32⟩
  | 27 => ⟨S100000x40, .f32⟩
  | 28 => ⟨S100000x40, .f32⟩
  | 29 => ⟨S_, .f32⟩
  | 30 => ⟨S100000, .f32⟩
  | 31 => ⟨S100000x1, .f32⟩
  | 32 => ⟨S_, .f32⟩
  | 33 => ⟨S100000x1, .f32⟩
  | 34 => ⟨S100000x1, .f32⟩
  | 35 => ⟨S_, .i32⟩
  | 36 => ⟨S_, .f32⟩
  | 37 => ⟨S100000, .f32⟩
  | 38 => ⟨S100000x1, .f32⟩
  | 39 => ⟨S_, .f32⟩
  | 40 => ⟨S100000x1, .f32⟩
  | 41 => ⟨S100000x1, .f32⟩
  | 42 => ⟨S100000x40, .f32⟩
  | 43 => ⟨S100000x40, .f32⟩
  | 44 => ⟨S100000x40, .f32⟩
  | 45 => ⟨S_, .f32⟩
  | 46 => ⟨S_, .f32⟩
  | 47 => ⟨S_, .f32⟩
  | 48 => ⟨S_, .f32⟩
  | 49 => ⟨S100000, .f32⟩
  | 50 => ⟨S100000x1, .f32⟩
  | 51 => ⟨S100000x1, .f32⟩
  | 52 => ⟨S100000x1, .f32⟩
  | 53 => ⟨S_, .f32⟩
  | 54 => ⟨S_, .i1⟩
  | 55 => ⟨S_, .f32⟩
  | 56 => ⟨S_, .f32⟩
  | 57 => ⟨S100000x1, .f32⟩
  | 58 => ⟨S100000x1, .f32⟩
  | 59 => ⟨S100000x40, .f32⟩
  | 60 => ⟨S100000x40, .f32⟩
  | 61 => ⟨S_, .f32⟩
  | 62 => ⟨S100000x1, .f32⟩
  | 63 => ⟨S100000x1, .f32⟩
  | 64 => ⟨S100000x1, .f32⟩
  | 65 => ⟨S100000x40, .f32⟩
  | 66 => ⟨S100000x40, .f32⟩
  | 67 => ⟨S1x40, .f32⟩
  | 68 => ⟨S100000x40, .f32⟩
  | 69 => ⟨S100000x40, .f32⟩
  | 70 => ⟨S1x40, .f32⟩
  | 71 => ⟨S100000x40, .f32⟩
  | 72 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_17 : Ref sig .tc := ⟨.hbm, 98, rfl⟩
abbrev main_v72 : Ref sig .tc := ⟨.hbm, 99, rfl⟩
abbrev main_v73 : Ref sig .tc := ⟨.hbm, 100, rfl⟩
abbrev main_c_18 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_19 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_cst_21 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_22 : Ref sig .tc := ⟨.hbm, 125, rfl⟩
abbrev main_v94 : Ref sig .tc := ⟨.hbm, 126, rfl⟩
abbrev main_v95 : Ref sig .tc := ⟨.hbm, 127, rfl⟩
abbrev main_c_23 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_24 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_25 : Ref sig .tc := ⟨.hbm, 145, rfl⟩
abbrev main_v111 : Ref sig .tc := ⟨.hbm, 146, rfl⟩
abbrev main_v112 : Ref sig .tc := ⟨.hbm, 147, rfl⟩
abbrev main_cst_26 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_27 : Ref sig .tc := ⟨.hbm, 157, rfl⟩
abbrev main_v121 : Ref sig .tc := ⟨.hbm, 158, rfl⟩
abbrev main_v122 : Ref sig .tc := ⟨.hbm, 159, rfl⟩
abbrev main_cst_28 : Ref sig .tc := ⟨.hbm, 160, rfl⟩
abbrev main_v123 : Ref sig .tc := ⟨.hbm, 161, rfl⟩
abbrev main_v124 : Ref sig .tc := ⟨.hbm, 162, rfl⟩
abbrev main_c_29 : Ref sig .tc := ⟨.hbm, 163, rfl⟩
abbrev main_call0_cst : Ref sig .tc := ⟨.hbm, 164, rfl⟩
abbrev main_call0_v0 : Ref sig .tc := ⟨.hbm, 165, rfl⟩
abbrev main_call0_v1 : Ref sig .tc := ⟨.hbm, 166, rfl⟩
abbrev main_call0_cst_0 : Ref sig .tc := ⟨.hbm, 167, rfl⟩
abbrev main_call0_v2 : Ref sig .tc := ⟨.hbm, 168, rfl⟩
abbrev main_call0_v3 : Ref sig .tc := ⟨.hbm, 169, rfl⟩
abbrev main_call0_v4 : Ref sig .tc := ⟨.hbm, 170, rfl⟩
abbrev main_call0_v5 : Ref sig .tc := ⟨.hbm, 171, rfl⟩
abbrev main_call0_v6 : Ref sig .tc := ⟨.hbm, 172, rfl⟩
abbrev main_call0_v7 : Ref sig .tc := ⟨.hbm, 173, rfl⟩
abbrev main_call0_cst_1 : Ref sig .tc := ⟨.hbm, 174, rfl⟩
abbrev main_call0_v8 : Ref sig .tc := ⟨.hbm, 175, rfl⟩
abbrev main_call0_cst_2 : Ref sig .tc := ⟨.hbm, 176, rfl⟩
abbrev main_call0_v9 : Ref sig .tc := ⟨.hbm, 177, rfl⟩
abbrev main_call0_v10 : Ref sig .tc := ⟨.hbm, 178, rfl⟩
abbrev main_call0_v11 : Ref sig .tc := ⟨.hbm, 179, rfl⟩
abbrev main_call0_v12 : Ref sig .tc := ⟨.hbm, 180, rfl⟩
abbrev main_call0_cst_3 : Ref sig .tc := ⟨.hbm, 181, rfl⟩
abbrev main_call0_v13 : Ref sig .tc := ⟨.hbm, 182, rfl⟩
abbrev main_call0_cst_4 : Ref sig .tc := ⟨.hbm, 183, rfl⟩
abbrev main_call0_call0_v0 : Ref sig .tc := ⟨.hbm, 184, rfl⟩
abbrev main_call0_call0_v1 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_cst_30 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000x1 : S_.BroadcastsInDim S100000x1 (![] : Fin 0 → Fin S100000x1.rank)
  bcast_S100000x1_S100000x40_0_1 : S100000x1.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The two sides of the claim as plain functions of the seven argument arrays, at the ideal instance (a float an extended
  real, every operation exact).

  A graph with 100000 nodes and 1600000 edges (row e → the node the edge's message is added to, col e → the node it is
  read from), node features [100000, 128].  deg v = 1 + the number of edges e with (wrapped) row e = v; dinv = deg^(-1/2).
  One propagation step sends h to  ½·h + ½·(A h + h·dinv²)  with  (A h)(v) = Σ_{e : row e = v} h(col e) · (dinv(row e) · dinv(col e)).
  After four steps: logits = h · Wᵀ + b, and each row of logits is normalised (mean and variance over its 40 entries,
  ε inside the inverse square root), scaled by gamma and shifted by beta.

  Ref   the reference, operation by operation, whole arrays.
  K     the kernel's host stages (dinv as a column, the scaled features h·dinv, the segment sums of gathered rows) as
        whole-array operations, and its four fused passes pointwise: a pass takes h, the segment sums S of the scaled
        features and the column d = dinv and leaves ½·h + ½·(d·S + h·(d·d)) — the factor dinv(row e) taken out of the
        sum — and that times d; the last pass goes on to the logits and the row normalisation.
-/
import proofs.«168759_j50216757625453_2_alg».proof.KernelIdeal
import proofs.«168759_j50216757625453_2_alg».proof.ReferenceIdeal
import Idealize.ShloMosaic.PureOps.Ideal
import Idealize.ShloMosaic.Lib.ValueIdx

noncomputable section

open scoped BigOperators

namespace Cert.Spec

open Idealize.ShloMosaic Idealize.ShloMosaic.ValueIdx

/-! ## The reference, stage by stage -/

namespace Ref

open Cert.ReferenceIdeal Cert.ReferenceIdeal.Facts₀

variable [Cert.ReferenceIdeal.Facts]

/-- A negative index wrapped once: x < 0 ? x + 100000 : x. -/
def wrap (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- An edge vector as the [E, 1] column an indexed operation takes. -/
def ecol (x : IVec S1600000 32) : IVec S1600000x1 32 := broadcastInDim S1600000x1 ![0] bcast_S1600000_S1600000x1_0 x

/-- deg: ones added at the wrapped row ends onto zeros, plus one. -/
def deg (row : IVec S1600000 32) : FVec Ideal S100000 .f32 :=
  addf (Host.scatterAdd scatter_S100000_S1600000x1_S1600000_n_0_0_1
      (broadcastInDim S100000 ![] bcast_S_S100000 (constant (F := Ideal) S_ .f32 0x00000000#32))
      (ecol (wrap row))
      (broadcastInDim S1600000 ![] bcast_S_S1600000 (constant (F := Ideal) S_ .f32 0x3F800000#32)))
    (broadcastInDim S100000 ![] bcast_S_S100000 (constant (F := Ideal) S_ .f32 0x3F800000#32))

def dinv (row : IVec S1600000 32) : FVec Ideal S100000 .f32 := Host.rsqrt (F := Ideal) (deg row)

/-- The weight of an edge: dinv at its (wrapped) row end times dinv at its (wrapped) col end. -/
def wedge (row col : IVec S1600000 32) : FVec Ideal S1600000 .f32 :=
  mulf (Host.gather gather_S100000_S1600000x1_S1600000_n_0_n_n_0_1_1 (dinv row) (ecol (wrap row)))
    (Host.gather gather_S100000_S1600000x1_S1600000_n_0_n_n_0_1_1 (dinv row) (ecol (wrap col)))

def wself (row : IVec S1600000 32) : FVec Ideal S100000 .f32 := mulf (dinv row) (dinv row)

def half : FVec Ideal S100000x128 .f32 :=
  broadcastInDim S100000x128 ![] bcast_S_S100000x128 (constant (F := Ideal) S_ .f32 0x3F000000#32)

/-- One propagation step. -/
def step (row col : IVec S1600000 32) (h : FVec Ideal S100000x128 .f32) : FVec Ideal S100000x128 .f32 :=
  addf (mulf half h)
    (mulf half
      (addf
        (Host.scatterAdd scatter_S100000x128_S1600000x1_S1600000x128_1_0_0_1
          (broadcastInDim S100000x128 ![] bcast_S_S100000x128 (constant (F := Ideal) S_ .f32 0x00000000#32))
          (ecol row)
          (mulf (Host.gather gather_S100000x128_S1600000x1_S1600000x128_1_0_n_n_0_1_1128 h (ecol (wrap col)))
            (broadcastInDim S1600000x128 ![0, 1] bcast_S1600000x1_S1600000x128_0_1
              (broadcastInDim S1600000x1 ![0] bcast_S1600000_S1600000x1_0 (wedge row col)))))
        (mulf h
          (broadcastInDim S100000x128 ![0, 1] bcast_S100000x1_S100000x128_0_1
            (broadcastInDim S100000x1 ![0] bcast_S100000_S100000x1_0 (wself row))))))

def h4 (feat : FVec Ideal S100000x128 .f32) (row col : IVec S1600000 32) : FVec Ideal S100000x128 .f32 :=
  step row col (step row col (step row col (step row col feat)))

def logits (h : FVec Ideal S100000x128 .f32) (W : FVec Ideal S40x128 .f32) (b : FVec Ideal S40 .f32) :
    FVec Ideal S100000x40 .f32 :=
  addf (Host.dotGeneral dot_S100000x128_S128x40_S100000x40_1_0_0_1_n_n none h
      (transpose S128x40 [1, 0] W transposes_S40x128_S128x40_1_0))
    (broadcastInDim S100000x40 ![0, 1] bcast_S1x40_S100000x40_0_1 (broadcastInDim S1x40 ![1] bcast_S40_S1x40_1 b))

/-- The mean over a row's 40 entries, as a column. -/
def mean (x : FVec Ideal S100000x40 .f32) : FVec Ideal S100000x1 .f32 :=
  Host.divf (F := Ideal)
    (broadcastInDim S100000x1 ![0] bcast_S100000_S100000x1_0
      (Host.reduceAdd (F := Ideal) x (constant (F := Ideal) S_ .f32 0x00000000#32) reducesTo_S100000x40_S100000_d1 h_S_))
    (broadcastInDim S100000x1 ![] bcast_S_S100000x1 (constant (F := Ideal) S_ .f32 0x42200000#32))

/-- The divisor of the variance, 40 − ddof, as a scalar. -/
def nfree (ddof : IVec S_ 32) : FVec Ideal S_ .f32 :=
  subf (constant (F := Ideal) S_ .f32 0x42200000#32) (sitofp (F := Ideal) .f32 ddof)

/-- The variance over a row's 40 entries as the library function states it: the mean of the squared deviations over
    40 − ddof, selected where that divisor is positive (the other branch is the NaN word). -/
def var (x : FVec Ideal S100000x40 .f32) (ddof : IVec S_ 32) : FVec Ideal S100000x1 .f32 :=
  select (broadcastInDim S100000x1 ![] bcast_S_S100000x1
      (cmpf (F := Ideal) .ogt (nfree ddof) (constant (F := Ideal) S_ .f32 0x00000000#32)))
    (Host.divf (F := Ideal)
      (broadcastInDim S100000x1 ![0] bcast_S100000_S100000x1_0
        (Host.reduceAdd (F := Ideal)
          (mulf (subf x (broadcastInDim S100000x40 ![0, 1] bcast_S100000x1_S100000x40_0_1 (mean x)))
            (subf x (broadcastInDim S100000x40 ![0, 1] bcast_S100000x1_S100000x40_0_1 (mean x))))
          (constant (F := Ideal) S_ .f32 0x00000000#32) reducesTo_S100000x40_S100000_d1 h_S_))
      (broadcastInDim S100000x1 ![] bcast_S_S100000x1 (nfree ddof)))
    (broadcastInDim S100000x1 ![] bcast_S_S100000x1 (id (constant (F := Ideal) S_ .f32 0x7FC00000#32)))

/-- The row normalisation with scale and shift. -/
def norm (x : FVec Ideal S100000x40 .f32) (gamma beta : FVec Ideal S40 .f32) : FVec Ideal S100000x40 .f32 :=
  addf
    (mulf
      (mulf (subf x (broadcastInDim S100000x40 ![0, 1] bcast_S100000x1_S100000x40_0_1 (mean x)))
        (broadcastInDim S100000x40 ![0, 1] bcast_S100000x1_S100000x40_0_1
          (Host.rsqrt (F := Ideal)
            (addf (var x (constantI S_ 32 0#32))
              (broadcastInDim S100000x1 ![] bcast_S_S100000x1 (constant (F := Ideal) S_ .f32 0x3727C5AC#32))))))
      (broadcastInDim S100000x40 ![0, 1] bcast_S1x40_S100000x40_0_1 (broadcastInDim S1x40 ![1] bcast_S40_S1x40_1 gamma)))
    (broadcastInDim S100000x40 ![0, 1] bcast_S1x40_S100000x40_0_1 (broadcastInDim S1x40 ![1] bcast_S40_S1x40_1 beta))

/-- The reference's result. -/
def out (feat : FVec Ideal S100000x128 .f32) (row col : IVec S1600000 32) (W : FVec Ideal S40x128 .f32)
    (b gamma beta : FVec Ideal S40 .f32) : FVec Ideal S100000x40 .f32 :=
  norm (logits (h4 feat row col) W b) gamma beta

end Ref

/-! ## The kernel: host stages on whole arrays, fused passes pointwise -/

namespace K

open Cert.KernelIdeal Cert.KernelIdeal.Facts₀

variable [Cert.KernelIdeal.Facts]

def wrap (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

def ecol (x : IVec S1600000 32) : IVec S1600000x1 32 := broadcastInDim S1600000x1 ![0] bcast_S1600000_S1600000x1_0 x

def deg (row : IVec S1600000 32) : FVec Ideal S100000 .f32 :=
  addf (Host.scatterAdd scatter_S100000_S1600000x1_S1600000_n_0_0_1
      (broadcastInDim S100000 ![] bcast_S_S100000 (constant (F := Ideal) S_ .f32 0x00000000#32))
      (ecol (wrap row))
      (broadcastInDim S1600000 ![] bcast_S_S1600000 (constant (F := Ideal) S_ .f32 0x3F800000#32)))
    (broadcastInDim S100000 ![] bcast_S_S100000 (constant (F := Ideal) S_ .f32 0x3F800000#32))

def dinv (row : IVec S1600000 32) : FVec Ideal S100000 .f32 := Host.rsqrt (F := Ideal) (deg row)

/-- dinv as the [100000, 1] column every pass reads. -/
def dcol (row : IVec S1600000 32) : FVec Ideal S100000x1 .f32 := shapeCast S100000x1 (dinv row) shapeCasts_S100000_S100000x1

/-- The features scaled by dinv on the host, before the first gather. -/
def hs0 (feat : FVec Ideal S100000x128 .f32) (row : IVec S1600000 32) : FVec Ideal S100000x128 .f32 :=
  mulf feat (broadcastInDim S100000x128 ![0, 1] bcast_S100000x1_S100000x128_0_1 (dcol row))

/-- The segment sums: rows of hs gathered at the wrapped col ends, added at the row ends onto zeros. -/
def sagg (row col : IVec S1600000 32) (hs : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (ecol row)
    (Host.gather gather_S100000x128_S1600000x1_S1600000x128_1_0_n_n_0_1_1128 hs (ecol (wrap col)))

def halfW : EReal := Ideal.ofBits .f32 0x3F000000#32
def fortyW : EReal := Ideal.ofBits .f32 0x42200000#32
def epsW : EReal := Ideal.ofBits .f32 0x3727C5AC#32

/-- One fused pass at row v, feature c, over arrays of any number n of rows (a block of rows or the whole array):
    ½·h + ½·(d·S + h·(d·d)). -/
def combE {n : Nat} (h s : (⟨2, ![n, 128]⟩ : Shape).Idx → EReal) (d : (⟨2, ![n, 1]⟩ : Shape).Idx → EReal) (v : Fin n) (c : Fin 128) : EReal :=
  halfW * h (ix2 v c) + halfW * (d (ix2 v (0 : Fin 1)) * s (ix2 v c) + h (ix2 v c) * (d (ix2 v (0 : Fin 1)) * d (ix2 v (0 : Fin 1))))

/-- The pass's first result, the next h. -/
def comb {n : Nat} (h s : (⟨2, ![n, 128]⟩ : Shape).Idx → EReal) (d : (⟨2, ![n, 1]⟩ : Shape).Idx → EReal) : (⟨2, ![n, 128]⟩ : Shape).Idx → EReal :=
  fun i => combE h s d (i 0) (i 1)

/-- The pass's second result, the next h scaled by dinv. -/
def combS {n : Nat} (h s : (⟨2, ![n, 128]⟩ : Shape).Idx → EReal) (d : (⟨2, ![n, 1]⟩ : Shape).Idx → EReal) : (⟨2, ![n, 128]⟩ : Shape).Idx → EReal :=
  fun i => combE h s d (i 0) (i 1) * d (ix2 (i 0) (0 : Fin 1))

theorem comb_apply {n : Nat} (h s : (⟨2, ![n, 128]⟩ : Shape).Idx → EReal) (d : (⟨2, ![n, 1]⟩ : Shape).Idx → EReal) (v : Fin n) (c : Fin 128) :
    comb h s d (ix2 v c) = combE h s d v c := rfl

theorem combS_apply {n : Nat} (h s : (⟨2, ![n, 128]⟩ : Shape).Idx → EReal) (d : (⟨2, ![n, 1]⟩ : Shape).Idx → EReal) (v : Fin n) (c : Fin 128) :
    combS h s d (ix2 v c) = combE h s d v c * d (ix2 v (0 : Fin 1)) := rfl

/-- A logit: row v of h against column q of Wᵀ, plus the bias. -/
def logitE {n : Nat} (h : (⟨2, ![n, 128]⟩ : Shape).Idx → EReal) (wt : S128x40.Idx → EReal) (b : S1x40.Idx → EReal) (v : Fin n) (q : Fin 40) : EReal :=
  (∑ k : Fin 128, h (ix2 v k) * wt (ix2 k q)) + b (ix2 (0 : Fin 1) q)

/-- The mean of row v's logits. -/
def muE {n : Nat} (h : (⟨2, ![n, 128]⟩ : Shape).Idx → EReal) (wt : S128x40.Idx → EReal) (b : S1x40.Idx → EReal) (v : Fin n) : EReal :=
  Ideal.div (∑ q : Fin 40, logitE h wt b v q) fortyW

/-- The variance of row v's logits. -/
def varE {n : Nat} (h : (⟨2, ![n, 128]⟩ : Shape).Idx → EReal) (wt : S128x40.Idx → EReal) (b : S1x40.Idx → EReal) (v : Fin n) : EReal :=
  Ideal.div (∑ q : Fin 40, (logitE h wt b v q - muE h wt b v) * (logitE h wt b v q - muE h wt b v)) fortyW

/-- The last pass's result at (v, q). -/
def fclnE {n : Nat} (h : (⟨2, ![n, 128]⟩ : Shape).Idx → EReal) (wt : S128x40.Idx → EReal) (b g be : S1x40.Idx → EReal) (v : Fin n) (q : Fin 40) : EReal :=
  (logitE h wt b v q - muE h wt b v) * Ideal.rsqrt (varE h wt b v + epsW) * g (ix2 (0 : Fin 1) q) + be (ix2 (0 : Fin 1) q)

/-- The last pass reads only row v of h: two arrays that agree on that row give the same result. -/
theorem fclnE_congr {n n' : Nat} (h : (⟨2, ![n, 128]⟩ : Shape).Idx → EReal) (h' : (⟨2, ![n', 128]⟩ : Shape).Idx → EReal)
    (wt : S128x40.Idx → EReal) (b g be : S1x40.Idx → EReal) (v : Fin n) (v' : Fin n') (q : Fin 40)
    (hh : ∀ k : Fin 128, h (ix2 v k) = h' (ix2 v' k)) : fclnE h wt b g be v q = fclnE h' wt b g be v' q := by
  unfold fclnE varE muE logitE
  simp only [hh]

def fcln (h : S100000x128.Idx → EReal) (wt : S128x40.Idx → EReal) (b g be : S1x40.Idx → EReal) : S100000x40.Idx → EReal :=
  fun i => fclnE h wt b g be (i 0) (i 1)

theorem fcln_apply (h : S100000x128.Idx → EReal) (wt : S128x40.Idx → EReal) (b g be : S1x40.Idx → EReal) (v : Fin 100000) (q : Fin 40) :
    fcln h wt b g be (ix2 v q) = fclnE h wt b g be v q := rfl

/-- The four passes. -/
def h1 (feat : FVec Ideal S100000x128 .f32) (row col : IVec S1600000 32) : S100000x128.Idx → EReal :=
  comb feat (sagg row col (hs0 feat row)) (dcol row)
def hs1 (feat : FVec Ideal S100000x128 .f32) (row col : IVec S1600000 32) : S100000x128.Idx → EReal :=
  combS feat (sagg row col (hs0 feat row)) (dcol row)
def h2 (feat : FVec Ideal S100000x128 .f32) (row col : IVec S1600000 32) : S100000x128.Idx → EReal :=
  comb (h1 feat row col) (sagg row col (hs1 feat row col)) (dcol row)
def hs2 (feat : FVec Ideal S100000x128 .f32) (row col : IVec S1600000 32) : S100000x128.Idx → EReal :=
  combS (h1 feat row col) (sagg row col (hs1 feat row col)) (dcol row)
def h3 (feat : FVec Ideal S100000x128 .f32) (row col : IVec S1600000 32) : S100000x128.Idx → EReal :=
  comb (h2 feat row col) (sagg row col (hs2 feat row col)) (dcol row)
def hs3 (feat : FVec Ideal S100000x128 .f32) (row col : IVec S1600000 32) : S100000x128.Idx → EReal :=
  combS (h2 feat row col) (sagg row col (hs2 feat row col)) (dcol row)
def h4 (feat : FVec Ideal S100000x128 .f32) (row col : IVec S1600000 32) : S100000x128.Idx → EReal :=
  comb (h3 feat row col) (sagg row col (hs3 feat row col)) (dcol row)

/-- The kernel's result. -/
def out (feat : FVec Ideal S100000x128 .f32) (row col : IVec S1600000 32) (W : FVec Ideal S40x128 .f32)
    (b gamma beta : FVec Ideal S40 .f32) : S100000x40.Idx → EReal :=
  fcln (h4 feat row col) (transpose S128x40 [1, 0] W transposes_S40x128_S128x40_1_0)
    (shapeCast S1x40 b shapeCasts_S40_S1x40) (shapeCast S1x40 gamma shapeCasts_S40_S1x40)
    (shapeCast S1x40 beta shapeCasts_S40_S1x40)

end K

end Cert.Spec

end
-- ==== Proof.LibRowReduce.lean ====
/-
  Reductions along a row, and the two "keep the reduced axis" layout steps, read at an index at the ideal instance
  (floats are extended reals, every operation exact), free of any program.

  For a `[m, n]` array reduced over its second axis to `[m]`:
    * a kernel's lane sum at row `p` is the sum over the `n` columns of that row, a lane maximum the fold of `max` from
      the accumulator's value over them;
    * a host reduce with a maximum body at row `p` is the same fold from its initial value.
  A reduced vector `[a]` is put back beside the array by a cast to a column `[a, 1]` and a broadcast of that column to
  `[a, b]`; entry `(p, c)` of the result is entry `p` of the vector.
-/
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.LibRowReduce

open Idealize.ShloMosaic Idealize.ShloMosaic.ValueIdx

variable {m n : Nat}

/-- The reduced index `p` with column `k` put back is `(p, k)`. -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A lane sum over a row. -/
theorem rowSum_apply (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (p : Fin m) :
    multiReduction .add [1] ⟨1, ![m]⟩ src acc h hφ hacc (ix1 p) = ∑ k : Fin n, src (ix2 p k) := by
  rw [Ideal.multiReduction_add_single]
  exact Finset.sum_congr rfl fun k _ => congrArg src (lift_row h p k)

/-- A lane maximum over a row: the fold of `max` from the accumulator's value. -/
theorem rowMax_apply (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] ⟨1, ![m]⟩ src acc h hφ hacc (ix1 p)
      = (Finset.univ : Finset (Fin n)).fold max (Ideal.ofBits .f32 acc) (fun k => src (ix2 p k)) := by
  rw [Ideal.multiReduction_maximumf_single]
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduce with a maximum body over a row: the fold of `max` from the initial value. -/
theorem hostRowMax_apply (x : FVec Ideal ⟨2, ![m, n]⟩ .f32) (init : (⟨0, ![]⟩ : Shape).Idx → EReal)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduce (FloatOps.maximumf (F := Ideal) (φ := .f32)) x init h' hu (ix1 p)
      = (Finset.univ : Finset (Fin n)).fold max (init (Shape.Idx.first hu)) (fun k => x (ix2 p k)) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- A fold of `max` from `a` is at least `a`, so taking the maximum with `a` once more changes nothing. -/
theorem max_fold_max {ι : Type*} (s : Finset ι) (a : EReal) (f : ι → EReal) :
    max a (s.fold max a f) = s.fold max a f :=
  max_eq_right ((Finset.le_fold_max a).2 (Or.inl le_rfl))

variable {α : Type} {a b : Nat}

/-- An `[a]` array cast to the column `[a, 1]` reads, at `(p, u)`, the operand at `p`, whatever the unit coordinate. -/
theorem shapeCast_a_a1_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibRowReduce

end
-- ==== Proof.LibPlainDot.lean ====
/-
  A plain matrix product read at an index, at the ideal instance (floats are extended reals, every operation exact),
  free of any program.

  For the dimension numbers of an `M×K` by `K×N` product with no batch axis (`DotDims.plain M K N`: the left operand
  contracted on its second axis, the right on its first), both a kernel's matrix-unit product into a zero accumulator
  and a host `dot_general` hold, at `(p, q)`, the sum over `k` of `l (p, k) · r (k, q)`: no rounding, no order of
  accumulation, no tile shape is left in either.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat}

/-- The left operand's row is the output's row … -/
theorem lhs_row (p : Fin M) (q : Fin N) (k : (DotDims.plain M K N).contr.Idx) :
    ((DotDims.plain M K N).lhsIdx (ix2 p q) k ⟨0, Nat.zero_lt_two⟩).val = p.val := by
  unfold DotDims.lhsIdx
  rw [dif_neg (show ¬(⟨0, Nat.zero_lt_two⟩ : Fin 2) ∈ (DotDims.plain M K N).lhsBatch by simp [DotDims.plain]),
    dif_pos (show (⟨0, Nat.zero_lt_two⟩ : Fin 2) ∈ (DotDims.plain M K N).lhsNonContracting by simp [DotDims.plain])]
  rfl

/-- … its column the contraction index … -/
theorem lhs_col (p : Fin M) (q : Fin N) (k : (DotDims.plain M K N).contr.Idx) :
    ((DotDims.plain M K N).lhsIdx (ix2 p q) k ⟨1, Nat.one_lt_two⟩).val = (k ⟨0, Nat.one_pos⟩).val :=
  (DotDims.plain M K N).lhsIdx_val_of_single rfl (ix2 p q) k

/-- … the right operand's row the contraction index … -/
theorem rhs_row (p : Fin M) (q : Fin N) (k : (DotDims.plain M K N).contr.Idx) :
    ((DotDims.plain M K N).rhsIdx (ix2 p q) k ⟨0, Nat.zero_lt_two⟩).val = (k ⟨0, Nat.one_pos⟩).val :=
  (DotDims.plain M K N).rhsIdx_val_of_single rfl (ix2 p q) k

/-- … and its column the output's column. -/
theorem rhs_col (p : Fin M) (q : Fin N) (k : (DotDims.plain M K N).contr.Idx) :
    ((DotDims.plain M K N).rhsIdx (ix2 p q) k ⟨1, Nat.one_lt_two⟩).val = q.val := by
  unfold DotDims.rhsIdx
  rw [dif_neg (show ¬(⟨1, Nat.one_lt_two⟩ : Fin 2) ∈ (DotDims.plain M K N).rhsBatch by simp [DotDims.plain]),
    dif_pos (show (⟨1, Nat.one_lt_two⟩ : Fin 2) ∈ (DotDims.plain M K N).rhsNonContracting by simp [DotDims.plain])]
  rfl

/-- The sum over the one-axis contraction index is the sum over `k : Fin K` of `l (p, k) · r (k, q)`. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row p q _
      | ⟨1, _⟩ => exact (lhs_col p q _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row p q _).trans hk
      | ⟨1, _⟩ => exact rhs_col p q _)
  rw [el, er]

/-- A matrix-unit product into the zero splat, at `(p, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply]
  exact plain_sum l r p q

/-- A host `dot_general`, at `(p, q)`, whatever its schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end Cert.LibPlainDot

end
-- ==== Proof.KPay.lean ====
/-
  What each fused pass computes from its loaded blocks, entry by entry, at the ideal instance.

  A block is 5000 node rows.  From the block h of features, the block S of segment sums and the column block d of
  inverse square-root degrees, a propagation pass leaves, at row p and feature c,
      ½·h + ½·(d·S + h·(d·d)),
  and that value times d.  The last pass goes on: the same value, row p against column q of the weight block plus the
  bias row, is a logit; the row's mean and variance over its 40 logits, and
      (logit − mean) · (variance + ε)^(−1/2) · gamma + beta.
-/
import proofs.«168759_j50216757625453_2_alg».proof.Proof.Gen.KernelIdeal.Skeleton
import proofs.«168759_j50216757625453_2_alg».proof.Proof.Spec
import proofs.«168759_j50216757625453_2_alg».proof.Proof.LibRowReduce
import proofs.«168759_j50216757625453_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.KPay

open Idealize.ShloMosaic Idealize.ShloMosaic.ValueIdx Cert.KernelIdeal Cert.KernelIdeal.Gen Cert.Spec.K

/-- The column block broadcast along the 128 lanes reads, at (p, c), the column's entry of row p. -/
theorem col_apply (x2 : Vec Ideal S5000x1 .f32) (p : Fin 5000) (c : Fin 128) :
    k0_pay1 (F := Ideal) x2 (ix2 p c) = x2 (ix2 p (0 : Fin 1)) := by
  unfold k0_pay1
  rw [shapeCast_self, shapeCast_self]
  exact Cert.LibRowReduce.broadcastTo_a1_ab_apply (a := 5000) (b := 128) x2 _ p c

/-- The pass's first store at (p, c). -/
theorem next_apply (x0 x1 : Vec Ideal S5000x128 .f32) (x2 : Vec Ideal S5000x1 .f32) (p : Fin 5000) (c : Fin 128) :
    k0_pay2 (F := Ideal) x0 x1 x2 (ix2 p c) = combE (n := 5000) x0 x1 x2 p c := by
  unfold k0_pay2 combE
  rw [shapeCast_self]
  simp only [addf_apply, mulf_apply, broadcast_apply, col_apply]
  rfl

/-- The pass's second store at (p, c): the first times the column. -/
theorem nextS_apply (x0 x1 : Vec Ideal S5000x128 .f32) (x2 : Vec Ideal S5000x1 .f32) (p : Fin 5000) (c : Fin 128) :
    k0_pay3 (F := Ideal) x0 x1 x2 (ix2 p c) = combE (n := 5000) x0 x1 x2 p c * x2 (ix2 p (0 : Fin 1)) := by
  unfold k0_pay3
  rw [mulf_apply, next_apply, col_apply]

/-- Pass 2 of the three propagation passes prints the same operations: the same three facts. -/
theorem col_apply1 (x2 : Vec Ideal S5000x1 .f32) (p : Fin 5000) (c : Fin 128) :
    k1_pay1 (F := Ideal) x2 (ix2 p c) = x2 (ix2 p (0 : Fin 1)) := by
  unfold k1_pay1
  simp only [shapeCast_self]
  exact Cert.LibRowReduce.broadcastTo_a1_ab_apply (a := 5000) (b := 128) x2 _ p c

theorem next_apply1 (x0 x1 : Vec Ideal S5000x128 .f32) (x2 : Vec Ideal S5000x1 .f32) (p : Fin 5000) (c : Fin 128) :
    k1_pay2 (F := Ideal) x0 x1 x2 (ix2 p c) = combE (n := 5000) x0 x1 x2 p c := by
  unfold k1_pay2 combE
  simp only [shapeCast_self, addf_apply, mulf_apply, broadcast_apply, col_apply1]
  rfl

theorem nextS_apply1 (x0 x1 : Vec Ideal S5000x128 .f32) (x2 : Vec Ideal S5000x1 .f32) (p : Fin 5000) (c : Fin 128) :
    k1_pay3 (F := Ideal) x0 x1 x2 (ix2 p c) = combE (n := 5000) x0 x1 x2 p c * x2 (ix2 p (0 : Fin 1)) := by
  unfold k1_pay3
  rw [mulf_apply, next_apply1, col_apply1]

/-- Pass 3 of the three propagation passes prints the same operations: the same three facts. -/
theorem col_apply2 (x2 : Vec Ideal S5000x1 .f32) (p : Fin 5000) (c : Fin 128) :
    k2_pay1 (F := Ideal) x2 (ix2 p c) = x2 (ix2 p (0 : Fin 1)) := by
  unfold k2_pay1
  simp only [shapeCast_self]
  exact Cert.LibRowReduce.broadcastTo_a1_ab_apply (a := 5000) (b := 128) x2 _ p c

theorem next_apply2 (x0 x1 : Vec Ideal S5000x128 .f32) (x2 : Vec Ideal S5000x1 .f32) (p : Fin 5000) (c : Fin 128) :
    k2_pay2 (F := Ideal) x0 x1 x2 (ix2 p c) = combE (n := 5000) x0 x1 x2 p c := by
  unfold k2_pay2 combE
  simp only [shapeCast_self, addf_apply, mulf_apply, broadcast_apply, col_apply2]
  rfl

theorem nextS_apply2 (x0 x1 : Vec Ideal S5000x128 .f32) (x2 : Vec Ideal S5000x1 .f32) (p : Fin 5000) (c : Fin 128) :
    k2_pay3 (F := Ideal) x0 x1 x2 (ix2 p c) = combE (n := 5000) x0 x1 x2 p c * x2 (ix2 p (0 : Fin 1)) := by
  unfold k2_pay3
  rw [mulf_apply, next_apply2, col_apply2]

end Cert.KernelIdeal.KPay

end
-- ==== Proof.KReg0.lean ====
/-
  The first propagation pass over the whole node array.

  The pass runs at 20 grid points; point t works on node rows 5000·t … 5000·t + 4999 of every window (the index maps send
  t to block (t, 0)).  What point t writes back is therefore block t of ONE function of the three arrays the pass reads
  — the features h, the segment sums S, the column d — namely comb h S d and combS h S d, and the 20 blocks tile the
  array: after the pass the two result arrays hold exactly those functions.  Everything is stated for arbitrary contents
  V of the buffers at the pass's entry.
-/
import proofs.«168759_j50216757625453_2_alg».proof.Proof.Gen.KernelIdeal.Frame
import proofs.«168759_j50216757625453_2_alg».proof.Proof.KPay
import Idealize.ShloMosaic.Lib.Pipeline.Value

noncomputable section

namespace Cert.KernelIdeal.KReg0

open Idealize.ShloMosaic Idealize.ShloMosaic.TcCoe Idealize.ShloMosaic.ValueIdx Idealize.SL.Sem
open Idealize.ShloMosaic.Pipeline (Dat)
open Cert.KernelIdeal Cert.KernelIdeal.Gen Cert.Spec.K

variable (V : (c : Dev nD) → (b : Ref sig .tc) → Buf (Elt Ideal) ((c : Thread nD τ).loc b))

theorem hz : (![0, 0] : Fin 2 → Nat) = fun _ => 0 := funext fun a => by fin_cases a <;> rfl

/-- The three arrays the pass reads, as the pass finds them. -/
abbrev aH (c : Dev nD) : S100000x128.Idx → EReal := V c (Pipeline.arrRef spec0 0)
abbrev aS (c : Dev nD) : S100000x128.Idx → EReal := V c (Pipeline.arrRef spec0 1)
abbrev aD (c : Dev nD) : S100000x1.Idx → EReal := V c (Pipeline.arrRef spec0 2)

/-- The printed index maps, decided over the grid: every window's block at point t is block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's block is node row 5000·t + p. -/
abbrev node (t : Fin cfg0.N) (p : Fin 5000) : Fin 100000 :=
  ⟨5000 * t.val + p.val, by have := t.isLt; have hN : cfg0.N = 20 := N_0; have := p.isLt; omega⟩

/-- The feature block at point t, entry (p, k): the feature array at (5000·t + p, k). -/
theorem readH (c : Dev nD) (t : Fin cfg0.N) (p : Fin 5000) (k : Fin 128) :
    (iblk0 V c 0 t : Vec Ideal S5000x128 .f32) (ix2 p k) = aH V c (ix2 (node t p) k) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- The segment-sum block likewise. -/
theorem readS (c : Dev nD) (t : Fin cfg0.N) (p : Fin 5000) (k : Fin 128) :
    (iblk0 V c 1 t : Vec Ideal S5000x128 .f32) (ix2 p k) = aS V c (ix2 (node t p) k) := by
  obtain ⟨-, -, e0, e1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t 0 * 5000 + 1 * p.val = 5000 * t.val + p.val; rw [e0]; omega
  | ⟨1, _⟩ => show win0_1.index t 1 * 128 + 1 * k.val = k.val; rw [e1]; omega

/-- The column block likewise. -/
theorem readD (c : Dev nD) (t : Fin cfg0.N) (p : Fin 5000) (z : Fin 1) :
    (iblk0 V c 2 t : Vec Ideal S5000x1 .f32) (ix2 p z) = aD V c (ix2 (node t p) z) := by
  obtain ⟨-, -, -, -, e0, e1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t 0 * 5000 + 1 * p.val = 5000 * t.val + p.val; rw [e0]; omega
  | ⟨1, _⟩ => show win0_2.index t 1 * 1 + 1 * z.val = z.val; rw [e1]; omega

/-- One pass at a block row is the pass at the node row: it reads only that row of each array. -/
theorem combE_blk (c : Dev nD) (t : Fin cfg0.N) (p : Fin 5000) (k : Fin 128) :
    combE (n := 5000) (iblk0 V c 0 t) (iblk0 V c 1 t) (iblk0 V c 2 t) p k = combE (aH V c) (aS V c) (aD V c) (node t p) k := by
  unfold combE
  rw [readH, readS, readD]

/-- WHAT POINT t WRITES BACK to the next-features array: block t of comb h S d. -/
theorem flushed3 (c : Dev nD) (t : Fin cfg0.N) :
    (dat0 V c).flushed 3 t = ((cfg0.win 3).blk t).view.read (Elt Ideal) (comb (aH V c) (aS V c) (aD V c)) := by
  obtain ⟨-, -, -, -, -, -, e0, e1, -⟩ := idx_facts t
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz]
  funext j
  obtain ⟨p, k, rfl⟩ : ∃ (p : Fin 5000) (k : Fin 128), j = ix2 p k := ⟨j 0, j 1, eq_ix2 j⟩
  show k0_pay2 (F := Ideal) (iblk0 V c 0 t) (iblk0 V c 1 t) (iblk0 V c 2 t) (ix2 p k)
    = comb (aH V c) (aS V c) (aD V c) (((cfg0.win 3).blk t).view.emb (ix2 p k))
  have he : ((cfg0.win 3).blk t).view.emb (ix2 p k) = ix2 (node t p) k := by
    funext a
    apply Fin.ext
    match a with
    | ⟨0, _⟩ => show win0_3.index t 0 * 5000 + 1 * p.val = 5000 * t.val + p.val; rw [e0]; omega
    | ⟨1, _⟩ => show win0_3.index t 1 * 128 + 1 * k.val = k.val; rw [e1]; omega
  rw [he, comb_apply, Cert.KernelIdeal.KPay.next_apply, combE_blk]

/-- WHAT POINT t WRITES BACK to the scaled-features array: block t of combS h S d. -/
theorem flushed4 (c : Dev nD) (t : Fin cfg0.N) :
    (dat0 V c).flushed 4 t = ((cfg0.win 4).blk t).view.read (Elt Ideal) (combS (aH V c) (aS V c) (aD V c)) := by
  obtain ⟨-, -, -, -, -, -, -, -, e0, e1⟩ := idx_facts t
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz]
  funext j
  obtain ⟨p, k, rfl⟩ : ∃ (p : Fin 5000) (k : Fin 128), j = ix2 p k := ⟨j 0, j 1, eq_ix2 j⟩
  show k0_pay3 (F := Ideal) (iblk0 V c 0 t) (iblk0 V c 1 t) (iblk0 V c 2 t) (ix2 p k)
    = combS (aH V c) (aS V c) (aD V c) (((cfg0.win 4).blk t).view.emb (ix2 p k))
  have he : ((cfg0.win 4).blk t).view.emb (ix2 p k) = ix2 (node t p) k := by
    funext a
    apply Fin.ext
    match a with
    | ⟨0, _⟩ => show win0_4.index t 0 * 5000 + 1 * p.val = 5000 * t.val + p.val; rw [e0]; omega
    | ⟨1, _⟩ => show win0_4.index t 1 * 128 + 1 * k.val = k.val; rw [e1]; omega
  rw [he, combS_apply, Cert.KernelIdeal.KPay.nextS_apply, combE_blk, readD]

/-- An index of the array is in point t's block of window 3 iff each coordinate is in the block's range. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v25_0).slice (win0_3.rect t)).set ↔ _
  rw [View.set_slice_whole, Rect.mem_set_unit]
  exact Iff.rfl

theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v25_1).slice (win0_4.rect t)).set ↔ _
  rw [View.set_slice_whole, Rect.mem_set_unit]
  exact Iff.rfl

/-- The 20 blocks tile the array: node row r is in the block of point r / 5000. -/
theorem cover3 (i : S100000x128.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  refine ⟨⟨(i 0).val / 5000, by omega⟩, flush0_3 _, ?_⟩
  rw [mem_blk3]
  obtain ⟨-, -, -, -, -, -, e0, e1, -⟩ := idx_facts ⟨(i 0).val / 5000, by omega⟩
  intro a
  match a with
  | ⟨0, _⟩ => show win0_3.index _ 0 * 5000 ≤ (i 0).val ∧ (i 0).val < win0_3.index _ 0 * 5000 + 5000; rw [e0]; show (i 0).val / 5000 * 5000 ≤ (i 0).val ∧ (i 0).val < (i 0).val / 5000 * 5000 + 5000; omega
  | ⟨1, _⟩ => show win0_3.index _ 1 * 128 ≤ (i 1).val ∧ (i 1).val < win0_3.index _ 1 * 128 + 128; rw [e1]; omega

theorem cover4 (i : S100000x128.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  refine ⟨⟨(i 0).val / 5000, by omega⟩, flush0_4 _, ?_⟩
  rw [mem_blk4]
  obtain ⟨-, -, -, -, -, -, -, -, e0, e1⟩ := idx_facts ⟨(i 0).val / 5000, by omega⟩
  intro a
  match a with
  | ⟨0, _⟩ => show win0_4.index _ 0 * 5000 ≤ (i 0).val ∧ (i 0).val < win0_4.index _ 0 * 5000 + 5000; rw [e0]; show (i 0).val / 5000 * 5000 ≤ (i 0).val ∧ (i 0).val < (i 0).val / 5000 * 5000 + 5000; omega
  | ⟨1, _⟩ => show win0_4.index _ 1 * 128 ≤ (i 1).val ∧ (i 1).val < win0_4.index _ 1 * 128 + 128; rw [e1]; omega

/-- AFTER THE PASS the next-features array is comb h S d of the arrays the pass found … -/
theorem final3 (c : Dev nD) : (dat0 V c).arrAt 3 cfg0.N = comb (aH V c) (aS V c) (aD V c) :=
  (dat0 V c).arrAt_eq_of_cover 3 (comb (aH V c) (aS V c) (aD V c)) (fun t _ => flushed3 V c t) cover3

/-- … and the scaled-features array combS h S d. -/
theorem final4 (c : Dev nD) : (dat0 V c).arrAt 4 cfg0.N = combS (aH V c) (aS V c) (aD V c) :=
  (dat0 V c).arrAt_eq_of_cover 4 (combS (aH V c) (aS V c) (aD V c)) (fun t _ => flushed4 V c t) cover4

end Cert.KernelIdeal.KReg0

end
-- ==== Proof.KReg1.lean ====
/-
  The second propagation pass over the whole node array: the same pass as the first, over its own windows.

  The pass runs at 20 grid points; point t works on node rows 5000·t … 5000·t + 4999 of every window (the index maps send
  t to block (t, 0)).  What point t writes back is therefore block t of ONE function of the three arrays the pass reads
  — the features h, the segment sums S, the column d — namely comb h S d and combS h S d, and the 20 blocks tile the
  array: after the pass the two result arrays hold exactly those functions.  Everything is stated for arbitrary contents
  V of the buffers at the pass's entry.
-/
import proofs.«168759_j50216757625453_2_alg».proof.Proof.Gen.KernelIdeal.Frame
import proofs.«168759_j50216757625453_2_alg».proof.Proof.KPay
import Idealize.ShloMosaic.Lib.Pipeline.Value

noncomputable section

namespace Cert.KernelIdeal.KReg1

open Idealize.ShloMosaic Idealize.ShloMosaic.TcCoe Idealize.ShloMosaic.ValueIdx Idealize.SL.Sem
open Idealize.ShloMosaic.Pipeline (Dat)
open Cert.KernelIdeal Cert.KernelIdeal.Gen Cert.Spec.K

variable (V : (c : Dev nD) → (b : Ref sig .tc) → Buf (Elt Ideal) ((c : Thread nD τ).loc b))

theorem hz : (![0, 0] : Fin 2 → Nat) = fun _ => 0 := funext fun a => by fin_cases a <;> rfl

/-- The three arrays the pass reads, as the pass finds them. -/
abbrev aH (c : Dev nD) : S100000x128.Idx → EReal := V c (Pipeline.arrRef spec1 0)
abbrev aS (c : Dev nD) : S100000x128.Idx → EReal := V c (Pipeline.arrRef spec1 1)
abbrev aD (c : Dev nD) : S100000x1.Idx → EReal := V c (Pipeline.arrRef spec1 2)

/-- The printed index maps, decided over the grid: every window's block at point t is block (t, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of point t's block is node row 5000·t + p. -/
abbrev node (t : Fin cfg1.N) (p : Fin 5000) : Fin 100000 :=
  ⟨5000 * t.val + p.val, by have := t.isLt; have hN : cfg1.N = 20 := N_1; have := p.isLt; omega⟩

/-- The feature block at point t, entry (p, k): the feature array at (5000·t + p, k). -/
theorem readH (c : Dev nD) (t : Fin cfg1.N) (p : Fin 5000) (k : Fin 128) :
    (iblk1 V c 0 t : Vec Ideal S5000x128 .f32) (ix2 p k) = aH V c (ix2 (node t p) k) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * p.val = 5000 * t.val + p.val; rw [e0]; omega
  | ⟨1, _⟩ => show win1_0.index t 1 * 128 + 1 * k.val = k.val; rw [e1]; omega

/-- The segment-sum block likewise. -/
theorem readS (c : Dev nD) (t : Fin cfg1.N) (p : Fin 5000) (k : Fin 128) :
    (iblk1 V c 1 t : Vec Ideal S5000x128 .f32) (ix2 p k) = aS V c (ix2 (node t p) k) := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t 0 * 5000 + 1 * p.val = 5000 * t.val + p.val; rw [e0]; omega
  | ⟨1, _⟩ => show win1_1.index t 1 * 128 + 1 * k.val = k.val; rw [e1]; omega

/-- The column block likewise. -/
theorem readD (c : Dev nD) (t : Fin cfg1.N) (p : Fin 5000) (z : Fin 1) :
    (iblk1 V c 2 t : Vec Ideal S5000x1 .f32) (ix2 p z) = aD V c (ix2 (node t p) z) := by
  obtain ⟨-, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t 0 * 5000 + 1 * p.val = 5000 * t.val + p.val; rw [e0]; omega
  | ⟨1, _⟩ => show win1_2.index t 1 * 1 + 1 * z.val = z.val; rw [e1]; omega

/-- One pass at a block row is the pass at the node row: it reads only that row of each array. -/
theorem combE_blk (c : Dev nD) (t : Fin cfg1.N) (p : Fin 5000) (k : Fin 128) :
    combE (n := 5000) (iblk1 V c 0 t) (iblk1 V c 1 t) (iblk1 V c 2 t) p k = combE (aH V c) (aS V c) (aD V c) (node t p) k := by
  unfold combE
  rw [readH, readS, readD]

/-- WHAT POINT t WRITES BACK to the next-features array: block t of comb h S d. -/
theorem flushed3 (c : Dev nD) (t : Fin cfg1.N) :
    (dat1 V c).flushed 3 t = ((cfg1.win 3).blk t).view.read (Elt Ideal) (comb (aH V c) (aS V c) (aD V c)) := by
  obtain ⟨-, -, -, -, -, -, e0, e1, -⟩ := idx_facts t
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz]
  funext j
  obtain ⟨p, k, rfl⟩ : ∃ (p : Fin 5000) (k : Fin 128), j = ix2 p k := ⟨j 0, j 1, eq_ix2 j⟩
  show k1_pay2 (F := Ideal) (iblk1 V c 0 t) (iblk1 V c 1 t) (iblk1 V c 2 t) (ix2 p k)
    = comb (aH V c) (aS V c) (aD V c) (((cfg1.win 3).blk t).view.emb (ix2 p k))
  have he : ((cfg1.win 3).blk t).view.emb (ix2 p k) = ix2 (node t p) k := by
    funext a
    apply Fin.ext
    match a with
    | ⟨0, _⟩ => show win1_3.index t 0 * 5000 + 1 * p.val = 5000 * t.val + p.val; rw [e0]; omega
    | ⟨1, _⟩ => show win1_3.index t 1 * 128 + 1 * k.val = k.val; rw [e1]; omega
  rw [he, comb_apply, Cert.KernelIdeal.KPay.next_apply1, combE_blk]

/-- WHAT POINT t WRITES BACK to the scaled-features array: block t of combS h S d. -/
theorem flushed4 (c : Dev nD) (t : Fin cfg1.N) :
    (dat1 V c).flushed 4 t = ((cfg1.win 4).blk t).view.read (Elt Ideal) (combS (aH V c) (aS V c) (aD V c)) := by
  obtain ⟨-, -, -, -, -, -, -, -, e0, e1⟩ := idx_facts t
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz]
  funext j
  obtain ⟨p, k, rfl⟩ : ∃ (p : Fin 5000) (k : Fin 128), j = ix2 p k := ⟨j 0, j 1, eq_ix2 j⟩
  show k1_pay3 (F := Ideal) (iblk1 V c 0 t) (iblk1 V c 1 t) (iblk1 V c 2 t) (ix2 p k)
    = combS (aH V c) (aS V c) (aD V c) (((cfg1.win 4).blk t).view.emb (ix2 p k))
  have he : ((cfg1.win 4).blk t).view.emb (ix2 p k) = ix2 (node t p) k := by
    funext a
    apply Fin.ext
    match a with
    | ⟨0, _⟩ => show win1_4.index t 0 * 5000 + 1 * p.val = 5000 * t.val + p.val; rw [e0]; omega
    | ⟨1, _⟩ => show win1_4.index t 1 * 128 + 1 * k.val = k.val; rw [e1]; omega
  rw [he, combS_apply, Cert.KernelIdeal.KPay.nextS_apply1, combE_blk, readD]

/-- An index of the array is in point t's block of window 3 iff each coordinate is in the block's range. -/
theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v36_0).slice (win1_3.rect t)).set ↔ _
  rw [View.set_slice_whole, Rect.mem_set_unit]
  exact Iff.rfl

theorem mem_blk4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v36_1).slice (win1_4.rect t)).set ↔ _
  rw [View.set_slice_whole, Rect.mem_set_unit]
  exact Iff.rfl

/-- The 20 blocks tile the array: node row r is in the block of point r / 5000. -/
theorem cover3 (i : S100000x128.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  refine ⟨⟨(i 0).val / 5000, by omega⟩, flush1_3 _, ?_⟩
  rw [mem_blk3]
  obtain ⟨-, -, -, -, -, -, e0, e1, -⟩ := idx_facts ⟨(i 0).val / 5000, by omega⟩
  intro a
  match a with
  | ⟨0, _⟩ => show win1_3.index _ 0 * 5000 ≤ (i 0).val ∧ (i 0).val < win1_3.index _ 0 * 5000 + 5000; rw [e0]; show (i 0).val / 5000 * 5000 ≤ (i 0).val ∧ (i 0).val < (i 0).val / 5000 * 5000 + 5000; omega
  | ⟨1, _⟩ => show win1_3.index _ 1 * 128 ≤ (i 1).val ∧ (i 1).val < win1_3.index _ 1 * 128 + 128; rw [e1]; omega

theorem cover4 (i : S100000x128.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  refine ⟨⟨(i 0).val / 5000, by omega⟩, flush1_4 _, ?_⟩
  rw [mem_blk4]
  obtain ⟨-, -, -, -, -, -, -, -, e0, e1⟩ := idx_facts ⟨(i 0).val / 5000, by omega⟩
  intro a
  match a with
  | ⟨0, _⟩ => show win1_4.index _ 0 * 5000 ≤ (i 0).val ∧ (i 0).val < win1_4.index _ 0 * 5000 + 5000; rw [e0]; show (i 0).val / 5000 * 5000 ≤ (i 0).val ∧ (i 0).val < (i 0).val / 5000 * 5000 + 5000; omega
  | ⟨1, _⟩ => show win1_4.index _ 1 * 128 ≤ (i 1).val ∧ (i 1).val < win1_4.index _ 1 * 128 + 128; rw [e1]; omega

/-- AFTER THE PASS the next-features array is comb h S d of the arrays the pass found … -/
theorem final3 (c : Dev nD) : (dat1 V c).arrAt 3 cfg1.N = comb (aH V c) (aS V c) (aD V c) :=
  (dat1 V c).arrAt_eq_of_cover 3 (comb (aH V c) (aS V c) (aD V c)) (fun t _ => flushed3 V c t) cover3

/-- … and the scaled-features array combS h S d. -/
theorem final4 (c : Dev nD) : (dat1 V c).arrAt 4 cfg1.N = combS (aH V c) (aS V c) (aD V c) :=
  (dat1 V c).arrAt_eq_of_cover 4 (combS (aH V c) (aS V c) (aD V c)) (fun t _ => flushed4 V c t) cover4

end Cert.KernelIdeal.KReg1

end
-- ==== Proof.KReg2.lean ====
/-
  The third propagation pass over the whole node array: the same pass as the first, over its own windows.

  The pass runs at 20 grid points; point t works on node rows 5000·t … 5000·t + 4999 of every window (the index maps send
  t to block (t, 0)).  What point t writes back is therefore block t of ONE function of the three arrays the pass reads
  — the features h, the segment sums S, the column d — namely comb h S d and combS h S d, and the 20 blocks tile the
  array: after the pass the two result arrays hold exactly those functions.  Everything is stated for arbitrary contents
  V of the buffers at the pass's entry.
-/
import proofs.«168759_j50216757625453_2_alg».proof.Proof.Gen.KernelIdeal.Frame
import proofs.«168759_j50216757625453_2_alg».proof.Proof.KPay
import Idealize.ShloMosaic.Lib.Pipeline.Value

noncomputable section

namespace Cert.KernelIdeal.KReg2

open Idealize.ShloMosaic Idealize.ShloMosaic.TcCoe Idealize.ShloMosaic.ValueIdx Idealize.SL.Sem
open Idealize.ShloMosaic.Pipeline (Dat)
open Cert.KernelIdeal Cert.KernelIdeal.Gen Cert.Spec.K

variable (V : (c : Dev nD) → (b : Ref sig .tc) → Buf (Elt Ideal) ((c : Thread nD τ).loc b))

theorem hz : (![0, 0] : Fin 2 → Nat) = fun _ => 0 := funext fun a => by fin_cases a <;> rfl

/-- The three arrays the pass reads, as the pass finds them. -/
abbrev aH (c : Dev nD) : S100000x128.Idx → EReal := V c (Pipeline.arrRef spec2 0)
abbrev aS (c : Dev nD) : S100000x128.Idx → EReal := V c (Pipeline.arrRef spec2 1)
abbrev aD (c : Dev nD) : S100000x1.Idx → EReal := V c (Pipeline.arrRef spec2 2)

/-- The printed index maps, decided over the grid: every window's block at point t is block (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Row p of point t's block is node row 5000·t + p. -/
abbrev node (t : Fin cfg2.N) (p : Fin 5000) : Fin 100000 :=
  ⟨5000 * t.val + p.val, by have := t.isLt; have hN : cfg2.N = 20 := N_2; have := p.isLt; omega⟩

/-- The feature block at point t, entry (p, k): the feature array at (5000·t + p, k). -/
theorem readH (c : Dev nD) (t : Fin cfg2.N) (p : Fin 5000) (k : Fin 128) :
    (iblk2 V c 0 t : Vec Ideal S5000x128 .f32) (ix2 p k) = aH V c (ix2 (node t p) k) := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t 0 * 5000 + 1 * p.val = 5000 * t.val + p.val; rw [e0]; omega
  | ⟨1, _⟩ => show win2_0.index t 1 * 128 + 1 * k.val = k.val; rw [e1]; omega

/-- The segment-sum block likewise. -/
theorem readS (c : Dev nD) (t : Fin cfg2.N) (p : Fin 5000) (k : Fin 128) :
    (iblk2 V c 1 t : Vec Ideal S5000x128 .f32) (ix2 p k) = aS V c (ix2 (node t p) k) := by
  obtain ⟨-, -, e0, e1, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t 0 * 5000 + 1 * p.val = 5000 * t.val + p.val; rw [e0]; omega
  | ⟨1, _⟩ => show win2_1.index t 1 * 128 + 1 * k.val = k.val; rw [e1]; omega

/-- The column block likewise. -/
theorem readD (c : Dev nD) (t : Fin cfg2.N) (p : Fin 5000) (z : Fin 1) :
    (iblk2 V c 2 t : Vec Ideal S5000x1 .f32) (ix2 p z) = aD V c (ix2 (node t p) z) := by
  obtain ⟨-, -, -, -, e0, e1, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t 0 * 5000 + 1 * p.val = 5000 * t.val + p.val; rw [e0]; omega
  | ⟨1, _⟩ => show win2_2.index t 1 * 1 + 1 * z.val = z.val; rw [e1]; omega

/-- One pass at a block row is the pass at the node row: it reads only that row of each array. -/
theorem combE_blk (c : Dev nD) (t : Fin cfg2.N) (p : Fin 5000) (k : Fin 128) :
    combE (n := 5000) (iblk2 V c 0 t) (iblk2 V c 1 t) (iblk2 V c 2 t) p k = combE (aH V c) (aS V c) (aD V c) (node t p) k := by
  unfold combE
  rw [readH, readS, readD]

/-- WHAT POINT t WRITES BACK to the next-features array: block t of comb h S d. -/
theorem flushed3 (c : Dev nD) (t : Fin cfg2.N) :
    (dat2 V c).flushed 3 t = ((cfg2.win 3).blk t).view.read (Elt Ideal) (comb (aH V c) (aS V c) (aD V c)) := by
  obtain ⟨-, -, -, -, -, -, e0, e1, -⟩ := idx_facts t
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz]
  funext j
  obtain ⟨p, k, rfl⟩ : ∃ (p : Fin 5000) (k : Fin 128), j = ix2 p k := ⟨j 0, j 1, eq_ix2 j⟩
  show k2_pay2 (F := Ideal) (iblk2 V c 0 t) (iblk2 V c 1 t) (iblk2 V c 2 t) (ix2 p k)
    = comb (aH V c) (aS V c) (aD V c) (((cfg2.win 3).blk t).view.emb (ix2 p k))
  have he : ((cfg2.win 3).blk t).view.emb (ix2 p k) = ix2 (node t p) k := by
    funext a
    apply Fin.ext
    match a with
    | ⟨0, _⟩ => show win2_3.index t 0 * 5000 + 1 * p.val = 5000 * t.val + p.val; rw [e0]; omega
    | ⟨1, _⟩ => show win2_3.index t 1 * 128 + 1 * k.val = k.val; rw [e1]; omega
  rw [he, comb_apply, Cert.KernelIdeal.KPay.next_apply2, combE_blk]

/-- WHAT POINT t WRITES BACK to the scaled-features array: block t of combS h S d. -/
theorem flushed4 (c : Dev nD) (t : Fin cfg2.N) :
    (dat2 V c).flushed 4 t = ((cfg2.win 4).blk t).view.read (Elt Ideal) (combS (aH V c) (aS V c) (aD V c)) := by
  obtain ⟨-, -, -, -, -, -, -, -, e0, e1⟩ := idx_facts t
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz]
  funext j
  obtain ⟨p, k, rfl⟩ : ∃ (p : Fin 5000) (k : Fin 128), j = ix2 p k := ⟨j 0, j 1, eq_ix2 j⟩
  show k2_pay3 (F := Ideal) (iblk2 V c 0 t) (iblk2 V c 1 t) (iblk2 V c 2 t) (ix2 p k)
    = combS (aH V c) (aS V c) (aD V c) (((cfg2.win 4).blk t).view.emb (ix2 p k))
  have he : ((cfg2.win 4).blk t).view.emb (ix2 p k) = ix2 (node t p) k := by
    funext a
    apply Fin.ext
    match a with
    | ⟨0, _⟩ => show win2_4.index t 0 * 5000 + 1 * p.val = 5000 * t.val + p.val; rw [e0]; omega
    | ⟨1, _⟩ => show win2_4.index t 1 * 128 + 1 * k.val = k.val; rw [e1]; omega
  rw [he, combS_apply, Cert.KernelIdeal.KPay.nextS_apply2, combE_blk, readD]

/-- An index of the array is in point t's block of window 3 iff each coordinate is in the block's range. -/
theorem mem_blk3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v47_0).slice (win2_3.rect t)).set ↔ _
  rw [View.set_slice_whole, Rect.mem_set_unit]
  exact Iff.rfl

theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v47_1).slice (win2_4.rect t)).set ↔ _
  rw [View.set_slice_whole, Rect.mem_set_unit]
  exact Iff.rfl

/-- The 20 blocks tile the array: node row r is in the block of point r / 5000. -/
theorem cover3 (i : S100000x128.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 128 := (i 1).isLt
  refine ⟨⟨(i 0).val / 5000, by omega⟩, flush2_3 _, ?_⟩
  rw [mem_blk3]
  obtain ⟨-, -, -, -, -, -, e0, e1, -⟩ := idx_facts ⟨(i 0).val / 5000, by omega⟩
  intro a
  match a with
  | ⟨0, _⟩ => show win2_3.index _ 0 * 5000 ≤ (i 0).val ∧ (i 0).val < win2_3.index _ 0 * 5000 + 5000; rw [e0]; show (i 0).val / 5000 * 5000 ≤ (i 0).val ∧ (i 0).val < (i 0).val / 5000 * 5000 + 5000; omega
  | ⟨1, _⟩ => show win2_3.index _ 1 * 128 ≤ (i 1).val ∧ (i 1).val < win2_3.index _ 1 * 128 + 128; rw [e1]; omega

theorem cover4 (i : S100000x128.Idx) : ∃ t : Fin cfg2.N, (cfg2.win 4).flush t = true ∧ i ∈ ((cfg2.win 4).blk t).view.set := by
  have hN : cfg2.N = 20 := N_2
  have hi0 : (i 0).val < 100000 := (i 0).isLt
  have hi1 : (i 1).val < 128 := (i 1).isLt
  refine ⟨⟨(i 0).val / 5000, by omega⟩, flush2_4 _, ?_⟩
  rw [mem_blk4]
  obtain ⟨-, -, -, -, -, -, -, -, e0, e1⟩ := idx_facts ⟨(i 0).val / 5000, by omega⟩
  intro a
  match a with
  | ⟨0, _⟩ => show win2_4.index _ 0 * 5000 ≤ (i 0).val ∧ (i 0).val < win2_4.index _ 0 * 5000 + 5000; rw [e0]; show (i 0).val / 5000 * 5000 ≤ (i 0).val ∧ (i 0).val < (i 0).val / 5000 * 5000 + 5000; omega
  | ⟨1, _⟩ => show win2_4.index _ 1 * 128 ≤ (i 1).val ∧ (i 1).val < win2_4.index _ 1 * 128 + 128; rw [e1]; omega

/-- AFTER THE PASS the next-features array is comb h S d of the arrays the pass found … -/
theorem final3 (c : Dev nD) : (dat2 V c).arrAt 3 cfg2.N = comb (aH V c) (aS V c) (aD V c) :=
  (dat2 V c).arrAt_eq_of_cover 3 (comb (aH V c) (aS V c) (aD V c)) (fun t _ => flushed3 V c t) cover3

/-- … and the scaled-features array combS h S d. -/
theorem final4 (c : Dev nD) : (dat2 V c).arrAt 4 cfg2.N = combS (aH V c) (aS V c) (aD V c) :=
  (dat2 V c).arrAt_eq_of_cover 4 (combS (aH V c) (aS V c) (aD V c)) (fun t _ => flushed4 V c t) cover4

end Cert.KernelIdeal.KReg2

end
-- ==== Proof.KPay3.lean ====
/-
  The last fused pass, entry by entry, at the ideal instance.

  From the blocks h, S, d of 5000 node rows it forms the same propagated value as the earlier passes, then, with the
  weight block Wᵀ [128, 40] and the rows b, gamma, beta [1, 40]:
      logit(p, q) = Σ_k value(p, k) · Wᵀ(k, q) + b(q)          (a matrix product into zeros; both operands narrowed to
                                                                   sixteen bits first, which changes nothing here)
      mean(p)     = (Σ_q logit(p, q)) / 40
      var(p)      = (Σ_q (logit(p, q) − mean(p))²) / 40
      out(p, q)   = (logit(p, q) − mean(p)) · (var(p) + ε)^(−1/2) · gamma(q) + beta(q).
-/
import proofs.«168759_j50216757625453_2_alg».proof.Proof.Gen.KernelIdeal.Skeleton
import proofs.«168759_j50216757625453_2_alg».proof.Proof.Spec
import proofs.«168759_j50216757625453_2_alg».proof.Proof.LibRowReduce
import proofs.«168759_j50216757625453_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPay3

open Idealize.ShloMosaic Idealize.ShloMosaic.ValueIdx Cert.KernelIdeal Cert.KernelIdeal.Gen Cert.Spec.K

variable (x0 x1 : Vec Ideal S5000x128 .f32) (x2 : Vec Ideal S5000x1 .f32) (x3 : Vec Ideal S128x40 .f32)
  (x4 x5 x6 : Vec Ideal S1x40 .f32)

/-- The printed product's dimension numbers are those of a plain [5000,128] × [128,40] product. -/
theorem dot_plain : dot_S5000x128_S128x40_S5000x40_1_0_0_1_n_n = DotDims.plain 5000 128 40 := rfl

/-- A logit of the block. -/
theorem logit_apply (p : Fin 5000) (q : Fin 40) :
    k3_pay2 (F := Ideal) x0 x1 x2 x3 x4 (ix2 p q) = logitE (n := 5000) (comb x0 x1 x2) x3 x4 p q := by
  unfold k3_pay2 logitE
  simp only [shapeCast_self]
  rw [addf_apply, dot_plain]
  refine congrArg₂ (· + ·) ((Cert.LibPlainDot.matmul_plain_apply none _ _ p q).trans ?_) (broadcastTo_1b_ab_apply _ _ p q)
  refine Finset.sum_congr rfl fun k _ => ?_
  rw [truncf_apply, truncf_apply, comb_apply]
  unfold combE
  simp only [addf_apply, mulf_apply, broadcast_apply, Cert.LibRowReduce.broadcastTo_a1_ab_apply]
  rfl

/-- The row mean, as the column the pass keeps it in. -/
theorem mu_apply (p : Fin 5000) (z : Fin 1) :
    k3_pay3 (F := Ideal) x0 x1 x2 x3 x4 (ix2 p z) = muE (n := 5000) (comb x0 x1 x2) x3 x4 p := by
  unfold k3_pay3 muE
  rw [divf_apply, broadcast_apply, Cert.LibRowReduce.shapeCast_a_a1_apply]
  refine congrArg (fun s => Ideal.div s fortyW) ?_
  refine (Cert.LibRowReduce.rowSum_apply _ _ _ _ _ p).trans ?_
  exact Finset.sum_congr rfl fun q _ => logit_apply x0 x1 x2 x3 x4 p q

/-- A centred logit. -/
theorem centred_apply (p : Fin 5000) (q : Fin 40) :
    k3_pay5 (F := Ideal) x0 x1 x2 x3 x4 (ix2 p q)
      = logitE (n := 5000) (comb x0 x1 x2) x3 x4 p q - muE (n := 5000) (comb x0 x1 x2) x3 x4 p := by
  unfold k3_pay5
  rw [subf_apply, logit_apply, Cert.LibRowReduce.broadcastTo_a1_ab_apply, mu_apply]

/-- The row variance, as a column. -/
theorem var_apply (p : Fin 5000) (z : Fin 1) :
    k3_pay4 (F := Ideal) x0 x1 x2 x3 x4 (ix2 p z) = varE (n := 5000) (comb x0 x1 x2) x3 x4 p := by
  unfold k3_pay4 varE
  rw [divf_apply, broadcast_apply, Cert.LibRowReduce.shapeCast_a_a1_apply]
  refine congrArg (fun s => Ideal.div s fortyW) ?_
  refine (Cert.LibRowReduce.rowSum_apply _ _ _ _ _ p).trans ?_
  refine Finset.sum_congr rfl fun q _ => ?_
  rw [mulf_apply, subf_apply, logit_apply, Cert.LibRowReduce.broadcastTo_a1_ab_apply, mu_apply]

/-- THE PASS'S STORE at (p, q). -/
theorem out_apply (p : Fin 5000) (q : Fin 40) :
    k3_pay1 (F := Ideal) (k3_pay4 x0 x1 x2 x3 x4) (k3_pay5 x0 x1 x2 x3 x4) (k3_pay6 (F := Ideal)) x5 x6 (ix2 p q)
      = fclnE (n := 5000) (comb x0 x1 x2) x3 x4 x5 x6 p q := by
  unfold k3_pay1 k3_pay6 fclnE
  simp only [shapeCast_self]
  rw [addf_apply, mulf_apply, mulf_apply, centred_apply, Cert.LibRowReduce.broadcastTo_a1_ab_apply,
    broadcastTo_1b_ab_apply, broadcastTo_1b_ab_apply]
  show _ * Ideal.rsqrt (k3_pay4 (F := Ideal) x0 x1 x2 x3 x4 (ix2 p (0 : Fin 1)) + _) * _ + _ = _
  rw [var_apply]
  rfl

end Cert.KernelIdeal.KPay3

end
-- ==== Proof.KReg3.lean ====
/-
  The last pass over the whole node array.

  It runs at 20 grid points; point t works on node rows 5000·t … 5000·t + 4999 of the features h, the segment sums S,
  the column d and the result, and reads the weight matrix Wᵀ and the rows b, gamma, beta whole at every point.  A
  result row depends only on the same row of h, S and d, so what point t writes back is block t of ONE function of the
  seven arrays — fcln (comb h S d) Wᵀ b gamma beta — and the 20 blocks tile the result array.  Stated for arbitrary
  contents V of the buffers at the pass's entry.
-/
import proofs.«168759_j50216757625453_2_alg».proof.Proof.Gen.KernelIdeal.Frame
import proofs.«168759_j50216757625453_2_alg».proof.Proof.KPay3
import Idealize.ShloMosaic.Lib.Pipeline.Value

noncomputable section

namespace Cert.KernelIdeal.KReg3

open Idealize.ShloMosaic Idealize.ShloMosaic.TcCoe Idealize.ShloMosaic.ValueIdx Idealize.SL.Sem
open Idealize.ShloMosaic.Pipeline (Dat)
open Cert.KernelIdeal Cert.KernelIdeal.Gen Cert.Spec.K

variable (V : (c : Dev nD) → (b : Ref sig .tc) → Buf (Elt Ideal) ((c : Thread nD τ).loc b))

theorem hz : (![0, 0] : Fin 2 → Nat) = fun _ => 0 := funext fun a => by fin_cases a <;> rfl

/-- The seven arrays the pass reads, as the pass finds them. -/
abbrev aH (c : Dev nD) : S100000x128.Idx → EReal := V c (Pipeline.arrRef spec3 0)
abbrev aS (c : Dev nD) : S100000x128.Idx → EReal := V c (Pipeline.arrRef spec3 1)
abbrev aD (c : Dev nD) : S100000x1.Idx → EReal := V c (Pipeline.arrRef spec3 2)
abbrev aW (c : Dev nD) : S128x40.Idx → EReal := V c (Pipeline.arrRef spec3 3)
abbrev aB (c : Dev nD) : S1x40.Idx → EReal := V c (Pipeline.arrRef spec3 4)
abbrev aG (c : Dev nD) : S1x40.Idx → EReal := V c (Pipeline.arrRef spec3 5)
abbrev aBe (c : Dev nD) : S1x40.Idx → EReal := V c (Pipeline.arrRef spec3 6)

/-- The printed index maps, decided over the grid: the row-blocked windows' block at point t is block (t, 0), the
    whole-array windows' block is block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row p of point t's block is node row 5000·t + p. -/
abbrev node (t : Fin cfg3.N) (p : Fin 5000) : Fin 100000 :=
  ⟨5000 * t.val + p.val, by have := t.isLt; have hN : cfg3.N = 20 := N_3; have := p.isLt; omega⟩

theorem readH (c : Dev nD) (t : Fin cfg3.N) (p : Fin 5000) (k : Fin 128) :
    (iblk3 V c 0 t : Vec Ideal S5000x128 .f32) (ix2 p k) = aH V c (ix2 (node t p) k) := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * p.val = 5000 * t.val + p.val; rw [e0]; omega
  | ⟨1, _⟩ => show win3_0.index t 1 * 128 + 1 * k.val = k.val; rw [e1]; omega

theorem readS (c : Dev nD) (t : Fin cfg3.N) (p : Fin 5000) (k : Fin 128) :
    (iblk3 V c 1 t : Vec Ideal S5000x128 .f32) (ix2 p k) = aS V c (ix2 (node t p) k) := by
  obtain ⟨-, -, e0, e1, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t 0 * 5000 + 1 * p.val = 5000 * t.val + p.val; rw [e0]; omega
  | ⟨1, _⟩ => show win3_1.index t 1 * 128 + 1 * k.val = k.val; rw [e1]; omega

theorem readD (c : Dev nD) (t : Fin cfg3.N) (p : Fin 5000) (z : Fin 1) :
    (iblk3 V c 2 t : Vec Ideal S5000x1 .f32) (ix2 p z) = aD V c (ix2 (node t p) z) := by
  obtain ⟨-, -, -, -, e0, e1, -⟩ := idx_facts t
  unfold iblk3
  rw [View.read_apply]
  show V c (Pipeline.arrRef spec3 2) _ = V c (Pipeline.arrRef spec3 2) _
  congr 1
  funext a
  apply Fin.ext
  match a with
  | ⟨0, _⟩ => show win3_2.index t 0 * 5000 + 1 * p.val = 5000 * t.val + p.val; rw [e0]; omega
  | ⟨1, _⟩ => show win3_2.index t 1 * 1 + 1 * z.val = z.val; rw [e1]; omega

/-- The weight block at every point is the whole weight matrix. -/
theorem readW (c : Dev nD) (t : Fin cfg3.N) : (iblk3 V c 3 t : Vec Ideal S128x40 .f32) = aW V c := by
  obtain ⟨-, -, -, -, -, -, e0, e1, -⟩ := idx_facts t
  funext j
  unfold iblk3
  rw [View.read_apply]
  show V c (Pipeline.arrRef spec3 3) _ = V c (Pipeline.arrRef spec3 3) j
  congr 1
  funext a
  apply Fin.ext
  match a with
  | ⟨0, _⟩ => show win3_3.index t 0 * 128 + 1 * (j 0).val = (j 0).val; rw [e0]; omega
  | ⟨1, _⟩ => show win3_3.index t 1 * 40 + 1 * (j 1).val = (j 1).val; rw [e1]; omega

/-- The three row blocks at every point are the whole rows. -/
theorem readB (c : Dev nD) (t : Fin cfg3.N) : (iblk3 V c 4 t : Vec Ideal S1x40 .f32) = aB V c := by
  obtain ⟨-, -, -, -, -, -, -, -, e0, e1, -⟩ := idx_facts t
  funext j
  unfold iblk3
  rw [View.read_apply]
  show V c (Pipeline.arrRef spec3 4) _ = V c (Pipeline.arrRef spec3 4) j
  congr 1
  funext a
  apply Fin.ext
  match a with
  | ⟨0, _⟩ => show win3_4.index t 0 * 1 + 1 * (j 0).val = (j 0).val; rw [e0]; omega
  | ⟨1, _⟩ => show win3_4.index t 1 * 40 + 1 * (j 1).val = (j 1).val; rw [e1]; omega

theorem readG (c : Dev nD) (t : Fin cfg3.N) : (iblk3 V c 5 t : Vec Ideal S1x40 .f32) = aG V c := by
  obtain ⟨-, -, -, -, -, -, -, -, -, -, e0, e1, -⟩ := idx_facts t
  funext j
  unfold iblk3
  rw [View.read_apply]
  show V c (Pipeline.arrRef spec3 5) _ = V c (Pipeline.arrRef spec3 5) j
  congr 1
  funext a
  apply Fin.ext
  match a with
  | ⟨0, _⟩ => show win3_5.index t 0 * 1 + 1 * (j 0).val = (j 0).val; rw [e0]; omega
  | ⟨1, _⟩ => show win3_5.index t 1 * 40 + 1 * (j 1).val = (j 1).val; rw [e1]; omega

theorem readBe (c : Dev nD) (t : Fin cfg3.N) : (iblk3 V c 6 t : Vec Ideal S1x40 .f32) = aBe V c := by
  obtain ⟨-, -, -, -, -, -, -, -, -, -, -, -, e0, e1, -⟩ := idx_facts t
  funext j
  unfold iblk3
  rw [View.read_apply]
  show V c (Pipeline.arrRef spec3 6) _ = V c (Pipeline.arrRef spec3 6) j
  congr 1
  funext a
  apply Fin.ext
  match a with
  | ⟨0, _⟩ => show win3_6.index t 0 * 1 + 1 * (j 0).val = (j 0).val; rw [e0]; omega
  | ⟨1, _⟩ => show win3_6.index t 1 * 40 + 1 * (j 1).val = (j 1).val; rw [e1]; omega

/-- The propagated value at a block row is the value at the node row. -/
theorem combE_blk (c : Dev nD) (t : Fin cfg3.N) (p : Fin 5000) (k : Fin 128) :
    combE (n := 5000) (iblk3 V c 0 t) (iblk3 V c 1 t) (iblk3 V c 2 t) p k = combE (aH V c) (aS V c) (aD V c) (node t p) k := by
  unfold combE
  rw [readH, readS, readD]

/-- WHAT POINT t WRITES BACK: block t of fcln (comb h S d) Wᵀ b gamma beta. -/
theorem flushed7 (c : Dev nD) (t : Fin cfg3.N) :
    (dat3 V c).flushed 7 t = ((cfg3.win 7).blk t).view.read (Elt Ideal)
      (fcln (comb (aH V c) (aS V c) (aD V c)) (aW V c) (aB V c) (aG V c) (aBe V c)) := by
  obtain ⟨-, -, -, -, -, -, -, -, -, -, -, -, -, -, e0, e1⟩ := idx_facts t
  show (cfg3.win 7).cut (grid3.coords t) ((dat3 V c).after 7 t) = _
  rw [after3_7]
  unfold out3_7
  rw [View.canon_unit_zero hz]
  simp only [View.ld_unit_zero (S := S5000x128) hz, View.ld_unit_zero (S := S5000x1) hz,
    View.ld_unit_zero (S := S128x40) hz, View.ld_unit_zero (S := S1x40) hz]
  funext j
  obtain ⟨p, q, rfl⟩ : ∃ (p : Fin 5000) (q : Fin 40), j = ix2 p q := ⟨j 0, j 1, eq_ix2 j⟩
  show k3_pay1 (F := Ideal) (k3_pay4 (iblk3 V c 0 t) (iblk3 V c 1 t) (iblk3 V c 2 t) (iblk3 V c 3 t) (iblk3 V c 4 t))
      (k3_pay5 (iblk3 V c 0 t) (iblk3 V c 1 t) (iblk3 V c 2 t) (iblk3 V c 3 t) (iblk3 V c 4 t)) (k3_pay6 (F := Ideal))
      (iblk3 V c 5 t) (iblk3 V c 6 t) (ix2 p q)
    = fcln (comb (aH V c) (aS V c) (aD V c)) (aW V c) (aB V c) (aG V c) (aBe V c) (((cfg3.win 7).blk t).view.emb (ix2 p q))
  have he : ((cfg3.win 7).blk t).view.emb (ix2 p q) = ix2 (node t p) q := by
    funext a
    apply Fin.ext
    match a with
    | ⟨0, _⟩ => show win3_7.index t 0 * 5000 + 1 * p.val = 5000 * t.val + p.val; rw [e0]; omega
    | ⟨1, _⟩ => show win3_7.index t 1 * 40 + 1 * q.val = q.val; rw [e1]; omega
  rw [he, fcln_apply, Cert.KernelIdeal.KPay3.out_apply, readW, readB, readG, readBe]
  exact fclnE_congr _ _ _ _ _ _ p (node t p) q fun k => by rw [comb_apply, comb_apply, combE_blk]

theorem mem_blk7 (t : Fin cfg3.N) (i : S100000x40.Idx) :
    i ∈ ((cfg3.win 7).blk t).view.set ↔ ∀ a : Fin 2, win3_7.index t a * S5000x40.size a ≤ (i a).val ∧ (i a).val < win3_7.index t a * S5000x40.size a + S5000x40.size a := by
  show i ∈ ((View.whole main_v62).slice (win3_7.rect t)).set ↔ _
  rw [View.set_slice_whole, Rect.mem_set_unit]
  exact Iff.rfl

/-- The 20 blocks tile the result array. -/
theorem cover7 (i : S100000x40.Idx) : ∃ t : Fin cfg3.N, (cfg3.win 7).flush t = true ∧ i ∈ ((cfg3.win 7).blk t).view.set := by
  have hN : cfg3.N = 20 := N_3
  have hi0 : (i 0).val < 100000 := (i 0).isLt
  have hi1 : (i 1).val < 40 := (i 1).isLt
  refine ⟨⟨(i 0).val / 5000, by omega⟩, flush3_7 _, ?_⟩
  rw [mem_blk7]
  obtain ⟨-, -, -, -, -, -, -, -, -, -, -, -, -, -, e0, e1⟩ := idx_facts ⟨(i 0).val / 5000, by omega⟩
  intro a
  match a with
  | ⟨0, _⟩ => show win3_7.index _ 0 * 5000 ≤ (i 0).val ∧ (i 0).val < win3_7.index _ 0 * 5000 + 5000; rw [e0]; show (i 0).val / 5000 * 5000 ≤ (i 0).val ∧ (i 0).val < (i 0).val / 5000 * 5000 + 5000; omega
  | ⟨1, _⟩ => show win3_7.index _ 1 * 40 ≤ (i 1).val ∧ (i 1).val < win3_7.index _ 1 * 40 + 40; rw [e1]; omega

/-- AFTER THE PASS the result array is fcln (comb h S d) Wᵀ b gamma beta of the arrays the pass found. -/
theorem final7 (c : Dev nD) : (dat3 V c).arrAt 7 cfg3.N
    = fcln (comb (aH V c) (aS V c) (aD V c)) (aW V c) (aB V c) (aG V c) (aBe V c) :=
  (dat3 V c).arrAt_eq_of_cover 7 _ (fun t _ => flushed7 V c t) cover7

end Cert.KernelIdeal.KReg3

end
-- ==== Proof.KHost.lean ====
/-
  The kernel program's host stretches, read as plain functions of the buffers they read, for arbitrary earlier contents W.

  Before the first pass: the degree count, its inverse square root as a column, the features scaled by it, and the first
  segment sums.  Between passes: the segment sums of the scaled features the pass before left.  Before the last pass
  also the weight matrix transposed and the three parameter vectors as [1, 40] rows.
-/
import proofs.«168759_j50216757625453_2_alg».proof.Proof.Gen.KernelIdeal.Launch
import proofs.«168759_j50216757625453_2_alg».proof.Proof.Spec
import Idealize.ShloMosaic.Lib.StableHlo.Run

noncomputable section

namespace Cert.KernelIdeal.KHost

open Idealize.ShloMosaic Idealize.ShloMosaic.TcCoe Idealize.SL.Sem Idealize.ShloMosaic.StableHlo
open Cert.KernelIdeal Cert.KernelIdeal.Gen

variable (W : Valuation τ sig (Elt Ideal))

/-- The inverse square-root degree column. -/
theorem s0_dcol : after (hostOps0 (F := Ideal)) W (Proc.devRef .tc main_v12)
    = Cert.Spec.K.dcol (W (Proc.devRef .tc main_arg1)) := by
  after_results
  rfl

/-- The first segment sums, of the features scaled on the host. -/
theorem s0_sagg : after (hostOps0 (F := Ideal)) W (Proc.devRef .tc main_v24)
    = Cert.Spec.K.sagg (W (Proc.devRef .tc main_arg1)) (W (Proc.devRef .tc main_arg2))
        (Cert.Spec.K.hs0 (W (Proc.devRef .tc main_arg0)) (W (Proc.devRef .tc main_arg1))) := by
  after_results_simp
  try rfl

/-- The segment sums between the first and second pass. -/
theorem s1_sagg : after (hostOps1 (F := Ideal)) W (Proc.devRef .tc main_v35)
    = Cert.Spec.K.sagg (W (Proc.devRef .tc main_arg1)) (W (Proc.devRef .tc main_arg2)) (W (Proc.devRef .tc main_v25_1)) := by
  after_results_simp
  try rfl

/-- The segment sums between the second and third pass. -/
theorem s2_sagg : after (hostOps2 (F := Ideal)) W (Proc.devRef .tc main_v46)
    = Cert.Spec.K.sagg (W (Proc.devRef .tc main_arg1)) (W (Proc.devRef .tc main_arg2)) (W (Proc.devRef .tc main_v36_1)) := by
  after_results_simp
  try rfl

/-- The segment sums before the last pass. -/
theorem s3_sagg : after (hostOps3 (F := Ideal)) W (Proc.devRef .tc main_v57)
    = Cert.Spec.K.sagg (W (Proc.devRef .tc main_arg1)) (W (Proc.devRef .tc main_arg2)) (W (Proc.devRef .tc main_v47_1)) := by
  after_results_simp
  try rfl

/-- The weight matrix transposed. -/
theorem s3_wt : after (hostOps3 (F := Ideal)) W (Proc.devRef .tc main_v58)
    = transpose S128x40 [1, 0] (W (Proc.devRef .tc main_arg3)) Facts₀.transposes_S40x128_S128x40_1_0 := by
  after_results

/-- The bias, the scale and the shift as rows. -/
theorem s3_b : after (hostOps3 (F := Ideal)) W (Proc.devRef .tc main_v59)
    = shapeCast S1x40 (W (Proc.devRef .tc main_arg4)) Facts₀.shapeCasts_S40_S1x40 := by
  after_results
  rfl

theorem s3_g : after (hostOps3 (F := Ideal)) W (Proc.devRef .tc main_v60)
    = shapeCast S1x40 (W (Proc.devRef .tc main_arg5)) Facts₀.shapeCasts_S40_S1x40 := by
  after_results
  rfl

theorem s3_be : after (hostOps3 (F := Ideal)) W (Proc.devRef .tc main_v61)
    = shapeCast S1x40 (W (Proc.devRef .tc main_arg6)) Facts₀.shapeCasts_S40_S1x40 := by
  after_results
  rfl

end Cert.KernelIdeal.KHost

end
-- ==== Proof.KRun.lean ====
/-
  The kernel program's run, with the value of its result.

  The buffer contents at the eight segment boundaries of the program (host stretch, pass, host stretch, pass, …) are a
  fold from the launch memory.  Walking that fold: the index vectors row, col and the parameters are never written, so
  they read as launched at every boundary; the column d = dinv is written once, before the first pass, and only read
  afterwards; each pass leaves comb / combS of what it found (the passes' closed forms); each host stretch leaves the
  segment sums of the scaled features the pass before left.  So the result buffer ends at the specification's K.out of
  the seven launch arrays, and every weakly fair execution of the program ends there.
-/
import proofs.«168759_j50216757625453_2_alg».proof.Proof.Gen.KernelIdeal.Frame
import proofs.«168759_j50216757625453_2_alg».proof.Proof.KReg0
import proofs.«168759_j50216757625453_2_alg».proof.Proof.KReg1
import proofs.«168759_j50216757625453_2_alg».proof.Proof.KReg2
import proofs.«168759_j50216757625453_2_alg».proof.Proof.KReg3
import proofs.«168759_j50216757625453_2_alg».proof.Proof.KHost

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The seven launch arrays on core c. -/
abbrev feat (c : Dev nD) : FVec Ideal S100000x128 .f32 := m ((c : Thread nD τ).loc main_arg0)
abbrev row (c : Dev nD) : IVec S1600000 32 := m ((c : Thread nD τ).loc main_arg1)
abbrev col (c : Dev nD) : IVec S1600000 32 := m ((c : Thread nD τ).loc main_arg2)
abbrev wgt (c : Dev nD) : FVec Ideal S40x128 .f32 := m ((c : Thread nD τ).loc main_arg3)
abbrev bias (c : Dev nD) : FVec Ideal S40 .f32 := m ((c : Thread nD τ).loc main_arg4)
abbrev gam (c : Dev nD) : FVec Ideal S40 .f32 := m ((c : Thread nD τ).loc main_arg5)
abbrev bet (c : Dev nD) : FVec Ideal S40 .f32 := m ((c : Thread nD τ).loc main_arg6)

/-- No operation of a host stretch writes the buffer: each operation's one written buffer is another. -/
local macro "nw" : tactic => `(tactic| (
  refine List.forall_iff_forall_mem.mp ?_
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Buffers nothing writes read as launched -/

/-- After the first pass. -/
theorem kept2 (c : Dev nD) (b : Ref sig .tc)
    (h0 : ∀ op ∈ (hostOps0 (F := Ideal)), Proc.devRef .tc b ∉ op.writes) (n0 : ∀ w, Pipeline.arrRef spec0 w ≠ b) :
    W2 m ρ c (Proc.devRef .tc b) = m ((c : Thread nD τ).loc b) :=
  (W2_of_ne m ρ c b n0).trans ((StableHlo.after_of_forall_not_mem _ _ h0).trans rfl)

/-- After the second pass. -/
theorem kept4 (c : Dev nD) (b : Ref sig .tc)
    (h0 : ∀ op ∈ (hostOps0 (F := Ideal)), Proc.devRef .tc b ∉ op.writes) (n0 : ∀ w, Pipeline.arrRef spec0 w ≠ b)
    (h1 : ∀ op ∈ (hostOps1 (F := Ideal)), Proc.devRef .tc b ∉ op.writes) (n1 : ∀ w, Pipeline.arrRef spec1 w ≠ b) :
    W4 m ρ c (Proc.devRef .tc b) = m ((c : Thread nD τ).loc b) :=
  (W4_of_ne m ρ c b n1).trans ((StableHlo.after_of_forall_not_mem _ _ h1).trans (kept2 m ρ c b h0 n0))

/-- After the third pass. -/
theorem kept6 (c : Dev nD) (b : Ref sig .tc)
    (h0 : ∀ op ∈ (hostOps0 (F := Ideal)), Proc.devRef .tc b ∉ op.writes) (n0 : ∀ w, Pipeline.arrRef spec0 w ≠ b)
    (h1 : ∀ op ∈ (hostOps1 (F := Ideal)), Proc.devRef .tc b ∉ op.writes) (n1 : ∀ w, Pipeline.arrRef spec1 w ≠ b)
    (h2 : ∀ op ∈ (hostOps2 (F := Ideal)), Proc.devRef .tc b ∉ op.writes) (n2 : ∀ w, Pipeline.arrRef spec2 w ≠ b) :
    W6 m ρ c (Proc.devRef .tc b) = m ((c : Thread nD τ).loc b) :=
  (W6_of_ne m ρ c b n2).trans ((StableHlo.after_of_forall_not_mem _ _ h2).trans (kept4 m ρ c b h0 n0 h1 n1))

theorem row2 (c : Dev nD) : W2 m ρ c (Proc.devRef .tc main_arg1) = row m c := kept2 m ρ c main_arg1 (by nw) (by decide)
theorem col2 (c : Dev nD) : W2 m ρ c (Proc.devRef .tc main_arg2) = col m c := kept2 m ρ c main_arg2 (by nw) (by decide)
theorem row4 (c : Dev nD) : W4 m ρ c (Proc.devRef .tc main_arg1) = row m c := kept4 m ρ c main_arg1 (by nw) (by decide) (by nw) (by decide)
theorem col4 (c : Dev nD) : W4 m ρ c (Proc.devRef .tc main_arg2) = col m c := kept4 m ρ c main_arg2 (by nw) (by decide) (by nw) (by decide)
theorem row6 (c : Dev nD) : W6 m ρ c (Proc.devRef .tc main_arg1) = row m c := kept6 m ρ c main_arg1 (by nw) (by decide) (by nw) (by decide) (by nw) (by decide)
theorem col6 (c : Dev nD) : W6 m ρ c (Proc.devRef .tc main_arg2) = col m c := kept6 m ρ c main_arg2 (by nw) (by decide) (by nw) (by decide) (by nw) (by decide)
theorem wgt6 (c : Dev nD) : W6 m ρ c (Proc.devRef .tc main_arg3) = wgt m c := kept6 m ρ c main_arg3 (by nw) (by decide) (by nw) (by decide) (by nw) (by decide)
theorem bias6 (c : Dev nD) : W6 m ρ c (Proc.devRef .tc main_arg4) = bias m c := kept6 m ρ c main_arg4 (by nw) (by decide) (by nw) (by decide) (by nw) (by decide)
theorem gam6 (c : Dev nD) : W6 m ρ c (Proc.devRef .tc main_arg5) = gam m c := kept6 m ρ c main_arg5 (by nw) (by decide) (by nw) (by decide) (by nw) (by decide)
theorem bet6 (c : Dev nD) : W6 m ρ c (Proc.devRef .tc main_arg6) = bet m c := kept6 m ρ c main_arg6 (by nw) (by decide) (by nw) (by decide) (by nw) (by decide)

/-! ## The column d = dinv: written before the first pass, read by every pass -/

theorem d1 (c : Dev nD) : W1 m ρ c (Proc.devRef .tc main_v12) = Cert.Spec.K.dcol (row m c) :=
  (Cert.KernelIdeal.KHost.s0_dcol (W0 m ρ c)).trans rfl
theorem d2 (c : Dev nD) : W2 m ρ c (Proc.devRef .tc main_v12) = Cert.Spec.K.dcol (row m c) :=
  ((W2_arr m ρ c 2).trans (((dat0 (V1 m ρ) c).arrAt_in 2 rfl _).trans (A_eq0 (V1 m ρ) c 2))).trans (d1 m ρ c)
theorem d3 (c : Dev nD) : W3 m ρ c (Proc.devRef .tc main_v12) = Cert.Spec.K.dcol (row m c) :=
  (StableHlo.after_of_forall_not_mem (b := Proc.devRef .tc main_v12) _ _ (by nw)).trans (d2 m ρ c)
theorem d4 (c : Dev nD) : W4 m ρ c (Proc.devRef .tc main_v12) = Cert.Spec.K.dcol (row m c) :=
  ((W4_arr m ρ c 2).trans (((dat1 (V3 m ρ) c).arrAt_in 2 rfl _).trans (A_eq1 (V3 m ρ) c 2))).trans (d3 m ρ c)
theorem d5 (c : Dev nD) : W5 m ρ c (Proc.devRef .tc main_v12) = Cert.Spec.K.dcol (row m c) :=
  (StableHlo.after_of_forall_not_mem (b := Proc.devRef .tc main_v12) _ _ (by nw)).trans (d4 m ρ c)
theorem d6 (c : Dev nD) : W6 m ρ c (Proc.devRef .tc main_v12) = Cert.Spec.K.dcol (row m c) :=
  ((W6_arr m ρ c 2).trans (((dat2 (V5 m ρ) c).arrAt_in 2 rfl _).trans (A_eq2 (V5 m ρ) c 2))).trans (d5 m ρ c)
theorem d7 (c : Dev nD) : W7 m ρ c (Proc.devRef .tc main_v12) = Cert.Spec.K.dcol (row m c) :=
  (StableHlo.after_of_forall_not_mem (b := Proc.devRef .tc main_v12) _ _ (by nw)).trans (d6 m ρ c)

/-! ## The first pass -/

theorem feat1 (c : Dev nD) : W1 m ρ c (Proc.devRef .tc main_arg0) = feat m c :=
  (StableHlo.after_of_forall_not_mem (b := Proc.devRef .tc main_arg0) _ _ (by nw)).trans rfl
theorem s1 (c : Dev nD) : W1 m ρ c (Proc.devRef .tc main_v24)
    = Cert.Spec.K.sagg (row m c) (col m c) (Cert.Spec.K.hs0 (feat m c) (row m c)) :=
  (Cert.KernelIdeal.KHost.s0_sagg (W0 m ρ c)).trans rfl

theorem h2 (c : Dev nD) : W2 m ρ c (Proc.devRef .tc main_v25_0) = Cert.Spec.K.h1 (feat m c) (row m c) (col m c) := by
  refine (W2_arr m ρ c 3).trans ((Cert.KernelIdeal.KReg0.final3 (V1 m ρ) c).trans ?_)
  unfold Cert.Spec.K.h1
  rw [show Cert.KernelIdeal.KReg0.aH (V1 m ρ) c = feat m c from feat1 m ρ c,
    show Cert.KernelIdeal.KReg0.aS (V1 m ρ) c = _ from s1 m ρ c,
    show Cert.KernelIdeal.KReg0.aD (V1 m ρ) c = _ from d1 m ρ c]
theorem hs2 (c : Dev nD) : W2 m ρ c (Proc.devRef .tc main_v25_1) = Cert.Spec.K.hs1 (feat m c) (row m c) (col m c) := by
  refine (W2_arr m ρ c 4).trans ((Cert.KernelIdeal.KReg0.final4 (V1 m ρ) c).trans ?_)
  unfold Cert.Spec.K.hs1
  rw [show Cert.KernelIdeal.KReg0.aH (V1 m ρ) c = feat m c from feat1 m ρ c,
    show Cert.KernelIdeal.KReg0.aS (V1 m ρ) c = _ from s1 m ρ c,
    show Cert.KernelIdeal.KReg0.aD (V1 m ρ) c = _ from d1 m ρ c]

/-! ## The second pass -/

theorem h3 (c : Dev nD) : W3 m ρ c (Proc.devRef .tc main_v25_0) = Cert.Spec.K.h1 (feat m c) (row m c) (col m c) :=
  (StableHlo.after_of_forall_not_mem (b := Proc.devRef .tc main_v25_0) _ _ (by nw)).trans (h2 m ρ c)
theorem s3 (c : Dev nD) : W3 m ρ c (Proc.devRef .tc main_v35)
    = Cert.Spec.K.sagg (row m c) (col m c) (Cert.Spec.K.hs1 (feat m c) (row m c) (col m c)) := by
  refine (Cert.KernelIdeal.KHost.s1_sagg (W2 m ρ c)).trans ?_
  rw [row2 m ρ c, col2 m ρ c, hs2 m ρ c]
theorem h4 (c : Dev nD) : W4 m ρ c (Proc.devRef .tc main_v36_0) = Cert.Spec.K.h2 (feat m c) (row m c) (col m c) := by
  refine (W4_arr m ρ c 3).trans ((Cert.KernelIdeal.KReg1.final3 (V3 m ρ) c).trans ?_)
  unfold Cert.Spec.K.h2
  rw [show Cert.KernelIdeal.KReg1.aH (V3 m ρ) c = _ from h3 m ρ c,
    show Cert.KernelIdeal.KReg1.aS (V3 m ρ) c = _ from s3 m ρ c,
    show Cert.KernelIdeal.KReg1.aD (V3 m ρ) c = _ from d3 m ρ c]
theorem hs4 (c : Dev nD) : W4 m ρ c (Proc.devRef .tc main_v36_1) = Cert.Spec.K.hs2 (feat m c) (row m c) (col m c) := by
  refine (W4_arr m ρ c 4).trans ((Cert.KernelIdeal.KReg1.final4 (V3 m ρ) c).trans ?_)
  unfold Cert.Spec.K.hs2
  rw [show Cert.KernelIdeal.KReg1.aH (V3 m ρ) c = _ from h3 m ρ c,
    show Cert.KernelIdeal.KReg1.aS (V3 m ρ) c = _ from s3 m ρ c,
    show Cert.KernelIdeal.KReg1.aD (V3 m ρ) c = _ from d3 m ρ c]

/-! ## The third pass -/

theorem h5 (c : Dev nD) : W5 m ρ c (Proc.devRef .tc main_v36_0) = Cert.Spec.K.h2 (feat m c) (row m c) (col m c) :=
  (StableHlo.after_of_forall_not_mem (b := Proc.devRef .tc main_v36_0) _ _ (by nw)).trans (h4 m ρ c)
theorem s5 (c : Dev nD) : W5 m ρ c (Proc.devRef .tc main_v46)
    = Cert.Spec.K.sagg (row m c) (col m c) (Cert.Spec.K.hs2 (feat m c) (row m c) (col m c)) := by
  refine (Cert.KernelIdeal.KHost.s2_sagg (W4 m ρ c)).trans ?_
  rw [row4 m ρ c, col4 m ρ c, hs4 m ρ c]
theorem h6 (c : Dev nD) : W6 m ρ c (Proc.devRef .tc main_v47_0) = Cert.Spec.K.h3 (feat m c) (row m c) (col m c) := by
  refine (W6_arr m ρ c 3).trans ((Cert.KernelIdeal.KReg2.final3 (V5 m ρ) c).trans ?_)
  unfold Cert.Spec.K.h3
  rw [show Cert.KernelIdeal.KReg2.aH (V5 m ρ) c = _ from h5 m ρ c,
    show Cert.KernelIdeal.KReg2.aS (V5 m ρ) c = _ from s5 m ρ c,
    show Cert.KernelIdeal.KReg2.aD (V5 m ρ) c = _ from d5 m ρ c]
theorem hs6 (c : Dev nD) : W6 m ρ c (Proc.devRef .tc main_v47_1) = Cert.Spec.K.hs3 (feat m c) (row m c) (col m c) := by
  refine (W6_arr m ρ c 4).trans ((Cert.KernelIdeal.KReg2.final4 (V5 m ρ) c).trans ?_)
  unfold Cert.Spec.K.hs3
  rw [show Cert.KernelIdeal.KReg2.aH (V5 m ρ) c = _ from h5 m ρ c,
    show Cert.KernelIdeal.KReg2.aS (V5 m ρ) c = _ from s5 m ρ c,
    show Cert.KernelIdeal.KReg2.aD (V5 m ρ) c = _ from d5 m ρ c]

/-! ## The last pass -/

theorem h7 (c : Dev nD) : W7 m ρ c (Proc.devRef .tc main_v47_0) = Cert.Spec.K.h3 (feat m c) (row m c) (col m c) :=
  (StableHlo.after_of_forall_not_mem (b := Proc.devRef .tc main_v47_0) _ _ (by nw)).trans (h6 m ρ c)
theorem s7 (c : Dev nD) : W7 m ρ c (Proc.devRef .tc main_v57)
    = Cert.Spec.K.sagg (row m c) (col m c) (Cert.Spec.K.hs3 (feat m c) (row m c) (col m c)) := by
  refine (Cert.KernelIdeal.KHost.s3_sagg (W6 m ρ c)).trans ?_
  rw [row6 m ρ c, col6 m ρ c, hs6 m ρ c]
theorem wt7 (c : Dev nD) : W7 m ρ c (Proc.devRef .tc main_v58)
    = transpose S128x40 [1, 0] (wgt m c) Facts₀.transposes_S40x128_S128x40_1_0 := by
  refine (Cert.KernelIdeal.KHost.s3_wt (W6 m ρ c)).trans ?_
  rw [wgt6 m ρ c]
theorem b7 (c : Dev nD) : W7 m ρ c (Proc.devRef .tc main_v59) = shapeCast S1x40 (bias m c) Facts₀.shapeCasts_S40_S1x40 := by
  refine (Cert.KernelIdeal.KHost.s3_b (W6 m ρ c)).trans ?_
  rw [bias6 m ρ c]
theorem g7 (c : Dev nD) : W7 m ρ c (Proc.devRef .tc main_v60) = shapeCast S1x40 (gam m c) Facts₀.shapeCasts_S40_S1x40 := by
  refine (Cert.KernelIdeal.KHost.s3_g (W6 m ρ c)).trans ?_
  rw [gam6 m ρ c]
theorem be7 (c : Dev nD) : W7 m ρ c (Proc.devRef .tc main_v61) = shapeCast S1x40 (bet m c) Facts₀.shapeCasts_S40_S1x40 := by
  refine (Cert.KernelIdeal.KHost.s3_be (W6 m ρ c)).trans ?_
  rw [bet6 m ρ c]

/-- THE RESULT BUFFER at the end of the fold: the specification's K.out of the seven launch arrays. -/
theorem out8 (c : Dev nD) : W8 m ρ c (Proc.devRef .tc main_v62)
    = Cert.Spec.K.out (feat m c) (row m c) (col m c) (wgt m c) (bias m c) (gam m c) (bet m c) := by
  refine (W8_arr m ρ c 7).trans ((Cert.KernelIdeal.KReg3.final7 (V7 m ρ) c).trans ?_)
  unfold Cert.Spec.K.out Cert.Spec.K.h4
  rw [show Cert.KernelIdeal.KReg3.aH (V7 m ρ) c = _ from h7 m ρ c,
    show Cert.KernelIdeal.KReg3.aS (V7 m ρ) c = _ from s7 m ρ c,
    show Cert.KernelIdeal.KReg3.aD (V7 m ρ) c = _ from d7 m ρ c,
    show Cert.KernelIdeal.KReg3.aW (V7 m ρ) c = _ from wt7 m ρ c,
    show Cert.KernelIdeal.KReg3.aB (V7 m ρ) c = _ from b7 m ρ c,
    show Cert.KernelIdeal.KReg3.aG (V7 m ρ) c = _ from g7 m ρ c,
    show Cert.KernelIdeal.KReg3.aBe (V7 m ρ) c = _ from be7 m ρ c]

/-! ## The run -/

set_option backward.isDefEq.respectTransparency.types false in
/-- Every weakly fair execution of the program from a memory with zero counters terminates, nothing faulting, with the
    result buffer at K.out of the launch arrays and the seven argument arrays as launched: the launch over the
    program's eight segments, the last thread state read against the final state, the result by the fold above. -/
theorem run : θ_run (defs (F := Ideal)) (onTc (τ := τ) (main (F := Ideal))) ⟨m, fun _ => 0, ρ⟩ (fun r => ∀ c : Dev nD,
      r.2.mem ((c.tc : Thread nD τ).loc main_v62)
        = Cert.Spec.K.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v62 (by decide))).trans (out8 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.KRun

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.RefRunLines.lean ====
/-
  The reference's host program as lists of operations, stretch by stretch: the degree and the edge weights; the four
  propagation steps; the logits; the row mean; the variance (the called function's operations, and those of the
  function it calls, listed at the call site over the call's own buffers); the normalisation with scale and shift.
-/
import proofs.«168759_j50216757625453_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The wrapped row ends, the degree and its inverse square root, the edge weights and the self weights. -/
def opsA : List (HloOp τ sig (Elt F)) :=
  [ StableHlo.nullary main_cst (constant S_ .f32 0x00000000#32),
    StableHlo.unary main_cst main_v0 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg1 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.nullary main_cst_1 (constant S_ .f32 0x3F800000#32),
    StableHlo.unary main_cst_1 main_v7 (broadcastInDim S1600000 ![] bcast_S_S1600000 : (⟨S_, .f32⟩ : BufTy).Contents (Elt F) → (⟨S1600000, .f32⟩ : BufTy).Contents (Elt F)),
    StableHlo.ternary main_v0 main_v6 main_v7 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c_3 (constantI S_ 32 0#32),
    StableHlo.unary main_c_3 main_v12 (broadcastInDim S1600000 ![] bcast_S_S1600000 : (⟨S_, .i32⟩ : BufTy).Contents (Elt F) → (⟨S1600000, .i32⟩ : BufTy).Contents (Elt F)),
    StableHlo.binary main_arg1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v14 (broadcastInDim S1600000 ![] bcast_S_S1600000 : (⟨S_, .i32⟩ : BufTy).Contents (Elt F) → (⟨S1600000, .i32⟩ : BufTy).Contents (Elt F)),
    StableHlo.binary main_arg1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_arg1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v19 (broadcastInDim S1600000 ![] bcast_S_S1600000 : (⟨S_, .i32⟩ : BufTy).Contents (Elt F) → (⟨S1600000, .i32⟩ : BufTy).Contents (Elt F)),
    StableHlo.binary main_arg2 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v21 (broadcastInDim S1600000 ![] bcast_S_S1600000 : (⟨S_, .i32⟩ : BufTy).Contents (Elt F) → (⟨S1600000, .i32⟩ : BufTy).Contents (Elt F)),
    StableHlo.binary main_arg2 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_arg2 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.binary main_v11 main_v11 main_v27 (mulf : (⟨S100000, .f32⟩ : BufTy).Contents (Elt F) → (⟨S100000, .f32⟩ : BufTy).Contents (Elt F) → (⟨S100000, .f32⟩ : BufTy).Contents (Elt F)) ]

/-- The first propagation step, from the node features. -/
def opsS1 : List (HloOp τ sig (Elt F)) :=
  [ StableHlo.nullary main_c_7 (constantI S_ 32 0#32),
    StableHlo.unary main_c_7 main_v28 (broadcastInDim S1600000 ![] bcast_S_S1600000 : (⟨S_, .i32⟩ : BufTy).Contents (Elt F) → (⟨S1600000, .i32⟩ : BufTy).Contents (Elt F)),
    StableHlo.binary main_arg2 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v30 (broadcastInDim S1600000 ![] bcast_S_S1600000 : (⟨S_, .i32⟩ : BufTy).Contents (Elt F) → (⟨S1600000, .i32⟩ : BufTy).Contents (Elt F)),
    StableHlo.binary main_arg2 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_arg2 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_arg0 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v35 (broadcastInDim S1600000x1 ![0] bcast_S1600000_S1600000x1_0 : (⟨S1600000, .f32⟩ : BufTy).Contents (Elt F) → (⟨S1600000x1, .f32⟩ : BufTy).Contents (Elt F)),
    StableHlo.unary main_v35 main_v36 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v34 main_v36 main_v37 (mulf : (⟨S1600000x128, .f32⟩ : BufTy).Contents (Elt F) → (⟨S1600000x128, .f32⟩ : BufTy).Contents (Elt F) → (⟨S1600000x128, .f32⟩ : BufTy).Contents (Elt F)),
    StableHlo.nullary main_cst_9 (constant S_ .f32 0x00000000#32),
    StableHlo.unary main_cst_9 main_v38 (broadcastInDim S100000x128 ![] bcast_S_S100000x128 : (⟨S_, .f32⟩ : BufTy).Contents (Elt F) → (⟨S100000x128, .f32⟩ : BufTy).Contents (Elt F)),
    StableHlo.unary main_arg1 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v27 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v42 main_v43 (mulf : (⟨S100000x128, .f32⟩ : BufTy).Contents (Elt F) → (⟨S100000x128, .f32⟩ : BufTy).Contents (Elt F) → (⟨S100000x128, .f32⟩ : BufTy).Contents (Elt F)),
    StableHlo.binary main_v40 main_v43 main_v44 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3F000000#32),
    StableHlo.unary main_cst_10 main_v45 (broadcastInDim S100000x128 ![] bcast_S_S100000x128 : (⟨S_, .f32⟩ : BufTy).Contents (Elt F) → (⟨S100000x128, .f32⟩ : BufTy).Contents (Elt F)),
    StableHlo.binary main_v45 main_arg0 main_v46 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3F000000#32),
    StableHlo.unary main_cst_11 main_v47 (broadcastInDim S100000x128 ![] bcast_S_S100000x128 : (⟨S_, .f32⟩ : BufTy).Contents (Elt F) → (⟨S100000x128, .f32⟩ : BufTy).Contents (Elt F)),
    StableHlo.binary main_v47 main_v44 main_v48 (mulf : (⟨S100000x128, .f32⟩ : BufTy).Contents (Elt F) → (⟨S100000x128, .f32⟩ : BufTy).Contents (Elt F) → (⟨S100000x128, .f32⟩ : BufTy).Contents (Elt F)),
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)) ]

/-- The second propagation step. -/
def opsS2 : List (HloOp τ sig (Elt F)) :=
  [ StableHlo.nullary main_c_12 (constantI S_ 32 0#32),
    StableHlo.unary main_c_12 main_v50 (broadcastInDim S1600000 ![] bcast_S_S1600000 : (⟨S_, .i32⟩ : BufTy).Contents (Elt F) → (⟨S1600000, .i32⟩ : BufTy).Contents (Elt F)),
    StableHlo.binary main_arg2 main_v50 main_v51 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v52 (broadcastInDim S1600000 ![] bcast_S_S1600000 : (⟨S_, .i32⟩ : BufTy).Contents (Elt F) → (⟨S1600000, .i32⟩ : BufTy).Contents (Elt F)),
    StableHlo.binary main_arg2 main_v52 main_v53 (addi : (⟨S1600000, .i32⟩ : BufTy).Contents (Elt F) → (⟨S1600000, .i32⟩ : BufTy).Contents (Elt F) → (⟨S1600000, .i32⟩ : BufTy).Contents (Elt F)),
    StableHlo.ternary main_v51 main_v53 main_arg2 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v54 main_v55 (broadcastInDim S1600000x1 ![0] bcast_S1600000_S1600000x1_0 : (⟨S1600000, .i32⟩ : BufTy).Contents (Elt F) → (⟨S1600000x1, .i32⟩ : BufTy).Contents (Elt F)),
    StableHlo.binary main_v49 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v57 (broadcastInDim S1600000x1 ![0] bcast_S1600000_S1600000x1_0 : (⟨S1600000, .f32⟩ : BufTy).Contents (Elt F) → (⟨S1600000x1, .f32⟩ : BufTy).Contents (Elt F)),
    StableHlo.unary main_v57 main_v58 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v56 main_v58 main_v59 (mulf : (⟨S1600000x128, .f32⟩ : BufTy).Contents (Elt F) → (⟨S1600000x128, .f32⟩ : BufTy).Contents (Elt F) → (⟨S1600000x128, .f32⟩ : BufTy).Contents (Elt F)),
    StableHlo.nullary main_cst_14 (constant S_ .f32 0x00000000#32),
    StableHlo.unary main_cst_14 main_v60 (broadcastInDim S100000x128 ![] bcast_S_S100000x128 : (⟨S_, .f32⟩ : BufTy).Contents (Elt F) → (⟨S100000x128, .f32⟩ : BufTy).Contents (Elt F)),
    StableHlo.unary main_arg1 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v27 main_v63 (broadcastInDim S100000x1 ![0] bcast_S100000_S100000x1_0 : (⟨S100000, .f32⟩ : BufTy).Contents (Elt F) → (⟨S100000x1, .f32⟩ : BufTy).Contents (Elt F)),
    StableHlo.unary main_v63 main_v64 (broadcastInDim S100000x128 ![0, 1] bcast_S100000x1_S100000x128_0_1 : (⟨S100000x1, .f32⟩ : BufTy).Contents (Elt F) → (⟨S100000x128, .f32⟩ : BufTy).Contents (Elt F)),
    StableHlo.binary main_v49 main_v64 main_v65 (mulf : (⟨S100000x128, .f32⟩ : BufTy).Contents (Elt F) → (⟨S100000x128, .f32⟩ : BufTy).Contents (Elt F) → (⟨S100000x128, .f32⟩ : BufTy).Contents (Elt F)),
    StableHlo.binary main_v62 main_v65 main_v66 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3F000000#32),
    StableHlo.unary main_cst_15 main_v67 (broadcastInDim S100000x128 ![] bcast_S_S100000x128 : (⟨S_, .f32⟩ : BufTy).Contents (Elt F) → (⟨S100000x128, .f32⟩ : BufTy).Contents (Elt F)),
    StableHlo.binary main_v67 main_v49 main_v68 (mulf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3F000000#32),
    StableHlo.unary main_cst_16 main_v69 (broadcastInDim S100000x128 ![] bcast_S_S100000x128 : (⟨S_, .f32⟩ : BufTy).Contents (Elt F) → (⟨S100000x128, .f32⟩ : BufTy).Contents (Elt F)),
    StableHlo.binary main_v69 main_v66 main_v70 (mulf : (⟨S100000x128, .f32⟩ : BufTy).Contents (Elt F) → (⟨S100000x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)) ]

/-- The third propagation step. -/
def opsS3 : List (HloOp τ sig (Elt F)) :=
  [ StableHlo.nullary main_c_17 (constantI S_ 32 0#32),
    StableHlo.unary main_c_17 main_v72 (broadcastInDim S1600000 ![] bcast_S_S1600000 : (⟨S_, .i32⟩ : BufTy).Contents (Elt F) → (⟨S1600000, .i32⟩ : BufTy).Contents (Elt F)),
    StableHlo.binary main_arg2 main_v72 main_v73 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v74 (broadcastInDim S1600000 ![] bcast_S_S1600000 : (⟨S_, .i32⟩ : BufTy).Contents (Elt F) → (⟨S1600000, .i32⟩ : BufTy).Contents (Elt F)),
    StableHlo.binary main_arg2 main_v74 main_v75 (addi : (⟨S1600000, .i32⟩ : BufTy).Contents (Elt F) → (⟨S1600000, .i32⟩ : BufTy).Contents (Elt F) → (⟨S1600000, .i32⟩ : BufTy).Contents (Elt F)),
    StableHlo.ternary main_v73 main_v75 main_arg2 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v76 main_v77 (broadcastInDim S1600000x1 ![0] bcast_S1600000_S1600000x1_0 : (⟨S1600000, .i32⟩ : BufTy).Contents (Elt F) → (⟨S1600000x1, .i32⟩ : BufTy).Contents (Elt F)),
    StableHlo.binary main_v71 main_v77 main_v78 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v79 (broadcastInDim S1600000x1 ![0] bcast_S1600000_S1600000x1_0 : (⟨S1600000, .f32⟩ : BufTy).Contents (Elt F) → (⟨S1600000x1, .f32⟩ : BufTy).Contents (Elt F)),
    StableHlo.unary main_v79 main_v80 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v78 main_v80 main_v81 (mulf : (⟨S1600000x128, .f32⟩ : BufTy).Contents (Elt F) → (⟨S1600000x128, .f32⟩ : BufTy).Contents (Elt F) → (⟨S1600000x128, .f32⟩ : BufTy).Contents (Elt F)),
    StableHlo.nullary main_cst_19 (constant S_ .f32 0x00000000#32),
    StableHlo.unary main_cst_19 main_v82 (broadcastInDim S100000x128 ![] bcast_S_S100000x128 : (⟨S_, .f32⟩ : BufTy).Contents (Elt F) → (⟨S100000x128, .f32⟩ : BufTy).Contents (Elt F)),
    StableHlo.unary main_arg1 main_v83 (broadcastInDim S1600000x1 ![0] bcast_S1600000_S1600000x1_0 : (⟨S1600000, .i32⟩ : BufTy).Contents (Elt F) → (⟨S1600000x1, .i32⟩ : BufTy).Contents (Elt F)),
    StableHlo.ternary main_v82 main_v83 main_v81 main_v84 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v27 main_v85 (broadcastInDim S100000x1 ![0] bcast_S100000_S100000x1_0 : (⟨S100000, .f32⟩ : BufTy).Contents (Elt F) → (⟨S100000x1, .f32⟩ : BufTy).Contents (Elt F)),
    StableHlo.unary main_v85 main_v86 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v86 main_v87 (mulf : (⟨S100000x128, .f32⟩ : BufTy).Contents (Elt F) → (⟨S100000x128, .f32⟩ : BufTy).Contents (Elt F) → (⟨S100000x128, .f32⟩ : BufTy).Contents (Elt F)),
    StableHlo.binary main_v84 main_v87 main_v88 (addf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x3F000000#32),
    StableHlo.unary main_cst_20 main_v89 (broadcastInDim S100000x128 ![] bcast_S_S100000x128 : (⟨S_, .f32⟩ : BufTy).Contents (Elt F) → (⟨S100000x128, .f32⟩ : BufTy).Contents (Elt F)),
    StableHlo.binary main_v89 main_v71 main_v90 (mulf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3F000000#32),
    StableHlo.unary main_cst_21 main_v91 (broadcastInDim S100000x128 ![] bcast_S_S100000x128 : (⟨S_, .f32⟩ : BufTy).Contents (Elt F) → (⟨S100000x128, .f32⟩ : BufTy).Contents (Elt F)),
    StableHlo.binary main_v91 main_v88 main_v92 (mulf : (⟨S100000x128, .f32⟩ : BufTy).Contents (Elt F) → (⟨S100000x128, .f32⟩ : BufTy).Contents (Elt F) → (⟨S100000x128, .f32⟩ : BufTy).Contents (Elt F)),
    StableHlo.binary main_v90 main_v92 main_v93 (addf : (⟨S100000x128, .f32⟩ : BufTy).Contents (Elt F) → (⟨S100000x128, .f32⟩ : BufTy).Contents (Elt F) → (⟨S100000x128, .f32⟩ : BufTy).Contents (Elt F)) ]

/-- The fourth propagation step. -/
def opsS4 : List (HloOp τ sig (Elt F)) :=
  [ StableHlo.nullary main_c_22 (constantI S_ 32 0#32),
    StableHlo.unary main_c_22 main_v94 (broadcastInDim S1600000 ![] bcast_S_S1600000 : (⟨S_, .i32⟩ : BufTy).Contents (Elt F) → (⟨S1600000, .i32⟩ : BufTy).Contents (Elt F)),
    StableHlo.binary main_arg2 main_v94 main_v95 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v96 (broadcastInDim S1600000 ![] bcast_S_S1600000 : (⟨S_, .i32⟩ : BufTy).Contents (Elt F) → (⟨S1600000, .i32⟩ : BufTy).Contents (Elt F)),
    StableHlo.binary main_arg2 main_v96 main_v97 (addi : (⟨S1600000, .i32⟩ : BufTy).Contents (Elt F) → (⟨S1600000, .i32⟩ : BufTy).Contents (Elt F) → (⟨S1600000, .i32⟩ : BufTy).Contents (Elt F)),
    StableHlo.ternary main_v95 main_v97 main_arg2 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v98 main_v99 (broadcastInDim S1600000x1 ![0] bcast_S1600000_S1600000x1_0 : (⟨S1600000, .i32⟩ : BufTy).Contents (Elt F) → (⟨S1600000x1, .i32⟩ : BufTy).Contents (Elt F)),
    StableHlo.binary main_v93 main_v99 main_v100 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v101 (broadcastInDim S1600000x1 ![0] bcast_S1600000_S1600000x1_0 : (⟨S1600000, .f32⟩ : BufTy).Contents (Elt F) → (⟨S1600000x1, .f32⟩ : BufTy).Contents (Elt F)),
    StableHlo.unary main_v101 main_v102 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v100 main_v102 main_v103 (mulf : (⟨S1600000x128, .f32⟩ : BufTy).Contents (Elt F) → (⟨S1600000x128, .f32⟩ : BufTy).Contents (Elt F) → (⟨S1600000x128, .f32⟩ : BufTy).Contents (Elt F)),
    StableHlo.nullary main_cst_24 (constant S_ .f32 0x00000000#32),
    StableHlo.unary main_cst_24 main_v104 (broadcastInDim S100000x128 ![] bcast_S_S100000x128 : (⟨S_, .f32⟩ : BufTy).Contents (Elt F) → (⟨S100000x128, .f32⟩ : BufTy).Contents (Elt F)),
    StableHlo.unary main_arg1 main_v105 (broadcastInDim S1600000x1 ![0] bcast_S1600000_S1600000x1_0 : (⟨S1600000, .i32⟩ : BufTy).Contents (Elt F) → (⟨S1600000x1, .i32⟩ : BufTy).Contents (Elt F)),
    StableHlo.ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v27 main_v107 (broadcastInDim S100000x1 ![0] bcast_S100000_S100000x1_0 : (⟨S100000, .f32⟩ : BufTy).Contents (Elt F) → (⟨S100000x1, .f32⟩ : BufTy).Contents (Elt F)),
    StableHlo.unary main_v107 main_v108 (broadcastInDim S100000x128 ![0, 1] bcast_S100000x1_S100000x128_0_1 : (⟨S100000x1, .f32⟩ : BufTy).Contents (Elt F) → (⟨S100000x128, .f32⟩ : BufTy).Contents (Elt F)),
    StableHlo.binary main_v93 main_v108 main_v109 (mulf : (⟨S100000x128, .f32⟩ : BufTy).Contents (Elt F) → (⟨S100000x128, .f32⟩ : BufTy).Contents (Elt F) → (⟨S100000x128, .f32⟩ : BufTy).Contents (Elt F)),
    StableHlo.binary main_v106 main_v109 main_v110 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3F000000#32),
    StableHlo.unary main_cst_25 main_v111 (broadcastInDim S100000x128 ![] bcast_S_S100000x128 : (⟨S_, .f32⟩ : BufTy).Contents (Elt F) → (⟨S100000x128, .f32⟩ : BufTy).Contents (Elt F)),
    StableHlo.binary main_v111 main_v93 main_v112 (mulf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3F000000#32),
    StableHlo.unary main_cst_26 main_v113 (broadcastInDim S100000x128 ![] bcast_S_S100000x128 : (⟨S_, .f32⟩ : BufTy).Contents (Elt F) → (⟨S100000x128, .f32⟩ : BufTy).Contents (Elt F)),
    StableHlo.binary main_v113 main_v110 main_v114 (mulf : (⟨S100000x128, .f32⟩ : BufTy).Contents (Elt F) → (⟨S100000x128, .f32⟩ : BufTy).Contents (Elt F) → (⟨S100000x128, .f32⟩ : BufTy).Contents (Elt F)),
    StableHlo.binary main_v112 main_v114 main_v115 (addf : (⟨S100000x128, .f32⟩ : BufTy).Contents (Elt F) → (⟨S100000x128, .f32⟩ : BufTy).Contents (Elt F) → (⟨S100000x128, .f32⟩ : BufTy).Contents (Elt F)) ]

/-- The logits: the features against the transposed weight matrix, plus the bias. -/
def opsL : List (HloOp τ sig (Elt F)) :=
  [ StableHlo.unary main_arg3 main_v116 ((transpose S128x40 [1, 0] · transposes_S40x128_S128x40_1_0) : (⟨S40x128, .f32⟩ : BufTy).Contents (Elt F) → (⟨S128x40, .f32⟩ : BufTy).Contents (Elt F)),
    StableHlo.binary main_v115 main_v116 main_v117 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg4 main_v118 (broadcastInDim S1x40 ![1] bcast_S40_S1x40_1 : (⟨S40, .f32⟩ : BufTy).Contents (Elt F) → (⟨S1x40, .f32⟩ : BufTy).Contents (Elt F)),
    StableHlo.unary main_v118 main_v119 (broadcastInDim S100000x40 ![0, 1] bcast_S1x40_S100000x40_0_1 : (⟨S1x40, .f32⟩ : BufTy).Contents (Elt F) → (⟨S100000x40, .f32⟩ : BufTy).Contents (Elt F)),
    StableHlo.binary main_v117 main_v119 main_v120 (addf : (⟨S100000x40, .f32⟩ : BufTy).Contents (Elt F) → (⟨S100000x40, .f32⟩ : BufTy).Contents (Elt F) → (⟨S100000x40, .f32⟩ : BufTy).Contents (Elt F)) ]

/-- The mean of each row of the logits, as a column. -/
def opsM : List (HloOp τ sig (Elt F)) :=
  [ StableHlo.nullary main_cst_27 (constant S_ .f32 0x00000000#32),
    StableHlo.binary main_v120 main_cst_27 main_v121 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    StableHlo.unary main_v121 main_v122 (broadcastInDim S100000x1 ![0] bcast_S100000_S100000x1_0 : (⟨S100000, .f32⟩ : BufTy).Contents (Elt F) → (⟨S100000x1, .f32⟩ : BufTy).Contents (Elt F)),
    StableHlo.nullary main_cst_28 (constant S_ .f32 0x42200000#32),
    StableHlo.unary main_cst_28 main_v123 (broadcastInDim S100000x1 ![] bcast_S_S100000x1 : (⟨S_, .f32⟩ : BufTy).Contents (Elt F) → (⟨S100000x1, .f32⟩ : BufTy).Contents (Elt F)),
    StableHlo.binary main_v122 main_v123 main_v124 (Host.divf : (⟨S100000x1, .f32⟩ : BufTy).Contents (Elt F) → (⟨S100000x1, .f32⟩ : BufTy).Contents (Elt F) → (⟨S100000x1, .f32⟩ : BufTy).Contents (Elt F)) ]

/-- The degrees of freedom's offset, then the variance of each row: the called function's operations inline. -/
def opsC : List (HloOp τ sig (Elt F)) :=
  [ StableHlo.nullary main_c_29 (constantI S_ 32 0#32),
    StableHlo.TRef.nullary main_call0.cst (constant S_ .f32 0x00000000#32),
    StableHlo.TRef.binary (.of main_v120) main_call0.cst main_call0.v0 (fun x v => Host.reduceAdd x v reducesTo_S100000x40_S100000_d1 h_S_),
    StableHlo.TRef.unary main_call0.v0 main_call0.v1 (broadcastInDim S100000x1 ![0] bcast_S100000_S100000x1_0),
    StableHlo.TRef.nullary main_call0.cst_0 (constant S_ .f32 0x42200000#32),
    StableHlo.TRef.unary main_call0.cst_0 main_call0.v2 (broadcastInDim S100000x1 ![] bcast_S_S100000x1),
    StableHlo.TRef.binary main_call0.v1 main_call0.v2 main_call0.v3 Host.divf,
    StableHlo.TRef.unary main_call0.v3 main_call0.v4 (broadcastInDim S100000x40 ![0, 1] bcast_S100000x1_S100000x40_0_1),
    StableHlo.TRef.binary (.of main_v120) main_call0.v4 main_call0.v5 subf,
    StableHlo.TRef.binary main_call0.v5 main_call0.v5 main_call0.v6 mulf,
    StableHlo.TRef.unary (.of main_c_29) main_call0.v7 (sitofp .f32),
    StableHlo.TRef.nullary main_call0.cst_1 (constant S_ .f32 0x42200000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x40_S100000_d1 h_S_),
    StableHlo.TRef.unary main_call0.v9 main_call0.v10 (broadcastInDim S100000x1 ![0] bcast_S100000_S100000x1_0),
    StableHlo.TRef.unary main_call0.v8 main_call0.v11 (broadcastInDim S100000x1 ![] bcast_S_S100000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S100000x1 ![] bcast_S_S100000x1),
    StableHlo.TRef.ternary main_call0.v13 main_call0.v12 main_call0.call0.v1 main_call0.call0.v2 (fun p a b => select (broadcastInDim S100000x1 ![] bcast_S_S100000x1 p) a b) ]

/-- The normalisation, the scale and the shift. -/
def opsT : List (HloOp τ sig (Elt F)) :=
  [ StableHlo.unary main_v124 main_v126 (broadcastInDim S100000x40 ![0, 1] bcast_S100000x1_S100000x40_0_1 : (⟨S100000x1, .f32⟩ : BufTy).Contents (Elt F) → (⟨S100000x40, .f32⟩ : BufTy).Contents (Elt F)),
    StableHlo.binary main_v120 main_v126 main_v127 (subf : (⟨S100000x40, .f32⟩ : BufTy).Contents (Elt F) → (⟨S100000x40, .f32⟩ : BufTy).Contents (Elt F) → (⟨S100000x40, .f32⟩ : BufTy).Contents (Elt F)),
    StableHlo.nullary main_cst_30 (constant S_ .f32 0x3727C5AC#32),
    StableHlo.unary main_cst_30 main_v128 (broadcastInDim S100000x1 ![] bcast_S_S100000x1 : (⟨S_, .f32⟩ : BufTy).Contents (Elt F) → (⟨S100000x1, .f32⟩ : BufTy).Contents (Elt F)),
    StableHlo.binary main_v125 main_v128 main_v129 (addf : (⟨S100000x1, .f32⟩ : BufTy).Contents (Elt F) → (⟨S100000x1, .f32⟩ : BufTy).Contents (Elt F) → (⟨S100000x1, .f32⟩ : BufTy).Contents (Elt F)),
    StableHlo.unary main_v129 main_v130 (Host.rsqrt : (⟨S100000x1, .f32⟩ : BufTy).Contents (Elt F) → (⟨S100000x1, .f32⟩ : BufTy).Contents (Elt F)),
    StableHlo.unary main_v130 main_v131 (broadcastInDim S100000x40 ![0, 1] bcast_S100000x1_S100000x40_0_1 : (⟨S100000x1, .f32⟩ : BufTy).Contents (Elt F) → (⟨S100000x40, .f32⟩ : BufTy).Contents (Elt F)),
    StableHlo.binary main_v127 main_v131 main_v132 (mulf : (⟨S100000x40, .f32⟩ : BufTy).Contents (Elt F) → (⟨S100000x40, .f32⟩ : BufTy).Contents (Elt F) → (⟨S100000x40, .f32⟩ : BufTy).Contents (Elt F)),
    StableHlo.unary main_arg5 main_v133 (broadcastInDim S1x40 ![1] bcast_S40_S1x40_1 : (⟨S40, .f32⟩ : BufTy).Contents (Elt F) → (⟨S1x40, .f32⟩ : BufTy).Contents (Elt F)),
    StableHlo.unary main_v133 main_v134 (broadcastInDim S100000x40 ![0, 1] bcast_S1x40_S100000x40_0_1 : (⟨S1x40, .f32⟩ : BufTy).Contents (Elt F) → (⟨S100000x40, .f32⟩ : BufTy).Contents (Elt F)),
    StableHlo.binary main_v132 main_v134 main_v135 (mulf : (⟨S100000x40, .f32⟩ : BufTy).Contents (Elt F) → (⟨S100000x40, .f32⟩ : BufTy).Contents (Elt F) → (⟨S100000x40, .f32⟩ : BufTy).Contents (Elt F)),
    StableHlo.unary main_arg6 main_v136 (broadcastInDim S1x40 ![1] bcast_S40_S1x40_1 : (⟨S40, .f32⟩ : BufTy).Contents (Elt F) → (⟨S1x40, .f32⟩ : BufTy).Contents (Elt F)),
    StableHlo.unary main_v136 main_v137 (broadcastInDim S100000x40 ![0, 1] bcast_S1x40_S100000x40_0_1 : (⟨S1x40, .f32⟩ : BufTy).Contents (Elt F) → (⟨S100000x40, .f32⟩ : BufTy).Contents (Elt F)),
    StableHlo.binary main_v135 main_v137 main_v138 (addf : (⟨S100000x40, .f32⟩ : BufTy).Contents (Elt F) → (⟨S100000x40, .f32⟩ : BufTy).Contents (Elt F) → (⟨S100000x40, .f32⟩ : BufTy).Contents (Elt F)) ]

end Cert.ReferenceIdeal.RefRun

end
-- ==== Proof.RefRunOps.lean ====
/-
  The reference's @main is the straight line of its host operations — the called function's body, and the body of
  the function that one calls, unfolded at the call — and so every weakly fair execution of it ends with each buffer
  at the fold of the operations' results over the launch contents. The line is the concatenation of the stretches.
-/
import proofs.«168759_j50216757625453_2_alg».proof.Proof.RefRunLines

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: 194 of them. -/
abbrev ops : List (HloOp τ sig (Elt F)) :=
  [ StableHlo.nullary main_cst (constant S_ .f32 0x00000000#32),
    StableHlo.unary main_cst main_v0 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v1 (broadcastInDim S1600000 ![] bcast_S_S1600000 : (⟨S_, .i32⟩ : BufTy).Contents (Elt F) → (⟨S1600000, .i32⟩ : BufTy).Contents (Elt F)),
    StableHlo.binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v3 (broadcastInDim S1600000 ![] bcast_S_S1600000 : (⟨S_, .i32⟩ : BufTy).Contents (Elt F) → (⟨S1600000, .i32⟩ : BufTy).Contents (Elt F)),
    StableHlo.binary main_arg1 main_v3 main_v4 (addi : (⟨S1600000, .i32⟩ : BufTy).Contents (Elt F) → (⟨S1600000, .i32⟩ : BufTy).Contents (Elt F) → (⟨S1600000, .i32⟩ : BufTy).Contents (Elt F)),
    StableHlo.ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v5 main_v6 (broadcastInDim S1600000x1 ![0] bcast_S1600000_S1600000x1_0 : (⟨S1600000, .i32⟩ : BufTy).Contents (Elt F) → (⟨S1600000x1, .i32⟩ : BufTy).Contents (Elt F)),
    StableHlo.nullary main_cst_1 (constant S_ .f32 0x3F800000#32),
    StableHlo.unary main_cst_1 main_v7 (broadcastInDim S1600000 ![] bcast_S_S1600000 : (⟨S_, .f32⟩ : BufTy).Contents (Elt F) → (⟨S1600000, .f32⟩ : BufTy).Contents (Elt F)),
    StableHlo.ternary main_v0 main_v6 main_v7 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c_3 (constantI S_ 32 0#32),
    StableHlo.unary main_c_3 main_v12 (broadcastInDim S1600000 ![] bcast_S_S1600000 : (⟨S_, .i32⟩ : BufTy).Contents (Elt F) → (⟨S1600000, .i32⟩ : BufTy).Contents (Elt F)),
    StableHlo.binary main_arg1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v14 (broadcastInDim S1600000 ![] bcast_S_S1600000 : (⟨S_, .i32⟩ : BufTy).Contents (Elt F) → (⟨S1600000, .i32⟩ : BufTy).Contents (Elt F)),
    StableHlo.binary main_arg1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_arg1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v19 (broadcastInDim S1600000 ![] bcast_S_S1600000 : (⟨S_, .i32⟩ : BufTy).Contents (Elt F) → (⟨S1600000, .i32⟩ : BufTy).Contents (Elt F)),
    StableHlo.binary main_arg2 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v21 (broadcastInDim S1600000 ![] bcast_S_S1600000 : (⟨S_, .i32⟩ : BufTy).Contents (Elt F) → (⟨S1600000, .i32⟩ : BufTy).Contents (Elt F)),
    StableHlo.binary main_arg2 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_arg2 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.binary main_v11 main_v11 main_v27 (mulf : (⟨S100000, .f32⟩ : BufTy).Contents (Elt F) → (⟨S100000, .f32⟩ : BufTy).Contents (Elt F) → (⟨S100000, .f32⟩ : BufTy).Contents (Elt F)),
    StableHlo.nullary main_c_7 (constantI S_ 32 0#32),
    StableHlo.unary main_c_7 main_v28 (broadcastInDim S1600000 ![] bcast_S_S1600000 : (⟨S_, .i32⟩ : BufTy).Contents (Elt F) → (⟨S1600000, .i32⟩ : BufTy).Contents (Elt F)),
    StableHlo.binary main_arg2 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v30 (broadcastInDim S1600000 ![] bcast_S_S1600000 : (⟨S_, .i32⟩ : BufTy).Contents (Elt F) → (⟨S1600000, .i32⟩ : BufTy).Contents (Elt F)),
    StableHlo.binary main_arg2 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_arg2 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_arg0 main_v33 main_v34 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v35 (broadcastInDim S1600000x1 ![0] bcast_S1600000_S1600000x1_0 : (⟨S1600000, .f32⟩ : BufTy).Contents (Elt F) → (⟨S1600000x1, .f32⟩ : BufTy).Contents (Elt F)),
    StableHlo.unary main_v35 main_v36 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v34 main_v36 main_v37 (mulf : (⟨S1600000x128, .f32⟩ : BufTy).Contents (Elt F) → (⟨S1600000x128, .f32⟩ : BufTy).Contents (Elt F) → (⟨S1600000x128, .f32⟩ : BufTy).Contents (Elt F)),
    StableHlo.nullary main_cst_9 (constant S_ .f32 0x00000000#32),
    StableHlo.unary main_cst_9 main_v38 (broadcastInDim S100000x128 ![] bcast_S_S100000x128 : (⟨S_, .f32⟩ : BufTy).Contents (Elt F) → (⟨S100000x128, .f32⟩ : BufTy).Contents (Elt F)),
    StableHlo.unary main_arg1 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v27 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v42 main_v43 (mulf : (⟨S100000x128, .f32⟩ : BufTy).Contents (Elt F) → (⟨S100000x128, .f32⟩ : BufTy).Contents (Elt F) → (⟨S100000x128, .f32⟩ : BufTy).Contents (Elt F)),
    StableHlo.binary main_v40 main_v43 main_v44 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3F000000#32),
    StableHlo.unary main_cst_10 main_v45 (broadcastInDim S100000x128 ![] bcast_S_S100000x128 : (⟨S_, .f32⟩ : BufTy).Contents (Elt F) → (⟨S100000x128, .f32⟩ : BufTy).Contents (Elt F)),
    StableHlo.binary main_v45 main_arg0 main_v46 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3F000000#32),
    StableHlo.unary main_cst_11 main_v47 (broadcastInDim S100000x128 ![] bcast_S_S100000x128 : (⟨S_, .f32⟩ : BufTy).Contents (Elt F) → (⟨S100000x128, .f32⟩ : BufTy).Contents (Elt F)),
    StableHlo.binary main_v47 main_v44 main_v48 (mulf : (⟨S100000x128, .f32⟩ : BufTy).Contents (Elt F) → (⟨S100000x128, .f32⟩ : BufTy).Contents (Elt F) → (⟨S100000x128, .f32⟩ : BufTy).Contents (Elt F)),
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)),
    StableHlo.nullary main_c_12 (constantI S_ 32 0#32),
    StableHlo.unary main_c_12 main_v50 (broadcastInDim S1600000 ![] bcast_S_S1600000 : (⟨S_, .i32⟩ : BufTy).Contents (Elt F) → (⟨S1600000, .i32⟩ : BufTy).Contents (Elt F)),
    StableHlo.binary main_arg2 main_v50 main_v51 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v52 (broadcastInDim S1600000 ![] bcast_S_S1600000 : (⟨S_, .i32⟩ : BufTy).Contents (Elt F) → (⟨S1600000, .i32⟩ : BufTy).Contents (Elt F)),
    StableHlo.binary main_arg2 main_v52 main_v53 (addi : (⟨S1600000, .i32⟩ : BufTy).Contents (Elt F) → (⟨S1600000, .i32⟩ : BufTy).Contents (Elt F) → (⟨S1600000, .i32⟩ : BufTy).Contents (Elt F)),
    StableHlo.ternary main_v51 main_v53 main_arg2 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v54 main_v55 (broadcastInDim S1600000x1 ![0] bcast_S1600000_S1600000x1_0 : (⟨S1600000, .i32⟩ : BufTy).Contents (Elt F) → (⟨S1600000x1, .i32⟩ : BufTy).Contents (Elt F)),
    StableHlo.binary main_v49 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v57 (broadcastInDim S1600000x1 ![0] bcast_S1600000_S1600000x1_0 : (⟨S1600000, .f32⟩ : BufTy).Contents (Elt F) → (⟨S1600000x1, .f32⟩ : BufTy).Contents (Elt F)),
    StableHlo.unary main_v57 main_v58 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v56 main_v58 main_v59 (mulf : (⟨S1600000x128, .f32⟩ : BufTy).Contents (Elt F) → (⟨S1600000x128, .f32⟩ : BufTy).Contents (Elt F) → (⟨S1600000x128, .f32⟩ : BufTy).Contents (Elt F)),
    StableHlo.nullary main_cst_14 (constant S_ .f32 0x00000000#32),
    StableHlo.unary main_cst_14 main_v60 (broadcastInDim S100000x128 ![] bcast_S_S100000x128 : (⟨S_, .f32⟩ : BufTy).Contents (Elt F) → (⟨S100000x128, .f32⟩ : BufTy).Contents (Elt F)),
    StableHlo.unary main_arg1 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v27 main_v63 (broadcastInDim S100000x1 ![0] bcast_S100000_S100000x1_0 : (⟨S100000, .f32⟩ : BufTy).Contents (Elt F) → (⟨S100000x1, .f32⟩ : BufTy).Contents (Elt F)),
    StableHlo.unary main_v63 main_v64 (broadcastInDim S100000x128 ![0, 1] bcast_S100000x1_S100000x128_0_1 : (⟨S100000x1, .f32⟩ : BufTy).Contents (Elt F) → (⟨S100000x128, .f32⟩ : BufTy).Contents (Elt F)),
    StableHlo.binary main_v49 main_v64 main_v65 (mulf : (⟨S100000x128, .f32⟩ : BufTy).Contents (Elt F) → (⟨S100000x128, .f32⟩ : BufTy).Contents (Elt F) → (⟨S100000x128, .f32⟩ : BufTy).Contents (Elt F)),
    StableHlo.binary main_v62 main_v65 main_v66 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3F000000#32),
    StableHlo.unary main_cst_15 main_v67 (broadcastInDim S100000x128 ![] bcast_S_S100000x128 : (⟨S_, .f32⟩ : BufTy).Contents (Elt F) → (⟨S100000x128, .f32⟩ : BufTy).Contents (Elt F)),
    StableHlo.binary main_v67 main_v49 main_v68 (mulf : (⟨S100000x128, .f32⟩ : BufTy).Contents (Elt F) → (⟨S100000x128, .f32⟩ : BufTy).Contents (Elt F) → (⟨S100000x128, .f32⟩ : BufTy).Contents (Elt F)),
    StableHlo.nullary main_cst_16 (constant S_ .f32 0x3F000000#32),
    StableHlo.unary main_cst_16 main_v69 (broadcastInDim S100000x128 ![] bcast_S_S100000x128 : (⟨S_, .f32⟩ : BufTy).Contents (Elt F) → (⟨S100000x128, .f32⟩ : BufTy).Contents (Elt F)),
    StableHlo.binary main_v69 main_v66 main_v70 (mulf : (⟨S100000x128, .f32⟩ : BufTy).Contents (Elt F) → (⟨S100000x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)),
    StableHlo.nullary main_c_17 (constantI S_ 32 0#32),
    StableHlo.unary main_c_17 main_v72 (broadcastInDim S1600000 ![] bcast_S_S1600000 : (⟨S_, .i32⟩ : BufTy).Contents (Elt F) → (⟨S1600000, .i32⟩ : BufTy).Contents (Elt F)),
    StableHlo.binary main_arg2 main_v72 main_v73 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v74 (broadcastInDim S1600000 ![] bcast_S_S1600000 : (⟨S_, .i32⟩ : BufTy).Contents (Elt F) → (⟨S1600000, .i32⟩ : BufTy).Contents (Elt F)),
    StableHlo.binary main_arg2 main_v74 main_v75 (addi : (⟨S1600000, .i32⟩ : BufTy).Contents (Elt F) → (⟨S1600000, .i32⟩ : BufTy).Contents (Elt F) → (⟨S1600000, .i32⟩ : BufTy).Contents (Elt F)),
    StableHlo.ternary main_v73 main_v75 main_arg2 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v76 main_v77 (broadcastInDim S1600000x1 ![0] bcast_S1600000_S1600000x1_0 : (⟨S1600000, .i32⟩ : BufTy).Contents (Elt F) → (⟨S1600000x1, .i32⟩ : BufTy).Contents (Elt F)),
    StableHlo.binary main_v71 main_v77 main_v78 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v79 (broadcastInDim S1600000x1 ![0] bcast_S1600000_S1600000x1_0 : (⟨S1600000, .f32⟩ : BufTy).Contents (Elt F) → (⟨S1600000x1, .f32⟩ : BufTy).Contents (Elt F)),
    StableHlo.unary main_v79 main_v80 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v78 main_v80 main_v81 (mulf : (⟨S1600000x128, .f32⟩ : BufTy).Contents (Elt F) → (⟨S1600000x128, .f32⟩ : BufTy).Contents (Elt F) → (⟨S1600000x128, .f32⟩ : BufTy).Contents (Elt F)),
    StableHlo.nullary main_cst_19 (constant S_ .f32 0x00000000#32),
    StableHlo.unary main_cst_19 main_v82 (broadcastInDim S100000x128 ![] bcast_S_S100000x128 : (⟨S_, .f32⟩ : BufTy).Contents (Elt F) → (⟨S100000x128, .f32⟩ : BufTy).Contents (Elt F)),
    StableHlo.unary main_arg1 main_v83 (broadcastInDim S1600000x1 ![0] bcast_S1600000_S1600000x1_0 : (⟨S1600000, .i32⟩ : BufTy).Contents (Elt F) → (⟨S1600000x1, .i32⟩ : BufTy).Contents (Elt F)),
    StableHlo.ternary main_v82 main_v83 main_v81 main_v84 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v27 main_v85 (broadcastInDim S100000x1 ![0] bcast_S100000_S100000x1_0 : (⟨S100000, .f32⟩ : BufTy).Contents (Elt F) → (⟨S100000x1, .f32⟩ : BufTy).Contents (Elt F)),
    StableHlo.unary main_v85 main_v86 (broadcastInDim S100000x128 ![0, 1] bcast_S100000x1_S100000x128_0_1 : (⟨S100000x1, .f32⟩ : BufTy).Contents (Elt F) → (⟨S100000x128, .f32⟩ : BufTy).Contents (Elt F)),
    StableHlo.binary main_v71 main_v86 main_v87 (mulf : (⟨S100000x128, .f32⟩ : BufTy).Contents (Elt F) → (⟨S100000x128, .f32⟩ : BufTy).Contents (Elt F) → (⟨S100000x128, .f32⟩ : BufTy).Contents (Elt F)),
    StableHlo.binary main_v84 main_v87 main_v88 (addf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x3F000000#32),
    StableHlo.unary main_cst_20 main_v89 (broadcastInDim S100000x128 ![] bcast_S_S100000x128 : (⟨S_, .f32⟩ : BufTy).Contents (Elt F) → (⟨S100000x128, .f32⟩ : BufTy).Contents (Elt F)),
    StableHlo.binary main_v89 main_v71 main_v90 (mulf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3F000000#32),
    StableHlo.unary main_cst_21 main_v91 (broadcastInDim S100000x128 ![] bcast_S_S100000x128 : (⟨S_, .f32⟩ : BufTy).Contents (Elt F) → (⟨S100000x128, .f32⟩ : BufTy).Contents (Elt F)),
    StableHlo.binary main_v91 main_v88 main_v92 (mulf : (⟨S100000x128, .f32⟩ : BufTy).Contents (Elt F) → (⟨S100000x128, .f32⟩ : BufTy).Contents (Elt F) → (⟨S100000x128, .f32⟩ : BufTy).Contents (Elt F)),
    StableHlo.binary main_v90 main_v92 main_v93 (addf : (⟨S100000x128, .f32⟩ : BufTy).Contents (Elt F) → (⟨S100000x128, .f32⟩ : BufTy).Contents (Elt F) → (⟨S100000x128, .f32⟩ : BufTy).Contents (Elt F)),
    StableHlo.nullary main_c_22 (constantI S_ 32 0#32),
    StableHlo.unary main_c_22 main_v94 (broadcastInDim S1600000 ![] bcast_S_S1600000 : (⟨S_, .i32⟩ : BufTy).Contents (Elt F) → (⟨S1600000, .i32⟩ : BufTy).Contents (Elt F)),
    StableHlo.binary main_arg2 main_v94 main_v95 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v96 (broadcastInDim S1600000 ![] bcast_S_S1600000 : (⟨S_, .i32⟩ : BufTy).Contents (Elt F) → (⟨S1600000, .i32⟩ : BufTy).Contents (Elt F)),
    StableHlo.binary main_arg2 main_v96 main_v97 (addi : (⟨S1600000, .i32⟩ : BufTy).Contents (Elt F) → (⟨S1600000, .i32⟩ : BufTy).Contents (Elt F) → (⟨S1600000, .i32⟩ : BufTy).Contents (Elt F)),
    StableHlo.ternary main_v95 main_v97 main_arg2 main_v98 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v98 main_v99 (broadcastInDim S1600000x1 ![0] bcast_S1600000_S1600000x1_0 : (⟨S1600000, .i32⟩ : BufTy).Contents (Elt F) → (⟨S1600000x1, .i32⟩ : BufTy).Contents (Elt F)),
    StableHlo.binary main_v93 main_v99 main_v100 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v101 (broadcastInDim S1600000x1 ![0] bcast_S1600000_S1600000x1_0 : (⟨S1600000, .f32⟩ : BufTy).Contents (Elt F) → (⟨S1600000x1, .f32⟩ : BufTy).Contents (Elt F)),
    StableHlo.unary main_v101 main_v102 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v100 main_v102 main_v103 (mulf : (⟨S1600000x128, .f32⟩ : BufTy).Contents (Elt F) → (⟨S1600000x128, .f32⟩ : BufTy).Contents (Elt F) → (⟨S1600000x128, .f32⟩ : BufTy).Contents (Elt F)),
    StableHlo.nullary main_cst_24 (constant S_ .f32 0x00000000#32),
    StableHlo.unary main_cst_24 main_v104 (broadcastInDim S100000x128 ![] bcast_S_S100000x128 : (⟨S_, .f32⟩ : BufTy).Contents (Elt F) → (⟨S100000x128, .f32⟩ : BufTy).Contents (Elt F)),
    StableHlo.unary main_arg1 main_v105 (broadcastInDim S1600000x1 ![0] bcast_S1600000_S1600000x1_0 : (⟨S1600000, .i32⟩ : BufTy).Contents (Elt F) → (⟨S1600000x1, .i32⟩ : BufTy).Contents (Elt F)),
    StableHlo.ternary main_v104 main_v105 main_v103 main_v106 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_v27 main_v107 (broadcastInDim S100000x1 ![0] bcast_S100000_S100000x1_0 : (⟨S100000, .f32⟩ : BufTy).Contents (Elt F) → (⟨S100000x1, .f32⟩ : BufTy).Contents (Elt F)),
    StableHlo.unary main_v107 main_v108 (broadcastInDim S100000x128 ![0, 1] bcast_S100000x1_S100000x128_0_1 : (⟨S100000x1, .f32⟩ : BufTy).Contents (Elt F) → (⟨S100000x128, .f32⟩ : BufTy).Contents (Elt F)),
    StableHlo.binary main_v93 main_v108 main_v109 (mulf : (⟨S100000x128, .f32⟩ : BufTy).Contents (Elt F) → (⟨S100000x128, .f32⟩ : BufTy).Contents (Elt F) → (⟨S100000x128, .f32⟩ : BufTy).Contents (Elt F)),
    StableHlo.binary main_v106 main_v109 main_v110 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3F000000#32),
    StableHlo.unary main_cst_25 main_v111 (broadcastInDim S100000x128 ![] bcast_S_S100000x128 : (⟨S_, .f32⟩ : BufTy).Contents (Elt F) → (⟨S100000x128, .f32⟩ : BufTy).Contents (Elt F)),
    StableHlo.binary main_v111 main_v93 main_v112 (mulf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3F000000#32),
    StableHlo.unary main_cst_26 main_v113 (broadcastInDim S100000x128 ![] bcast_S_S100000x128 : (⟨S_, .f32⟩ : BufTy).Contents (Elt F) → (⟨S100000x128, .f32⟩ : BufTy).Contents (Elt F)),
    StableHlo.binary main_v113 main_v110 main_v114 (mulf : (⟨S100000x128, .f32⟩ : BufTy).Contents (Elt F) → (⟨S100000x128, .f32⟩ : BufTy).Contents (Elt F) → (⟨S100000x128, .f32⟩ : BufTy).Contents (Elt F)),
    StableHlo.binary main_v112 main_v114 main_v115 (addf : (⟨S100000x128, .f32⟩ : BufTy).Contents (Elt F) → (⟨S100000x128, .f32⟩ : BufTy).Contents (Elt F) → (⟨S100000x128, .f32⟩ : BufTy).Contents (Elt F)),
    StableHlo.unary main_arg3 main_v116 ((transpose S128x40 [1, 0] · transposes_S40x128_S128x40_1_0) : (⟨S40x128, .f32⟩ : BufTy).Contents (Elt F) → (⟨S128x40, .f32⟩ : BufTy).Contents (Elt F)),
    StableHlo.binary main_v115 main_v116 main_v117 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.unary main_arg4 main_v118 (broadcastInDim S1x40 ![1] bcast_S40_S1x40_1 : (⟨S40, .f32⟩ : BufTy).Contents (Elt F) → (⟨S1x40, .f32⟩ : BufTy).Contents (Elt F)),
    StableHlo.unary main_v118 main_v119 (broadcastInDim S100000x40 ![0, 1] bcast_S1x40_S100000x40_0_1 : (⟨S1x40, .f32⟩ : BufTy).Contents (Elt F) → (⟨S100000x40, .f32⟩ : BufTy).Contents (Elt F)),
    StableHlo.binary main_v117 main_v119 main_v120 (addf : (⟨S100000x40, .f32⟩ : BufTy).Contents (Elt F) → (⟨S100000x40, .f32⟩ : BufTy).Contents (Elt F) → (⟨S100000x40, .f32⟩ : BufTy).Contents (Elt F)),
    StableHlo.nullary main_cst_27 (constant S_ .f32 0x00000000#32),
    StableHlo.binary main_v120 main_cst_27 main_v121 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    StableHlo.unary main_v121 main_v122 (broadcastInDim S100000x1 ![0] bcast_S100000_S100000x1_0 : (⟨S100000, .f32⟩ : BufTy).Contents (Elt F) → (⟨S100000x1, .f32⟩ : BufTy).Contents (Elt F)),
    StableHlo.nullary main_cst_28 (constant S_ .f32 0x42200000#32),
    StableHlo.unary main_cst_28 main_v123 (broadcastInDim S100000x1 ![] bcast_S_S100000x1 : (⟨S_, .f32⟩ : BufTy).Contents (Elt F) → (⟨S100000x1, .f32⟩ : BufTy).Contents (Elt F)),
    StableHlo.binary main_v122 main_v123 main_v124 (Host.divf : (⟨S100000x1, .f32⟩ : BufTy).Contents (Elt F) → (⟨S100000x1, .f32⟩ : BufTy).Contents (Elt F) → (⟨S100000x1, .f32⟩ : BufTy).Contents (Elt F)),
    StableHlo.nullary main_c_29 (constantI S_ 32 0#32),
    StableHlo.TRef.nullary main_call0.cst (constant S_ .f32 0x00000000#32),
    StableHlo.TRef.binary (.of main_v120) main_call0.cst main_call0.v0 (fun x v => Host.reduceAdd x v reducesTo_S100000x40_S100000_d1 h_S_),
    StableHlo.TRef.unary main_call0.v0 main_call0.v1 (broadcastInDim S100000x1 ![0] bcast_S100000_S100000x1_0),
    StableHlo.TRef.nullary main_call0.cst_0 (constant S_ .f32 0x42200000#32),
    StableHlo.TRef.unary main_call0.cst_0 main_call0.v2 (broadcastInDim S100000x1 ![] bcast_S_S100000x1),
    StableHlo.TRef.binary main_call0.v1 main_call0.v2 main_call0.v3 Host.divf,
    StableHlo.TRef.unary main_call0.v3 main_call0.v4 (broadcastInDim S100000x40 ![0, 1] bcast_S100000x1_S100000x40_0_1),
    StableHlo.TRef.binary (.of main_v120) main_call0.v4 main_call0.v5 subf,
    StableHlo.TRef.binary main_call0.v5 main_call0.v5 main_call0.v6 mulf,
    StableHlo.TRef.unary (.of main_c_29) main_call0.v7 (sitofp .f32),
    StableHlo.TRef.nullary main_call0.cst_1 (constant S_ .f32 0x42200000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x40_S100000_d1 h_S_),
    StableHlo.TRef.unary main_call0.v9 main_call0.v10 (broadcastInDim S100000x1 ![0] bcast_S100000_S100000x1_0),
    StableHlo.TRef.unary main_call0.v8 main_call0.v11 (broadcastInDim S100000x1 ![] bcast_S_S100000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S100000x1 ![] bcast_S_S100000x1),
    StableHlo.TRef.ternary main_call0.v13 main_call0.v12 main_call0.call0.v1 main_call0.call0.v2 (fun p a b => select (broadcastInDim S100000x1 ![] bcast_S_S100000x1 p) a b),
    StableHlo.unary main_v124 main_v126 (broadcastInDim S100000x40 ![0, 1] bcast_S100000x1_S100000x40_0_1 : (⟨S100000x1, .f32⟩ : BufTy).Contents (Elt F) → (⟨S100000x40, .f32⟩ : BufTy).Contents (Elt F)),
    StableHlo.binary main_v120 main_v126 main_v127 (subf : (⟨S100000x40, .f32⟩ : BufTy).Contents (Elt F) → (⟨S100000x40, .f32⟩ : BufTy).Contents (Elt F) → (⟨S100000x40, .f32⟩ : BufTy).Contents (Elt F)),
    StableHlo.nullary main_cst_30 (constant S_ .f32 0x3727C5AC#32),
    StableHlo.unary main_cst_30 main_v128 (broadcastInDim S100000x1 ![] bcast_S_S100000x1 : (⟨S_, .f32⟩ : BufTy).Contents (Elt F) → (⟨S100000x1, .f32⟩ : BufTy).Contents (Elt F)),
    StableHlo.binary main_v125 main_v128 main_v129 (addf : (⟨S100000x1, .f32⟩ : BufTy).Contents (Elt F) → (⟨S100000x1, .f32⟩ : BufTy).Contents (Elt F) → (⟨S100000x1, .f32⟩ : BufTy).Contents (Elt F)),
    StableHlo.unary main_v129 main_v130 (Host.rsqrt : (⟨S100000x1, .f32⟩ : BufTy).Contents (Elt F) → (⟨S100000x1, .f32⟩ : BufTy).Contents (Elt F)),
    StableHlo.unary main_v130 main_v131 (broadcastInDim S100000x40 ![0, 1] bcast_S100000x1_S100000x40_0_1 : (⟨S100000x1, .f32⟩ : BufTy).Contents (Elt F) → (⟨S100000x40, .f32⟩ : BufTy).Contents (Elt F)),
    StableHlo.binary main_v127 main_v131 main_v132 (mulf : (⟨S100000x40, .f32⟩ : BufTy).Contents (Elt F) → (⟨S100000x40, .f32⟩ : BufTy).Contents (Elt F) → (⟨S100000x40, .f32⟩ : BufTy).Contents (Elt F)),
    StableHlo.unary main_arg5 main_v133 (broadcastInDim S1x40 ![1] bcast_S40_S1x40_1 : (⟨S40, .f32⟩ : BufTy).Contents (Elt F) → (⟨S1x40, .f32⟩ : BufTy).Contents (Elt F)),
    StableHlo.unary main_v133 main_v134 (broadcastInDim S100000x40 ![0, 1] bcast_S1x40_S100000x40_0_1 : (⟨S1x40, .f32⟩ : BufTy).Contents (Elt F) → (⟨S100000x40, .f32⟩ : BufTy).Contents (Elt F)),
    StableHlo.binary main_v132 main_v134 main_v135 (mulf : (⟨S100000x40, .f32⟩ : BufTy).Contents (Elt F) → (⟨S100000x40, .f32⟩ : BufTy).Contents (Elt F) → (⟨S100000x40, .f32⟩ : BufTy).Contents (Elt F)),
    StableHlo.unary main_arg6 main_v136 (broadcastInDim S1x40 ![1] bcast_S40_S1x40_1 : (⟨S40, .f32⟩ : BufTy).Contents (Elt F) → (⟨S1x40, .f32⟩ : BufTy).Contents (Elt F)),
    StableHlo.unary main_v136 main_v137 (broadcastInDim S100000x40 ![0, 1] bcast_S1x40_S100000x40_0_1 : (⟨S1x40, .f32⟩ : BufTy).Contents (Elt F) → (⟨S100000x40, .f32⟩ : BufTy).Contents (Elt F)),
    StableHlo.binary main_v135 main_v137 main_v138 (addf : (⟨S100000x40, .f32⟩ : BufTy).Contents (Elt F) → (⟨S100000x40, .f32⟩ : BufTy).Contents (Elt F) → (⟨S100000x40, .f32⟩ : BufTy).Contents (Elt F)) ]

/-- The line is the stretches one after the other. -/
theorem ops_split : (ops : List (HloOp τ sig (Elt F))) = opsA ++ (opsS1 ++ (opsS2 ++ (opsS3 ++ (opsS4 ++ (opsL ++ (opsM ++ (opsC ++ opsT))))))) := rfl

/-- @main is that straight line: the three windows, the called functions' definitions unfolded at their calls and the
    records at their fields; both sides are one chain of steps once sequencing is reassociated. -/
theorem main_eq (c : Dev nD) : main (F := F) c = seq ops := by
  simp only [main, main_part0, main_part1, main_part2, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., unary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRunStages.lean ====
/-
  Each stretch of the reference's host program read as one function of the few buffers it takes from earlier
  stretches, for arbitrary earlier contents; and, per stretch, the buffers it leaves alone.
-/
import proofs.«168759_j50216757625453_2_alg».proof.Proof.RefRunLines
import proofs.«168759_j50216757625453_2_alg».proof.Proof.Spec
import proofs.«168759_j50216757625453_2_alg».proof.Proof.LibFoldStretch

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The stages with their intermediate arrays as arguments -/

/-- One propagation step with the edge weights `w` and the self weights `ws` given as arrays. -/
def stepG (w : FVec Ideal S1600000 .f32) (ws : FVec Ideal S100000 .f32) (row col : IVec S1600000 32)
    (h : FVec Ideal S100000x128 .f32) : FVec Ideal S100000x128 .f32 :=
  addf (mulf Cert.Spec.Ref.half h)
    (mulf Cert.Spec.Ref.half
      (addf
        (Host.scatterAdd scatter_S100000x128_S1600000x1_S1600000x128_1_0_0_1
          (broadcastInDim S100000x128 ![] bcast_S_S100000x128 (constant (F := Ideal) S_ .f32 0x00000000#32))
          (Cert.Spec.Ref.ecol row)
          (mulf (Host.gather gather_S100000x128_S1600000x1_S1600000x128_1_0_n_n_0_1_1128 h (Cert.Spec.Ref.ecol (Cert.Spec.Ref.wrap col)))
            (broadcastInDim S1600000x128 ![0, 1] bcast_S1600000x1_S1600000x128_0_1
              (broadcastInDim S1600000x1 ![0] bcast_S1600000_S1600000x1_0 w))))
        (mulf h
          (broadcastInDim S100000x128 ![0, 1] bcast_S100000x1_S100000x128_0_1
            (broadcastInDim S100000x1 ![0] bcast_S100000_S100000x1_0 ws)))))

theorem step_eq (row col : IVec S1600000 32) (h : FVec Ideal S100000x128 .f32) :
    Cert.Spec.Ref.step row col h = stepG (Cert.Spec.Ref.wedge row col) (Cert.Spec.Ref.wself row) row col h := rfl

/-- The row normalisation with the mean column `mu` and the variance column `va` given as arrays. -/
def normG (x : FVec Ideal S100000x40 .f32) (mu va : FVec Ideal S100000x1 .f32) (gamma beta : FVec Ideal S40 .f32) :
    FVec Ideal S100000x40 .f32 :=
  addf
    (mulf
      (mulf (subf x (broadcastInDim S100000x40 ![0, 1] bcast_S100000x1_S100000x40_0_1 mu))
        (broadcastInDim S100000x40 ![0, 1] bcast_S100000x1_S100000x40_0_1
          (Host.rsqrt (F := Ideal)
            (addf va (broadcastInDim S100000x1 ![] bcast_S_S100000x1 (constant (F := Ideal) S_ .f32 0x3727C5AC#32))))))
      (broadcastInDim S100000x40 ![0, 1] bcast_S1x40_S100000x40_0_1 (broadcastInDim S1x40 ![1] bcast_S40_S1x40_1 gamma)))
    (broadcastInDim S100000x40 ![0, 1] bcast_S1x40_S100000x40_0_1 (broadcastInDim S1x40 ![1] bcast_S40_S1x40_1 beta))

theorem norm_eq (x : FVec Ideal S100000x40 .f32) (gamma beta : FVec Ideal S40 .f32) :
    Cert.Spec.Ref.norm x gamma beta
      = normG x (Cert.Spec.Ref.mean x) (Cert.Spec.Ref.var x (constantI S_ 32 0#32)) gamma beta := rfl

/-! ## What each stretch computes -/

theorem A_v26 (V : Valuation τ sig (Elt Ideal)) :
    after (opsA (F := Ideal)) V (no_index (main_v26 : DevRef τ sig)) = Cert.Spec.Ref.wedge (V (main_arg1 : DevRef τ sig)) (V (main_arg2 : DevRef τ sig)) := by
  unfold opsA
  after_results_simp
  rfl

theorem A_v27 (V : Valuation τ sig (Elt Ideal)) :
    after (opsA (F := Ideal)) V (no_index (main_v27 : DevRef τ sig)) = Cert.Spec.Ref.wself (V (main_arg1 : DevRef τ sig)) := by
  unfold opsA
  after_results_simp
  rfl

theorem S1_v49 (V : Valuation τ sig (Elt Ideal)) :
    after (opsS1 (F := Ideal)) V (no_index (main_v49 : DevRef τ sig))
      = stepG (V (main_v26 : DevRef τ sig)) (V (main_v27 : DevRef τ sig)) (V (main_arg1 : DevRef τ sig)) (V (main_arg2 : DevRef τ sig)) (V (main_arg0 : DevRef τ sig)) := by
  unfold opsS1
  after_results_simp
  rfl

theorem S2_v71 (V : Valuation τ sig (Elt Ideal)) :
    after (opsS2 (F := Ideal)) V (no_index (main_v71 : DevRef τ sig))
      = stepG (V (main_v26 : DevRef τ sig)) (V (main_v27 : DevRef τ sig)) (V (main_arg1 : DevRef τ sig)) (V (main_arg2 : DevRef τ sig)) (V (main_v49 : DevRef τ sig)) := by
  unfold opsS2
  after_results_simp
  rfl

theorem S3_v93 (V : Valuation τ sig (Elt Ideal)) :
    after (opsS3 (F := Ideal)) V (no_index (main_v93 : DevRef τ sig))
      = stepG (V (main_v26 : DevRef τ sig)) (V (main_v27 : DevRef τ sig)) (V (main_arg1 : DevRef τ sig)) (V (main_arg2 : DevRef τ sig)) (V (main_v71 : DevRef τ sig)) := by
  unfold opsS3
  after_results_simp
  rfl

theorem S4_v115 (V : Valuation τ sig (Elt Ideal)) :
    after (opsS4 (F := Ideal)) V (no_index (main_v115 : DevRef τ sig))
      = stepG (V (main_v26 : DevRef τ sig)) (V (main_v27 : DevRef τ sig)) (V (main_arg1 : DevRef τ sig)) (V (main_arg2 : DevRef τ sig)) (V (main_v93 : DevRef τ sig)) := by
  unfold opsS4
  after_results_simp
  rfl

theorem L_v120 (V : Valuation τ sig (Elt Ideal)) :
    after (opsL (F := Ideal)) V (no_index (main_v120 : DevRef τ sig))
      = Cert.Spec.Ref.logits (V (main_v115 : DevRef τ sig)) (V (main_arg3 : DevRef τ sig)) (V (main_arg4 : DevRef τ sig)) := by
  unfold opsL
  after_results_simp
  rfl

theorem M_v124 (V : Valuation τ sig (Elt Ideal)) :
    after (opsM (F := Ideal)) V (no_index (main_v124 : DevRef τ sig)) = Cert.Spec.Ref.mean (V (main_v120 : DevRef τ sig)) := by
  unfold opsM
  after_results_simp
  rfl

theorem C_v125 (V : Valuation τ sig (Elt Ideal)) :
    after (opsC (F := Ideal)) V (no_index (main_v125 : DevRef τ sig))
      = Cert.Spec.Ref.var (V (main_v120 : DevRef τ sig)) (constantI S_ 32 0#32) := by
  unfold opsC
  after_results_simp
  rfl

theorem T_v138 (V : Valuation τ sig (Elt Ideal)) :
    after (opsT (F := Ideal)) V (no_index (main_v138 : DevRef τ sig))
      = normG (V (main_v120 : DevRef τ sig)) (V (main_v124 : DevRef τ sig)) (V (main_v125 : DevRef τ sig)) (V (main_arg5 : DevRef τ sig)) (V (main_arg6 : DevRef τ sig)) := by
  unfold opsT
  after_results_simp
  rfl

/-! ## What each stretch leaves alone -/

variable {F : FTy → Type} [FloatOps F]

theorem writes_sub {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map_of_mem hy))

/-- The buffers the stretch writes. -/
def wA : List (Ref sig .tc) :=
  [main_cst, main_v0, main_c, main_v1, main_v2, main_c_0, main_v3, main_v4, main_v5, main_v6, main_cst_1, main_v7, main_v8, main_cst_2, main_v9, main_v10, main_v11, main_c_3, main_v12, main_v13, main_c_4, main_v14, main_v15, main_v16, main_v17, main_v18, main_c_5, main_v19, main_v20, main_c_6, main_v21, main_v22, main_v23, main_v24, main_v25, main_v26, main_v27]

theorem A_writes : (opsA (F := F)).Forall fun op => op.writes ⊆ ((wA).map (Proc.devRef (τ := τ) .tc)).toFinset := by
  unfold opsA
  exact ⟨writes_sub (y := main_cst) (by decide),
    writes_sub (y := main_v0) (by decide),
    writes_sub (y := main_c) (by decide),
    writes_sub (y := main_v1) (by decide),
    writes_sub (y := main_v2) (by decide),
    writes_sub (y := main_c_0) (by decide),
    writes_sub (y := main_v3) (by decide),
    writes_sub (y := main_v4) (by decide),
    writes_sub (y := main_v5) (by decide),
    writes_sub (y := main_v6) (by decide),
    writes_sub (y := main_cst_1) (by decide),
    writes_sub (y := main_v7) (by decide),
    writes_sub (y := main_v8) (by decide),
    writes_sub (y := main_cst_2) (by decide),
    writes_sub (y := main_v9) (by decide),
    writes_sub (y := main_v10) (by decide),
    writes_sub (y := main_v11) (by decide),
    writes_sub (y := main_c_3) (by decide),
    writes_sub (y := main_v12) (by decide),
    writes_sub (y := main_v13) (by decide),
    writes_sub (y := main_c_4) (by decide),
    writes_sub (y := main_v14) (by decide),
    writes_sub (y := main_v15) (by decide),
    writes_sub (y := main_v16) (by decide),
    writes_sub (y := main_v17) (by decide),
    writes_sub (y := main_v18) (by decide),
    writes_sub (y := main_c_5) (by decide),
    writes_sub (y := main_v19) (by decide),
    writes_sub (y := main_v20) (by decide),
    writes_sub (y := main_c_6) (by decide),
    writes_sub (y := main_v21) (by decide),
    writes_sub (y := main_v22) (by decide),
    writes_sub (y := main_v23) (by decide),
    writes_sub (y := main_v24) (by decide),
    writes_sub (y := main_v25) (by decide),
    writes_sub (y := main_v26) (by decide),
    writes_sub (y := main_v27) (by decide)⟩

/-- A buffer the stretch does not write keeps its contents. -/
theorem A_fr (V : Valuation τ sig (Elt F)) {r : Ref sig .tc} (hr : r ∉ wA) :
    after (opsA (F := F)) V (Proc.devRef .tc r) = V (Proc.devRef .tc r) :=
  after_of_writes_sub opsA V A_writes hr

theorem A_arg0 (V : Valuation τ sig (Elt F)) : after (opsA (F := F)) V (no_index (main_arg0 : DevRef τ sig)) = V (main_arg0 : DevRef τ sig) := A_fr V (by decide)
theorem A_arg1 (V : Valuation τ sig (Elt F)) : after (opsA (F := F)) V (no_index (main_arg1 : DevRef τ sig)) = V (main_arg1 : DevRef τ sig) := A_fr V (by decide)
theorem A_arg2 (V : Valuation τ sig (Elt F)) : after (opsA (F := F)) V (no_index (main_arg2 : DevRef τ sig)) = V (main_arg2 : DevRef τ sig) := A_fr V (by decide)
theorem A_arg3 (V : Valuation τ sig (Elt F)) : after (opsA (F := F)) V (no_index (main_arg3 : DevRef τ sig)) = V (main_arg3 : DevRef τ sig) := A_fr V (by decide)
theorem A_arg4 (V : Valuation τ sig (Elt F)) : after (opsA (F := F)) V (no_index (main_arg4 : DevRef τ sig)) = V (main_arg4 : DevRef τ sig) := A_fr V (by decide)
theorem A_arg5 (V : Valuation τ sig (Elt F)) : after (opsA (F := F)) V (no_index (main_arg5 : DevRef τ sig)) = V (main_arg5 : DevRef τ sig) := A_fr V (by decide)
theorem A_arg6 (V : Valuation τ sig (Elt F)) : after (opsA (F := F)) V (no_index (main_arg6 : DevRef τ sig)) = V (main_arg6 : DevRef τ sig) := A_fr V (by decide)

/-- The buffers the stretch writes. -/
def wS1 : List (Ref sig .tc) :=
  [main_c_7, main_v28, main_v29, main_c_8, main_v30, main_v31, main_v32, main_v33, main_v34, main_v35, main_v36, main_v37, main_cst_9, main_v38, main_v39, main_v40, main_v41, main_v42, main_v43, main_v44, main_cst_10, main_v45, main_v46, main_cst_11, main_v47, main_v48, main_v49]

theorem S1_writes : (opsS1 (F := F)).Forall fun op => op.writes ⊆ ((wS1).map (Proc.devRef (τ := τ) .tc)).toFinset := by
  unfold opsS1
  exact ⟨writes_sub (y := main_c_7) (by decide),
    writes_sub (y := main_v28) (by decide),
    writes_sub (y := main_v29) (by decide),
    writes_sub (y := main_c_8) (by decide),
    writes_sub (y := main_v30) (by decide),
    writes_sub (y := main_v31) (by decide),
    writes_sub (y := main_v32) (by decide),
    writes_sub (y := main_v33) (by decide),
    writes_sub (y := main_v34) (by decide),
    writes_sub (y := main_v35) (by decide),
    writes_sub (y := main_v36) (by decide),
    writes_sub (y := main_v37) (by decide),
    writes_sub (y := main_cst_9) (by decide),
    writes_sub (y := main_v38) (by decide),
    writes_sub (y := main_v39) (by decide),
    writes_sub (y := main_v40) (by decide),
    writes_sub (y := main_v41) (by decide),
    writes_sub (y := main_v42) (by decide),
    writes_sub (y := main_v43) (by decide),
    writes_sub (y := main_v44) (by decide),
    writes_sub (y := main_cst_10) (by decide),
    writes_sub (y := main_v45) (by decide),
    writes_sub (y := main_v46) (by decide),
    writes_sub (y := main_cst_11) (by decide),
    writes_sub (y := main_v47) (by decide),
    writes_sub (y := main_v48) (by decide),
    writes_sub (y := main_v49) (by decide)⟩

/-- A buffer the stretch does not write keeps its contents. -/
theorem S1_fr (V : Valuation τ sig (Elt F)) {r : Ref sig .tc} (hr : r ∉ wS1) :
    after (opsS1 (F := F)) V (Proc.devRef .tc r) = V (Proc.devRef .tc r) :=
  after_of_writes_sub opsS1 V S1_writes hr

theorem S1_arg0 (V : Valuation τ sig (Elt F)) : after (opsS1 (F := F)) V (no_index (main_arg0 : DevRef τ sig)) = V (main_arg0 : DevRef τ sig) := S1_fr V (by decide)
theorem S1_arg1 (V : Valuation τ sig (Elt F)) : after (opsS1 (F := F)) V (no_index (main_arg1 : DevRef τ sig)) = V (main_arg1 : DevRef τ sig) := S1_fr V (by decide)
theorem S1_arg2 (V : Valuation τ sig (Elt F)) : after (opsS1 (F := F)) V (no_index (main_arg2 : DevRef τ sig)) = V (main_arg2 : DevRef τ sig) := S1_fr V (by decide)
theorem S1_arg3 (V : Valuation τ sig (Elt F)) : after (opsS1 (F := F)) V (no_index (main_arg3 : DevRef τ sig)) = V (main_arg3 : DevRef τ sig) := S1_fr V (by decide)
theorem S1_arg4 (V : Valuation τ sig (Elt F)) : after (opsS1 (F := F)) V (no_index (main_arg4 : DevRef τ sig)) = V (main_arg4 : DevRef τ sig) := S1_fr V (by decide)
theorem S1_arg5 (V : Valuation τ sig (Elt F)) : after (opsS1 (F := F)) V (no_index (main_arg5 : DevRef τ sig)) = V (main_arg5 : DevRef τ sig) := S1_fr V (by decide)
theorem S1_arg6 (V : Valuation τ sig (Elt F)) : after (opsS1 (F := F)) V (no_index (main_arg6 : DevRef τ sig)) = V (main_arg6 : DevRef τ sig) := S1_fr V (by decide)
theorem S1_v26 (V : Valuation τ sig (Elt F)) : after (opsS1 (F := F)) V (no_index (main_v26 : DevRef τ sig)) = V (main_v26 : DevRef τ sig) := S1_fr V (by decide)
theorem S1_v27 (V : Valuation τ sig (Elt F)) : after (opsS1 (F := F)) V (no_index (main_v27 : DevRef τ sig)) = V (main_v27 : DevRef τ sig) := S1_fr V (by decide)

/-- The buffers the stretch writes. -/
def wS2 : List (Ref sig .tc) :=
  [main_c_12, main_v50, main_v51, main_c_13, main_v52, main_v53, main_v54, main_v55, main_v56, main_v57, main_v58, main_v59, main_cst_14, main_v60, main_v61, main_v62, main_v63, main_v64, main_v65, main_v66, main_cst_15, main_v67, main_v68, main_cst_16, main_v69, main_v70, main_v71]

theorem S2_writes : (opsS2 (F := F)).Forall fun op => op.writes ⊆ ((wS2).map (Proc.devRef (τ := τ) .tc)).toFinset := by
  unfold opsS2
  exact ⟨writes_sub (y := main_c_12) (by decide),
    writes_sub (y := main_v50) (by decide),
    writes_sub (y := main_v51) (by decide),
    writes_sub (y := main_c_13) (by decide),
    writes_sub (y := main_v52) (by decide),
    writes_sub (y := main_v53) (by decide),
    writes_sub (y := main_v54) (by decide),
    writes_sub (y := main_v55) (by decide),
    writes_sub (y := main_v56) (by decide),
    writes_sub (y := main_v57) (by decide),
    writes_sub (y := main_v58) (by decide),
    writes_sub (y := main_v59) (by decide),
    writes_sub (y := main_cst_14) (by decide),
    writes_sub (y := main_v60) (by decide),
    writes_sub (y := main_v61) (by decide),
    writes_sub (y := main_v62) (by decide),
    writes_sub (y := main_v63) (by decide),
    writes_sub (y := main_v64) (by decide),
    writes_sub (y := main_v65) (by decide),
    writes_sub (y := main_v66) (by decide),
    writes_sub (y := main_cst_15) (by decide),
    writes_sub (y := main_v67) (by decide),
    writes_sub (y := main_v68) (by decide),
    writes_sub (y := main_cst_16) (by decide),
    writes_sub (y := main_v69) (by decide),
    writes_sub (y := main_v70) (by decide),
    writes_sub (y := main_v71) (by decide)⟩

/-- A buffer the stretch does not write keeps its contents. -/
theorem S2_fr (V : Valuation τ sig (Elt F)) {r : Ref sig .tc} (hr : r ∉ wS2) :
    after (opsS2 (F := F)) V (Proc.devRef .tc r) = V (Proc.devRef .tc r) :=
  after_of_writes_sub opsS2 V S2_writes hr

theorem S2_arg0 (V : Valuation τ sig (Elt F)) : after (opsS2 (F := F)) V (no_index (main_arg0 : DevRef τ sig)) = V (main_arg0 : DevRef τ sig) := S2_fr V (by decide)
theorem S2_arg1 (V : Valuation τ sig (Elt F)) : after (opsS2 (F := F)) V (no_index (main_arg1 : DevRef τ sig)) = V (main_arg1 : DevRef τ sig) := S2_fr V (by decide)
theorem S2_arg2 (V : Valuation τ sig (Elt F)) : after (opsS2 (F := F)) V (no_index (main_arg2 : DevRef τ sig)) = V (main_arg2 : DevRef τ sig) := S2_fr V (by decide)
theorem S2_arg3 (V : Valuation τ sig (Elt F)) : after (opsS2 (F := F)) V (no_index (main_arg3 : DevRef τ sig)) = V (main_arg3 : DevRef τ sig) := S2_fr V (by decide)
theorem S2_arg4 (V : Valuation τ sig (Elt F)) : after (opsS2 (F := F)) V (no_index (main_arg4 : DevRef τ sig)) = V (main_arg4 : DevRef τ sig) := S2_fr V (by decide)
theorem S2_arg5 (V : Valuation τ sig (Elt F)) : after (opsS2 (F := F)) V (no_index (main_arg5 : DevRef τ sig)) = V (main_arg5 : DevRef τ sig) := S2_fr V (by decide)
theorem S2_arg6 (V : Valuation τ sig (Elt F)) : after (opsS2 (F := F)) V (no_index (main_arg6 : DevRef τ sig)) = V (main_arg6 : DevRef τ sig) := S2_fr V (by decide)
theorem S2_v26 (V : Valuation τ sig (Elt F)) : after (opsS2 (F := F)) V (no_index (main_v26 : DevRef τ sig)) = V (main_v26 : DevRef τ sig) := S2_fr V (by decide)
theorem S2_v27 (V : Valuation τ sig (Elt F)) : after (opsS2 (F := F)) V (no_index (main_v27 : DevRef τ sig)) = V (main_v27 : DevRef τ sig) := S2_fr V (by decide)

/-- The buffers the stretch writes. -/
def wS3 : List (Ref sig .tc) :=
  [main_c_17, main_v72, main_v73, main_c_18, main_v74, main_v75, main_v76, main_v77, main_v78, main_v79, main_v80, main_v81, main_cst_19, main_v82, main_v83, main_v84, main_v85, main_v86, main_v87, main_v88, main_cst_20, main_v89, main_v90, main_cst_21, main_v91, main_v92, main_v93]

theorem S3_writes : (opsS3 (F := F)).Forall fun op => op.writes ⊆ ((wS3).map (Proc.devRef (τ := τ) .tc)).toFinset := by
  unfold opsS3
  exact ⟨writes_sub (y := main_c_17) (by decide),
    writes_sub (y := main_v72) (by decide),
    writes_sub (y := main_v73) (by decide),
    writes_sub (y := main_c_18) (by decide),
    writes_sub (y := main_v74) (by decide),
    writes_sub (y := main_v75) (by decide),
    writes_sub (y := main_v76) (by decide),
    writes_sub (y := main_v77) (by decide),
    writes_sub (y := main_v78) (by decide),
    writes_sub (y := main_v79) (by decide),
    writes_sub (y := main_v80) (by decide),
    writes_sub (y := main_v81) (by decide),
    writes_sub (y := main_cst_19) (by decide),
    writes_sub (y := main_v82) (by decide),
    writes_sub (y := main_v83) (by decide),
    writes_sub (y := main_v84) (by decide),
    writes_sub (y := main_v85) (by decide),
    writes_sub (y := main_v86) (by decide),
    writes_sub (y := main_v87) (by decide),
    writes_sub (y := main_v88) (by decide),
    writes_sub (y := main_cst_20) (by decide),
    writes_sub (y := main_v89) (by decide),
    writes_sub (y := main_v90) (by decide),
    writes_sub (y := main_cst_21) (by decide),
    writes_sub (y := main_v91) (by decide),
    writes_sub (y := main_v92) (by decide),
    writes_sub (y := main_v93) (by decide)⟩

/-- A buffer the stretch does not write keeps its contents. -/
theorem S3_fr (V : Valuation τ sig (Elt F)) {r : Ref sig .tc} (hr : r ∉ wS3) :
    after (opsS3 (F := F)) V (Proc.devRef .tc r) = V (Proc.devRef .tc r) :=
  after_of_writes_sub opsS3 V S3_writes hr

theorem S3_arg0 (V : Valuation τ sig (Elt F)) : after (opsS3 (F := F)) V (no_index (main_arg0 : DevRef τ sig)) = V (main_arg0 : DevRef τ sig) := S3_fr V (by decide)
theorem S3_arg1 (V : Valuation τ sig (Elt F)) : after (opsS3 (F := F)) V (no_index (main_arg1 : DevRef τ sig)) = V (main_arg1 : DevRef τ sig) := S3_fr V (by decide)
theorem S3_arg2 (V : Valuation τ sig (Elt F)) : after (opsS3 (F := F)) V (no_index (main_arg2 : DevRef τ sig)) = V (main_arg2 : DevRef τ sig) := S3_fr V (by decide)
theorem S3_arg3 (V : Valuation τ sig (Elt F)) : after (opsS3 (F := F)) V (no_index (main_arg3 : DevRef τ sig)) = V (main_arg3 : DevRef τ sig) := S3_fr V (by decide)
theorem S3_arg4 (V : Valuation τ sig (Elt F)) : after (opsS3 (F := F)) V (no_index (main_arg4 : DevRef τ sig)) = V (main_arg4 : DevRef τ sig) := S3_fr V (by decide)
theorem S3_arg5 (V : Valuation τ sig (Elt F)) : after (opsS3 (F := F)) V (no_index (main_arg5 : DevRef τ sig)) = V (main_arg5 : DevRef τ sig) := S3_fr V (by decide)
theorem S3_arg6 (V : Valuation τ sig (Elt F)) : after (opsS3 (F := F)) V (no_index (main_arg6 : DevRef τ sig)) = V (main_arg6 : DevRef τ sig) := S3_fr V (by decide)
theorem S3_v26 (V : Valuation τ sig (Elt F)) : after (opsS3 (F := F)) V (no_index (main_v26 : DevRef τ sig)) = V (main_v26 : DevRef τ sig) := S3_fr V (by decide)
theorem S3_v27 (V : Valuation τ sig (Elt F)) : after (opsS3 (F := F)) V (no_index (main_v27 : DevRef τ sig)) = V (main_v27 : DevRef τ sig) := S3_fr V (by decide)

/-- The buffers the stretch writes. -/
def wS4 : List (Ref sig .tc) :=
  [main_c_22, main_v94, main_v95, main_c_23, main_v96, main_v97, main_v98, main_v99, main_v100, main_v101, main_v102, main_v103, main_cst_24, main_v104, main_v105, main_v106, main_v107, main_v108, main_v109, main_v110, main_cst_25, main_v111, main_v112, main_cst_26, main_v113, main_v114, main_v115]

theorem S4_writes : (opsS4 (F := F)).Forall fun op => op.writes ⊆ ((wS4).map (Proc.devRef (τ := τ) .tc)).toFinset := by
  unfold opsS4
  exact ⟨writes_sub (y := main_c_22) (by decide),
    writes_sub (y := main_v94) (by decide),
    writes_sub (y := main_v95) (by decide),
    writes_sub (y := main_c_23) (by decide),
    writes_sub (y := main_v96) (by decide),
    writes_sub (y := main_v97) (by decide),
    writes_sub (y := main_v98) (by decide),
    writes_sub (y := main_v99) (by decide),
    writes_sub (y := main_v100) (by decide),
    writes_sub (y := main_v101) (by decide),
    writes_sub (y := main_v102) (by decide),
    writes_sub (y := main_v103) (by decide),
    writes_sub (y := main_cst_24) (by decide),
    writes_sub (y := main_v104) (by decide),
    writes_sub (y := main_v105) (by decide),
    writes_sub (y := main_v106) (by decide),
    writes_sub (y := main_v107) (by decide),
    writes_sub (y := main_v108) (by decide),
    writes_sub (y := main_v109) (by decide),
    writes_sub (y := main_v110) (by decide),
    writes_sub (y := main_cst_25) (by decide),
    writes_sub (y := main_v111) (by decide),
    writes_sub (y := main_v112) (by decide),
    writes_sub (y := main_cst_26) (by decide),
    writes_sub (y := main_v113) (by decide),
    writes_sub (y := main_v114) (by decide),
    writes_sub (y := main_v115) (by decide)⟩

/-- A buffer the stretch does not write keeps its contents. -/
theorem S4_fr (V : Valuation τ sig (Elt F)) {r : Ref sig .tc} (hr : r ∉ wS4) :
    after (opsS4 (F := F)) V (Proc.devRef .tc r) = V (Proc.devRef .tc r) :=
  after_of_writes_sub opsS4 V S4_writes hr

theorem S4_arg0 (V : Valuation τ sig (Elt F)) : after (opsS4 (F := F)) V (no_index (main_arg0 : DevRef τ sig)) = V (main_arg0 : DevRef τ sig) := S4_fr V (by decide)
theorem S4_arg1 (V : Valuation τ sig (Elt F)) : after (opsS4 (F := F)) V (no_index (main_arg1 : DevRef τ sig)) = V (main_arg1 : DevRef τ sig) := S4_fr V (by decide)
theorem S4_arg2 (V : Valuation τ sig (Elt F)) : after (opsS4 (F := F)) V (no_index (main_arg2 : DevRef τ sig)) = V (main_arg2 : DevRef τ sig) := S4_fr V (by decide)
theorem S4_arg3 (V : Valuation τ sig (Elt F)) : after (opsS4 (F := F)) V (no_index (main_arg3 : DevRef τ sig)) = V (main_arg3 : DevRef τ sig) := S4_fr V (by decide)
theorem S4_arg4 (V : Valuation τ sig (Elt F)) : after (opsS4 (F := F)) V (no_index (main_arg4 : DevRef τ sig)) = V (main_arg4 : DevRef τ sig) := S4_fr V (by decide)
theorem S4_arg5 (V : Valuation τ sig (Elt F)) : after (opsS4 (F := F)) V (no_index (main_arg5 : DevRef τ sig)) = V (main_arg5 : DevRef τ sig) := S4_fr V (by decide)
theorem S4_arg6 (V : Valuation τ sig (Elt F)) : after (opsS4 (F := F)) V (no_index (main_arg6 : DevRef τ sig)) = V (main_arg6 : DevRef τ sig) := S4_fr V (by decide)

/-- The buffers the stretch writes. -/
def wL : List (Ref sig .tc) :=
  [main_v116, main_v117, main_v118, main_v119, main_v120]

theorem L_writes : (opsL (F := F)).Forall fun op => op.writes ⊆ ((wL).map (Proc.devRef (τ := τ) .tc)).toFinset := by
  unfold opsL
  exact ⟨writes_sub (y := main_v116) (by decide),
    writes_sub (y := main_v117) (by decide),
    writes_sub (y := main_v118) (by decide),
    writes_sub (y := main_v119) (by decide),
    writes_sub (y := main_v120) (by decide)⟩

/-- A buffer the stretch does not write keeps its contents. -/
theorem L_fr (V : Valuation τ sig (Elt F)) {r : Ref sig .tc} (hr : r ∉ wL) :
    after (opsL (F := F)) V (Proc.devRef .tc r) = V (Proc.devRef .tc r) :=
  after_of_writes_sub opsL V L_writes hr

theorem L_arg0 (V : Valuation τ sig (Elt F)) : after (opsL (F := F)) V (no_index (main_arg0 : DevRef τ sig)) = V (main_arg0 : DevRef τ sig) := L_fr V (by decide)
theorem L_arg1 (V : Valuation τ sig (Elt F)) : after (opsL (F := F)) V (no_index (main_arg1 : DevRef τ sig)) = V (main_arg1 : DevRef τ sig) := L_fr V (by decide)
theorem L_arg2 (V : Valuation τ sig (Elt F)) : after (opsL (F := F)) V (no_index (main_arg2 : DevRef τ sig)) = V (main_arg2 : DevRef τ sig) := L_fr V (by decide)
theorem L_arg3 (V : Valuation τ sig (Elt F)) : after (opsL (F := F)) V (no_index (main_arg3 : DevRef τ sig)) = V (main_arg3 : DevRef τ sig) := L_fr V (by decide)
theorem L_arg4 (V : Valuation τ sig (Elt F)) : after (opsL (F := F)) V (no_index (main_arg4 : DevRef τ sig)) = V (main_arg4 : DevRef τ sig) := L_fr V (by decide)
theorem L_arg5 (V : Valuation τ sig (Elt F)) : after (opsL (F := F)) V (no_index (main_arg5 : DevRef τ sig)) = V (main_arg5 : DevRef τ sig) := L_fr V (by decide)
theorem L_arg6 (V : Valuation τ sig (Elt F)) : after (opsL (F := F)) V (no_index (main_arg6 : DevRef τ sig)) = V (main_arg6 : DevRef τ sig) := L_fr V (by decide)

/-- The buffers the stretch writes. -/
def wM : List (Ref sig .tc) :=
  [main_cst_27, main_v121, main_v122, main_cst_28, main_v123, main_v124]

theorem M_writes : (opsM (F := F)).Forall fun op => op.writes ⊆ ((wM).map (Proc.devRef (τ := τ) .tc)).toFinset := by
  unfold opsM
  exact ⟨writes_sub (y := main_cst_27) (by decide),
    writes_sub (y := main_v121) (by decide),
    writes_sub (y := main_v122) (by decide),
    writes_sub (y := main_cst_28) (by decide),
    writes_sub (y := main_v123) (by decide),
    writes_sub (y := main_v124) (by decide)⟩

/-- A buffer the stretch does not write keeps its contents. -/
theorem M_fr (V : Valuation τ sig (Elt F)) {r : Ref sig .tc} (hr : r ∉ wM) :
    after (opsM (F := F)) V (Proc.devRef .tc r) = V (Proc.devRef .tc r) :=
  after_of_writes_sub opsM V M_writes hr

theorem M_arg0 (V : Valuation τ sig (Elt F)) : after (opsM (F := F)) V (no_index (main_arg0 : DevRef τ sig)) = V (main_arg0 : DevRef τ sig) := M_fr V (by decide)
theorem M_arg1 (V : Valuation τ sig (Elt F)) : after (opsM (F := F)) V (no_index (main_arg1 : DevRef τ sig)) = V (main_arg1 : DevRef τ sig) := M_fr V (by decide)
theorem M_arg2 (V : Valuation τ sig (Elt F)) : after (opsM (F := F)) V (no_index (main_arg2 : DevRef τ sig)) = V (main_arg2 : DevRef τ sig) := M_fr V (by decide)
theorem M_arg3 (V : Valuation τ sig (Elt F)) : after (opsM (F := F)) V (no_index (main_arg3 : DevRef τ sig)) = V (main_arg3 : DevRef τ sig) := M_fr V (by decide)
theorem M_arg4 (V : Valuation τ sig (Elt F)) : after (opsM (F := F)) V (no_index (main_arg4 : DevRef τ sig)) = V (main_arg4 : DevRef τ sig) := M_fr V (by decide)
theorem M_arg5 (V : Valuation τ sig (Elt F)) : after (opsM (F := F)) V (no_index (main_arg5 : DevRef τ sig)) = V (main_arg5 : DevRef τ sig) := M_fr V (by decide)
theorem M_arg6 (V : Valuation τ sig (Elt F)) : after (opsM (F := F)) V (no_index (main_arg6 : DevRef τ sig)) = V (main_arg6 : DevRef τ sig) := M_fr V (by decide)
theorem M_v120 (V : Valuation τ sig (Elt F)) : after (opsM (F := F)) V (no_index (main_v120 : DevRef τ sig)) = V (main_v120 : DevRef τ sig) := M_fr V (by decide)

/-- The buffers the stretch writes. -/
def wC : List (Ref sig .tc) :=
  [main_c_29, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref]

theorem C_writes : (opsC (F := F)).Forall fun op => op.writes ⊆ ((wC).map (Proc.devRef (τ := τ) .tc)).toFinset := by
  unfold opsC
  exact ⟨writes_sub (y := main_c_29) (by decide),
    writes_sub (y := main_call0.cst.ref) (by decide),
    writes_sub (y := main_call0.v0.ref) (by decide),
    writes_sub (y := main_call0.v1.ref) (by decide),
    writes_sub (y := main_call0.cst_0.ref) (by decide),
    writes_sub (y := main_call0.v2.ref) (by decide),
    writes_sub (y := main_call0.v3.ref) (by decide),
    writes_sub (y := main_call0.v4.ref) (by decide),
    writes_sub (y := main_call0.v5.ref) (by decide),
    writes_sub (y := main_call0.v6.ref) (by decide),
    writes_sub (y := main_call0.v7.ref) (by decide),
    writes_sub (y := main_call0.cst_1.ref) (by decide),
    writes_sub (y := main_call0.v8.ref) (by decide),
    writes_sub (y := main_call0.cst_2.ref) (by decide),
    writes_sub (y := main_call0.v9.ref) (by decide),
    writes_sub (y := main_call0.v10.ref) (by decide),
    writes_sub (y := main_call0.v11.ref) (by decide),
    writes_sub (y := main_call0.v12.ref) (by decide),
    writes_sub (y := main_call0.cst_3.ref) (by decide),
    writes_sub (y := main_call0.v13.ref) (by decide),
    writes_sub (y := main_call0.cst_4.ref) (by decide),
    writes_sub (y := main_call0.call0.v0.ref) (by decide),
    writes_sub (y := main_call0.call0.v1.ref) (by decide),
    writes_sub (y := main_call0.call0.v2.ref) (by decide)⟩

/-- A buffer the stretch does not write keeps its contents. -/
theorem C_fr (V : Valuation τ sig (Elt F)) {r : Ref sig .tc} (hr : r ∉ wC) :
    after (opsC (F := F)) V (Proc.devRef .tc r) = V (Proc.devRef .tc r) :=
  after_of_writes_sub opsC V C_writes hr

theorem C_arg0 (V : Valuation τ sig (Elt F)) : after (opsC (F := F)) V (no_index (main_arg0 : DevRef τ sig)) = V (main_arg0 : DevRef τ sig) := C_fr V (by decide)
theorem C_arg1 (V : Valuation τ sig (Elt F)) : after (opsC (F := F)) V (no_index (main_arg1 : DevRef τ sig)) = V (main_arg1 : DevRef τ sig) := C_fr V (by decide)
theorem C_arg2 (V : Valuation τ sig (Elt F)) : after (opsC (F := F)) V (no_index (main_arg2 : DevRef τ sig)) = V (main_arg2 : DevRef τ sig) := C_fr V (by decide)
theorem C_arg3 (V : Valuation τ sig (Elt F)) : after (opsC (F := F)) V (no_index (main_arg3 : DevRef τ sig)) = V (main_arg3 : DevRef τ sig) := C_fr V (by decide)
theorem C_arg4 (V : Valuation τ sig (Elt F)) : after (opsC (F := F)) V (no_index (main_arg4 : DevRef τ sig)) = V (main_arg4 : DevRef τ sig) := C_fr V (by decide)
theorem C_arg5 (V : Valuation τ sig (Elt F)) : after (opsC (F := F)) V (no_index (main_arg5 : DevRef τ sig)) = V (main_arg5 : DevRef τ sig) := C_fr V (by decide)
theorem C_arg6 (V : Valuation τ sig (Elt F)) : after (opsC (F := F)) V (no_index (main_arg6 : DevRef τ sig)) = V (main_arg6 : DevRef τ sig) := C_fr V (by decide)
theorem C_v120 (V : Valuation τ sig (Elt F)) : after (opsC (F := F)) V (no_index (main_v120 : DevRef τ sig)) = V (main_v120 : DevRef τ sig) := C_fr V (by decide)
theorem C_v124 (V : Valuation τ sig (Elt F)) : after (opsC (F := F)) V (no_index (main_v124 : DevRef τ sig)) = V (main_v124 : DevRef τ sig) := C_fr V (by decide)

/-- The buffers the stretch writes. -/
def wT : List (Ref sig .tc) :=
  [main_v126, main_v127, main_cst_30, main_v128, main_v129, main_v130, main_v131, main_v132, main_v133, main_v134, main_v135, main_v136, main_v137, main_v138]

theorem T_writes : (opsT (F := F)).Forall fun op => op.writes ⊆ ((wT).map (Proc.devRef (τ := τ) .tc)).toFinset := by
  unfold opsT
  exact ⟨writes_sub (y := main_v126) (by decide),
    writes_sub (y := main_v127) (by decide),
    writes_sub (y := main_cst_30) (by decide),
    writes_sub (y := main_v128) (by decide),
    writes_sub (y := main_v129) (by decide),
    writes_sub (y := main_v130) (by decide),
    writes_sub (y := main_v131) (by decide),
    writes_sub (y := main_v132) (by decide),
    writes_sub (y := main_v133) (by decide),
    writes_sub (y := main_v134) (by decide),
    writes_sub (y := main_v135) (by decide),
    writes_sub (y := main_v136) (by decide),
    writes_sub (y := main_v137) (by decide),
    writes_sub (y := main_v138) (by decide)⟩

/-- A buffer the stretch does not write keeps its contents. -/
theorem T_fr (V : Valuation τ sig (Elt F)) {r : Ref sig .tc} (hr : r ∉ wT) :
    after (opsT (F := F)) V (Proc.devRef .tc r) = V (Proc.devRef .tc r) :=
  after_of_writes_sub opsT V T_writes hr

theorem T_arg0 (V : Valuation τ sig (Elt F)) : after (opsT (F := F)) V (no_index (main_arg0 : DevRef τ sig)) = V (main_arg0 : DevRef τ sig) := T_fr V (by decide)
theorem T_arg1 (V : Valuation τ sig (Elt F)) : after (opsT (F := F)) V (no_index (main_arg1 : DevRef τ sig)) = V (main_arg1 : DevRef τ sig) := T_fr V (by decide)
theorem T_arg2 (V : Valuation τ sig (Elt F)) : after (opsT (F := F)) V (no_index (main_arg2 : DevRef τ sig)) = V (main_arg2 : DevRef τ sig) := T_fr V (by decide)
theorem T_arg3 (V : Valuation τ sig (Elt F)) : after (opsT (F := F)) V (no_index (main_arg3 : DevRef τ sig)) = V (main_arg3 : DevRef τ sig) := T_fr V (by decide)
theorem T_arg4 (V : Valuation τ sig (Elt F)) : after (opsT (F := F)) V (no_index (main_arg4 : DevRef τ sig)) = V (main_arg4 : DevRef τ sig) := T_fr V (by decide)
theorem T_arg5 (V : Valuation τ sig (Elt F)) : after (opsT (F := F)) V (no_index (main_arg5 : DevRef τ sig)) = V (main_arg5 : DevRef τ sig) := T_fr V (by decide)
theorem T_arg6 (V : Valuation τ sig (Elt F)) : after (opsT (F := F)) V (no_index (main_arg6 : DevRef τ sig)) = V (main_arg6 : DevRef τ sig) := T_fr V (by decide)

end Cert.ReferenceIdeal.RefRun

end
-- ==== Proof.RefRun.lean ====
/-
  The reference's run: from any memory with zero counters every weakly fair execution of @main terminates with the
  result buffer at the reference function of the seven launch arrays and the seven argument arrays unchanged. The
  operations' fold is read stretch by stretch: the fold over a concatenation is the fold over its parts in turn, each
  stretch is one stage of the reference function applied to the few buffers it reads, and it leaves the others alone.
-/
import proofs.«168759_j50216757625453_2_alg».proof.Proof.Gen.ReferenceIdeal
import proofs.«168759_j50216757625453_2_alg».proof.Proof.Spec
import Idealize.ShloMosaic.Lib.StableHlo.Run
import proofs.«168759_j50216757625453_2_alg».proof.Proof.LibFoldStretch
import proofs.«168759_j50216757625453_2_alg».proof.Proof.RefRunOps
import proofs.«168759_j50216757625453_2_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The reference function is the normalisation of the logits of the features after four steps. -/
theorem out_def (feat : FVec Ideal S100000x128 .f32) (row col : IVec S1600000 32) (W : FVec Ideal S40x128 .f32)
    (b gamma beta : FVec Ideal S40 .f32) :
    Cert.Spec.Ref.out feat row col W b gamma beta
      = Cert.Spec.Ref.norm (Cert.Spec.Ref.logits
          (Cert.Spec.Ref.step row col (Cert.Spec.Ref.step row col (Cert.Spec.Ref.step row col (Cert.Spec.Ref.step row col feat)))) W b)
          gamma beta := rfl

/-- The result buffer after the whole line: the stretches' stages composed are the reference function. -/
theorem out_eq (V : Valuation τ sig (Elt Ideal)) :
    after (opsA ++ (opsS1 ++ (opsS2 ++ (opsS3 ++ (opsS4 ++ (opsL ++ (opsM ++ (opsC ++ opsT))))))) : List (HloOp τ sig (Elt Ideal))) V (main_v138 : DevRef τ sig)
      = Cert.Spec.Ref.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  simp only [Cert.LibFoldStretch.after_append, T_v138, C_v125, M_v124, L_v120, S4_v115, S3_v93, S2_v71, S1_v49, A_v26, A_v27,
    A_arg0, A_arg1, A_arg2, A_arg3, A_arg4, A_arg5, A_arg6, S1_arg0, S1_arg1, S1_arg2,
    S1_arg3, S1_arg4, S1_arg5, S1_arg6, S1_v26, S1_v27, S2_arg0, S2_arg1, S2_arg2, S2_arg3,
    S2_arg4, S2_arg5, S2_arg6, S2_v26, S2_v27, S3_arg0, S3_arg1, S3_arg2, S3_arg3, S3_arg4,
    S3_arg5, S3_arg6, S3_v26, S3_v27, S4_arg0, S4_arg1, S4_arg2, S4_arg3, S4_arg4, S4_arg5,
    S4_arg6, L_arg0, L_arg1, L_arg2, L_arg3, L_arg4, L_arg5, L_arg6, M_arg0, M_arg1,
    M_arg2, M_arg3, M_arg4, M_arg5, M_arg6, M_v120, C_arg0, C_arg1, C_arg2, C_arg3,
    C_arg4, C_arg5, C_arg6, C_v120, C_v124, T_arg0, T_arg1, T_arg2, T_arg3, T_arg4,
    T_arg5, T_arg6,
    out_def, norm_eq, step_eq]

/-- The whole line leaves argument 0 alone. -/
theorem arg0_eq (V : Valuation τ sig (Elt Ideal)) :
    after (opsA ++ (opsS1 ++ (opsS2 ++ (opsS3 ++ (opsS4 ++ (opsL ++ (opsM ++ (opsC ++ opsT))))))) : List (HloOp τ sig (Elt Ideal))) V (main_arg0 : DevRef τ sig) = V (main_arg0 : DevRef τ sig) := by
  simp only [Cert.LibFoldStretch.after_append, A_arg0, S1_arg0, S2_arg0, S3_arg0, S4_arg0, L_arg0, M_arg0, C_arg0, T_arg0]

/-- The whole line leaves argument 1 alone. -/
theorem arg1_eq (V : Valuation τ sig (Elt Ideal)) :
    after (opsA ++ (opsS1 ++ (opsS2 ++ (opsS3 ++ (opsS4 ++ (opsL ++ (opsM ++ (opsC ++ opsT))))))) : List (HloOp τ sig (Elt Ideal))) V (main_arg1 : DevRef τ sig) = V (main_arg1 : DevRef τ sig) := by
  simp only [Cert.LibFoldStretch.after_append, A_arg1, S1_arg1, S2_arg1, S3_arg1, S4_arg1, L_arg1, M_arg1, C_arg1, T_arg1]

/-- The whole line leaves argument 2 alone. -/
theorem arg2_eq (V : Valuation τ sig (Elt Ideal)) :
    after (opsA ++ (opsS1 ++ (opsS2 ++ (opsS3 ++ (opsS4 ++ (opsL ++ (opsM ++ (opsC ++ opsT))))))) : List (HloOp τ sig (Elt Ideal))) V (main_arg2 : DevRef τ sig) = V (main_arg2 : DevRef τ sig) := by
  simp only [Cert.LibFoldStretch.after_append, A_arg2, S1_arg2, S2_arg2, S3_arg2, S4_arg2, L_arg2, M_arg2, C_arg2, T_arg2]

/-- The whole line leaves argument 3 alone. -/
theorem arg3_eq (V : Valuation τ sig (Elt Ideal)) :
    after (opsA ++ (opsS1 ++ (opsS2 ++ (opsS3 ++ (opsS4 ++ (opsL ++ (opsM ++ (opsC ++ opsT))))))) : List (HloOp τ sig (Elt Ideal))) V (main_arg3 : DevRef τ sig) = V (main_arg3 : DevRef τ sig) := by
  simp only [Cert.LibFoldStretch.after_append, A_arg3, S1_arg3, S2_arg3, S3_arg3, S4_arg3, L_arg3, M_arg3, C_arg3, T_arg3]

/-- The whole line leaves argument 4 alone. -/
theorem arg4_eq (V : Valuation τ sig (Elt Ideal)) :
    after (opsA ++ (opsS1 ++ (opsS2 ++ (opsS3 ++ (opsS4 ++ (opsL ++ (opsM ++ (opsC ++ opsT))))))) : List (HloOp τ sig (Elt Ideal))) V (main_arg4 : DevRef τ sig) = V (main_arg4 : DevRef τ sig) := by
  simp only [Cert.LibFoldStretch.after_append, A_arg4, S1_arg4, S2_arg4, S3_arg4, S4_arg4, L_arg4, M_arg4, C_arg4, T_arg4]

/-- The whole line leaves argument 5 alone. -/
theorem arg5_eq (V : Valuation τ sig (Elt Ideal)) :
    after (opsA ++ (opsS1 ++ (opsS2 ++ (opsS3 ++ (opsS4 ++ (opsL ++ (opsM ++ (opsC ++ opsT))))))) : List (HloOp τ sig (Elt Ideal))) V (main_arg5 : DevRef τ sig) = V (main_arg5 : DevRef τ sig) := by
  simp only [Cert.LibFoldStretch.after_append, A_arg5, S1_arg5, S2_arg5, S3_arg5, S4_arg5, L_arg5, M_arg5, C_arg5, T_arg5]

/-- The whole line leaves argument 6 alone. -/
theorem arg6_eq (V : Valuation τ sig (Elt Ideal)) :
    after (opsA ++ (opsS1 ++ (opsS2 ++ (opsS3 ++ (opsS4 ++ (opsL ++ (opsM ++ (opsC ++ opsT))))))) : List (HloOp τ sig (Elt Ideal))) V (main_arg6 : DevRef τ sig) = V (main_arg6 : DevRef τ sig) := by
  simp only [Cert.LibFoldStretch.after_append, A_arg6, S1_arg6, S2_arg6, S3_arg6, S4_arg6, L_arg6, M_arg6, C_arg6, T_arg6]

/-- From any memory with zero counters: every weakly fair execution of the reference's @main terminates, the result
    buffer ends at the reference function of the seven launch arrays, and the seven argument arrays end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v138)
          = Cert.Spec.Ref.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v138).trans (by rw [ops_split]; exact out_eq _),
      (h c main_arg0).trans (by rw [ops_split]; exact arg0_eq _),
      (h c main_arg1).trans (by rw [ops_split]; exact arg1_eq _),
      (h c main_arg2).trans (by rw [ops_split]; exact arg2_eq _),
      (h c main_arg3).trans (by rw [ops_split]; exact arg3_eq _),
      (h c main_arg4).trans (by rw [ops_split]; exact arg4_eq _),
      (h c main_arg5).trans (by rw [ops_split]; exact arg5_eq _),
      (h c main_arg6).trans (by rw [ops_split]; exact arg6_eq _)⟩)
    (run_main (F := Ideal) m ρ)

end Cert.ReferenceIdeal.RefRun

end
-- ==== Proof.BridgeDinv.lean ====
/-
  The per-node scale dinv = deg^(-1/2): the reference's and the kernel's are one array, and the kernel's column of it
  reads that array.
-/
import proofs.«168759_j50216757625453_2_alg».proof.Proof.Spec
import proofs.«168759_j50216757625453_2_alg».proof.Proof.LibRowReduce

noncomputable section

open scoped BigOperators

namespace Cert.Spec

open Idealize.ShloMosaic Idealize.ShloMosaic.ValueIdx

/-- The reference's scale and the kernel's are the same array: the two programs' dimension records have the same
    fields. -/
theorem dinv_eq [Cert.KernelIdeal.Facts] [Cert.ReferenceIdeal.Facts] (row : IVec Cert.ReferenceIdeal.S1600000 32) :
    Ref.dinv row = K.dinv row := rfl

namespace K

open Cert.KernelIdeal Cert.KernelIdeal.Facts₀

variable [Cert.KernelIdeal.Facts]

/-- The kernel's column of the scale, at `(v, 0)`, is the scale at `v`. -/
theorem dcol_apply (row : IVec S1600000 32) (v : Fin 100000) (u : Fin 1) : dcol row (ix2 v u) = dinv row (ix1 v) :=
  Cert.LibRowReduce.shapeCast_a_a1_apply (dinv row) shapeCasts_S100000_S100000x1 v u

end K

end Cert.Spec

end
-- ==== Proof.LibSegment.lean ====
/-
  General lemmas for a graph layer with a per-node scale, at the ideal instance (floats are extended reals, every
  operation exact).  A row gather and a vector gather read at an index (the start index read signed and clamped); the
  row scatter's landing rule (the start index read signed, not clamped, dropped outside); a nonnegative real factor
  moves inside a finite sum of extended reals; and with these, the layer theorem: scaling the gathered rows before
  the scatter-add and the sums after it by the per-node scale is the same as scaling every edge's row by the product
  of the scales of its two ends.  Last, the scale itself: an inverse square root selected where the degree is
  positive, zero elsewhere, is a nonnegative real.
-/
import Idealize.ShloMosaic.Lib.ValueIdx
import Idealize.ShloMosaic.Lib.Pipeline.Value
import Idealize.ShloMosaic.PureOps.Ideal
import Idealize.ShloMosaic.PureOps.Ideal.Laws
import Mathlib.Data.EReal.Operations

noncomputable section

open scoped BigOperators

namespace Cert.LibSegment

open Idealize.ShloMosaic Idealize.ShloMosaic.ValueIdx

/-! ## The three dimension-number records -/

/-- Row gather: operand `[N, C]`, start indices `[E, 1]`, result `[E, C]`; result row `e` is the operand's row at the
    start index `idx[e, 0]`.  The conditions `wf` are decided on a program's literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Vector gather: operand `[N]`, start indices `[E, 1]`, result `[E]`; result element `e` is the operand's element at
    the start index `idx[e, 0]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, C]`, scatter indices `[E, 1]`, updates `[E, C]`; update row `e` goes to the operand's row
    `idx[e, 0]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

section Gather
variable {α : Type}

/-- THE ROW GATHER READ AT `(e, c)`: the operand at row `idx[e, 0]` (read signed, clamped into `[0, N − 1]`) and
    column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 ⟨min (idx (ix2 e 0)).toInt.toNat (N - 1), by omega⟩ c) := by
  unfold Host.gather
  congr 1
  funext a
  refine Fin.ext ?_
  show (rowGather N E C wf).start (ix2 e c) idx a + (rowGather N E C wf).batchCoord (ix2 e c) a
      + (rowGather N E C wf).offCoord (ix2 e c) a = _
  rw [GatherDims.batchCoord_eq_zero _ _ _ List.not_mem_nil]
  match a with
  | ⟨0, _⟩ =>
    -- the row axis: collapsed, so no offset; the start index, clamped
    rw [GatherDims.offCoord_eq_zero _ _ _
      (fun h => ((GatherDims.mem_sKept _ _).mp h).1 (List.mem_singleton.mpr rfl))]
    simp only [Nat.add_zero]
    unfold GatherDims.start
    rw [dif_pos (show (⟨0, Nat.zero_lt_two⟩ : Fin 2) ∈ (rowGather N E C wf).startIndexMap from
      List.mem_singleton.mpr rfl)]
    have hsi : (rowGather N E C wf).siIdx (ix2 e c)
        ⟨List.idxOf (⟨0, Nat.zero_lt_two⟩ : Fin 2) (rowGather N E C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not in the start index map, so start 0; the offset is the result's column
    unfold GatherDims.start
    rw [dif_neg (by simp)]
    unfold GatherDims.offCoord
    have hk : (⟨1, Nat.one_lt_two⟩ : Fin 2) ∈ (rowGather N E C wf).sKept := by
      rw [GatherDims.mem_sKept]; simp
    rw [dif_pos hk, Nat.add_zero, Nat.zero_add]
    rfl

/-- THE VECTOR GATHER READ AT `e`: the operand at `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0
      + (vecGather N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Where an update row lands -/

section Scatter

/-- The row scatter's start on the row axis for update index `(e, c)`: the scatter index `idx[e, 0]`, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨0, Nat.zero_lt_two⟩ = (idx (ix2 e 0)).toInt := by
  unfold ScatterDims.start
  rw [dif_pos (show (⟨0, Nat.zero_lt_two⟩ : Fin 2) ∈ (rowScatter N E C wf).scatterDimsToOperandDims from
    List.mem_singleton.mpr rfl)]
  have hsi : (rowScatter N E C wf).siIdx (ix2 e c)
      ⟨List.idxOf (⟨0, Nat.zero_lt_two⟩ : Fin 2) (rowScatter N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … its window coordinate on the row axis is `0` (the axis is an inserted one) … -/
theorem rowScatter_window0 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨0, Nat.zero_lt_two⟩ = 0 := by
  unfold ScatterDims.window
  rw [dif_neg (by simp [ScatterDims.sKept, Shape.kept])]

/-- … its start on the column axis is `0` (the scatter index does not name that axis) … -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx ⟨1, Nat.one_lt_two⟩ = 0 := by
  unfold ScatterDims.start
  rw [dif_neg (by simp)]

/-- … and its window coordinate on the column axis is the update's column. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatter N E C wf).window (ix2 e c) ⟨1, Nat.one_lt_two⟩ = c.val := by
  unfold ScatterDims.window
  have hk : (⟨1, Nat.one_lt_two⟩ : Fin 2) ∈ (rowScatter N E C wf).sKept := by
    simp [ScatterDims.sKept, Shape.kept]
  rw [dif_pos hk]
  rfl

/-- WHERE AN UPDATE LANDS: update element `(e, c)` of the row scatter lands on operand element `(v, c')` exactly when
    the scatter index `idx[e, 0]`, read signed and not clamped, is `v` and the columns agree. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c c' : Fin C) (v : Fin N) :
    (rowScatter N E C wf).resultIdx? (ix2 e c) idx = some (ix2 v c')
      ↔ (idx (ix2 e 0)).toInt = (v.val : Int) ∧ c = c' := by
  have hs0 := rowScatter_start0 wf idx e c
  have hw0 := rowScatter_window0 wf e c
  have hs1 := rowScatter_start1 wf idx e c
  have hw1 := rowScatter_window1 wf e c
  unfold ScatterDims.resultIdx?
  constructor
  · intro h
    split at h
    · rename_i hin
      have hf := Option.some.inj h
      have h0 := congrArg (fun f => (f ⟨0, Nat.zero_lt_two⟩).val) hf
      have h1 := congrArg (fun f => (f ⟨1, Nat.one_lt_two⟩).val) hf
      have hin0 := (hin ⟨0, Nat.zero_lt_two⟩).1
      simp only [hs0, hw0, hs1, hw1] at h0 h1 hin0
      change ((idx (ix2 e 0)).toInt + ((0 : Nat) : Int)).toNat = v.val at h0
      change (0 + (c.val : Int)).toNat = c'.val at h1
      refine ⟨by omega, Fin.ext (by omega)⟩
    · exact absurd h (by simp)
  · rintro ⟨hv, rfl⟩
    have hin : ∀ a : Fin 2, 0 ≤ (rowScatter N E C wf).start (ix2 e c) idx a + (rowScatter N E C wf).window (ix2 e c) a ∧
        (rowScatter N E C wf).start (ix2 e c) idx a + (rowScatter N E C wf).window (ix2 e c) a
          < ((⟨2, ![N, C]⟩ : Shape).size a : Nat) := by
      intro a
      match a with
      | ⟨0, _⟩ =>
        rw [hs0, hw0, hv]
        have := v.isLt
        change 0 ≤ (v.val : Int) + ((0 : Nat) : Int) ∧ (v.val : Int) + ((0 : Nat) : Int) < (N : Int)
        omega
      | ⟨1, _⟩ =>
        rw [hs1, hw1]
        have := c.isLt
        change 0 ≤ (0 : Int) + (c.val : Int) ∧ (0 : Int) + (c.val : Int) < (C : Int)
        omega
    rw [dif_pos hin]
    congr 1
    funext a
    refine Fin.ext ?_
    match a with
    | ⟨0, _⟩ =>
      change ((rowScatter N E C wf).start (ix2 e c) idx ⟨0, Nat.zero_lt_two⟩
        + ((rowScatter N E C wf).window (ix2 e c) ⟨0, Nat.zero_lt_two⟩ : Nat)).toNat = v.val
      rw [hs0, hw0, hv]; omega
    | ⟨1, _⟩ =>
      change ((rowScatter N E C wf).start (ix2 e c) idx ⟨1, Nat.one_lt_two⟩
        + ((rowScatter N E C wf).window (ix2 e c) ⟨1, Nat.one_lt_two⟩ : Nat)).toNat = c.val
      rw [hs1, hw1]; omega

end Scatter

/-! ## A nonnegative real factor and a finite sum of extended reals -/

section Sum

/-- A NONNEGATIVE REAL FACTOR MOVES INSIDE A FINITE SUM of extended reals: `r · Σ f = Σ r · f` for `0 ≤ r` real. No
    term need be finite: multiplication by a nonnegative finite factor distributes over every sum of two extended
    reals. -/
theorem mul_sum_of_nonneg {ι : Type*} (r : ℝ) (hr : 0 ≤ r) (s : Finset ι) (f : ι → EReal) :
    (r : EReal) * ∑ j ∈ s, f j = ∑ j ∈ s, (r : EReal) * f j := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Sum

/-! ## Two broadcasts read at an index -/

section Broadcast
variable {α : Type}

/-- A vector `[n]` broadcast to a column `[n, 1]`, read at `(a, 0)`: the vector's element `a`. -/
theorem colBroadcast_apply {n : Nat}
    (h : (⟨1, ![n]⟩ : Shape).BroadcastsInDim ⟨2, ![n, 1]⟩ (![0] : Fin 1 → Fin 2))
    (x : (⟨1, ![n]⟩ : Shape).Idx → α) (a : Fin n) (z : Fin 1) :
    broadcastInDim ⟨2, ![n, 1]⟩ ![0] h x (ix2 a z) = x (ix1 a) := by
  refine broadcastInDim_apply _ h x _ _ ?_
  intro b
  obtain rfl : b = 0 := Subsingleton.elim _ _
  show a.val = if n = 1 then 0 else a.val
  have := a.isLt
  split <;> omega

/-- A column `[n, 1]` broadcast along rows to `[n, m]`, read at `(a, b)`: the column's element `(a, 0)`. -/
theorem rowBroadcast_apply {n m : Nat}
    (h : (⟨2, ![n, 1]⟩ : Shape).BroadcastsInDim ⟨2, ![n, m]⟩ (![0, 1] : Fin 2 → Fin 2))
    (x : (⟨2, ![n, 1]⟩ : Shape).Idx → α) (a : Fin n) (b : Fin m) :
    broadcastInDim ⟨2, ![n, m]⟩ ![0, 1] h x (ix2 a b) = x (ix2 a 0) := by
  refine broadcastInDim_apply _ h x _ _ ?_
  intro d
  match d with
  | ⟨0, _⟩ =>
    show a.val = if n = 1 then 0 else a.val
    have := a.isLt
    split <;> omega
  | ⟨1, _⟩ => rfl

/-- The two together: a vector `[n]` broadcast to `[n, m]` through a column, read at `(a, b)`, is its element `a`. -/
theorem vecBroadcast_apply {n m : Nat}
    (h1 : (⟨1, ![n]⟩ : Shape).BroadcastsInDim ⟨2, ![n, 1]⟩ (![0] : Fin 1 → Fin 2))
    (h2 : (⟨2, ![n, 1]⟩ : Shape).BroadcastsInDim ⟨2, ![n, m]⟩ (![0, 1] : Fin 2 → Fin 2))
    (x : (⟨1, ![n]⟩ : Shape).Idx → α) (a : Fin n) (b : Fin m) :
    broadcastInDim ⟨2, ![n, m]⟩ ![0, 1] h2 (broadcastInDim ⟨2, ![n, 1]⟩ ![0] h1 x) (ix2 a b) = x (ix1 a) := by
  rw [rowBroadcast_apply, colBroadcast_apply]

end Broadcast

/-! ## Normalizing an index -/

section Normalize

/-- NORMALIZING AN INDEX, `x < 0 ? x + n : x` with the comparison signed, leaves a nonnegative one alone. -/
theorem normalize_of_nonneg {s : Shape} (x zeros n : IVec s 32) (hz : ∀ i, zeros i = 0#32) (i : s.Idx)
    (h : 0 ≤ (x i).toInt) : select (cmpi .slt x zeros) (addi x n) x i = x i := by
  show Scalar.select (IntOp.cmpi .slt (x i) (zeros i)) (addi x n i) (x i) = x i
  have hc : IntOp.cmpi .slt (x i) (zeros i) = 0#1 := by
    have hlt : (x i).slt 0#32 = false := by
      rw [BitVec.slt, decide_eq_false_iff_not, BitVec.toInt_zero]; exact not_lt.mpr h
    rw [hz]; unfold IntOp.cmpi; simp only [hlt]; rfl
  rw [hc, select_zero]

/-- The same with the zero and the addend the broadcast integer scalars `0` and `k`, as a program writes
    `v < 0 ? v + k : v` over an index vector: a nonnegative index is left alone, whatever `k` is. -/
theorem normalize_const_of_nonneg {E : Nat} (v : IVec ⟨1, ![E]⟩ 32) (k : BitVec 32)
    (h0 : (⟨0, ![]⟩ : Shape).BroadcastsInDim ⟨1, ![E]⟩ (![] : Fin 0 → Fin 1))
    (e : (⟨1, ![E]⟩ : Shape).Idx) (h : 0 ≤ (v e).toInt) :
    select (cmpi .slt v (broadcastInDim ⟨1, ![E]⟩ ![] h0 (constantI ⟨0, ![]⟩ 32 0#32)))
      (addi v (broadcastInDim ⟨1, ![E]⟩ ![] h0 (constantI ⟨0, ![]⟩ 32 k))) v e = v e :=
  normalize_of_nonneg v _ _ (fun _ => rfl) e h

end Normalize

/-! ## The layer: a per-node scale before and after the scatter-add, or per edge -/

section Layer

/-- THE LAYER THEOREM.  `H : [N, C]` node features, `D : [N]` a per-node scale that is everywhere a nonnegative real,
    `src'`, `dst`, `dst'` : `[E]` edge ends, `dst'` agreeing with `dst` wherever `dst` is nonnegative.  Scaling the rows
    of `H` by `D`, gathering the source rows, scatter-adding them at `dst` onto `Z` and scaling the result's rows by
    `D` again, is scatter-adding, onto the scaled `Z`, the gathered rows of `H` each scaled by the product of `D` at the
    edge's two ends (both read through the clamping gather, the second at `dst'`).  For an update that lands on row
    `v` the scatter index is `v` itself, `0 ≤ v < N`, so `dst'` is `dst` there and the clamp leaves it alone: the second
    factor is `D v`, the common nonnegative real factor, which moves inside the sum. -/
theorem layer_eq {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2)) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (Host.gather (rowGather N E C wfg)
            (mulf (F := Ideal) (φ := .f32) H
              (broadcastInDim ⟨2, ![N, C]⟩ ![0, 1] h2 (broadcastInDim ⟨2, ![N, 1]⟩ ![0] h1 D)))
            (broadcastInDim ⟨2, ![E, 1]⟩ ![0] hi src')))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  funext i
  obtain ⟨v, c, rfl⟩ : ∃ (v : Fin N) (c : Fin C), i = ix2 v c := ⟨i 0, i 1, eq_ix2 i⟩
  obtain ⟨r, hr, hDv⟩ := hD (ix1 v)
  simp only [mulf_apply, Host.scatterAdd, Ideal.hostScatterAdd_def, Ideal.hostScatterAdd]
  rw [vecBroadcast_apply h1 h2 D v c, hDv, EReal.left_distrib_of_nonneg_of_ne_top (EReal.coe_nonneg.mpr hr) (EReal.coe_ne_top r),
    mul_sum_of_nonneg r hr]
  congr 1
  refine Finset.sum_congr rfl ?_
  intro j hj
  obtain ⟨e, c', rfl⟩ : ∃ (e : Fin E) (c' : Fin C), j = ix2 e c' := ⟨j 0, j 1, eq_ix2 j⟩
  obtain ⟨hl, rfl⟩ := (rowScatter_lands wfs _ e c' c v).mp (Finset.mem_filter.mp hj).2
  -- the update lands on row `v`: the scatter index is `v`, so `dst'` is `dst` here and the clamp leaves it alone
  rw [colBroadcast_apply hi dst e 0] at hl
  have hd' : dst' (ix1 e) = dst (ix1 e) := hdst _ (by rw [hl]; exact Int.natCast_nonneg _)
  have hb : broadcastInDim ⟨2, ![E, 1]⟩ ![0] hi dst' (ix2 e 0) = dst (ix1 e) :=
    (colBroadcast_apply hi dst' e 0).trans hd'
  have hg' : ∀ h, (⟨min (broadcastInDim ⟨2, ![E, 1]⟩ ![0] hi dst' (ix2 e 0)).toInt.toNat (N - 1), h⟩ : Fin N) = v :=
    fun h => Fin.ext (by
      show min (broadcastInDim ⟨2, ![E, 1]⟩ ![0] hi dst' (ix2 e 0)).toInt.toNat (N - 1) = v.val
      rw [hb, hl]; have := v.isLt; omega)
  rw [rowGather_apply hN wfg _ _ e c', rowGather_apply hN wfg H _ e c', vecBroadcast_apply hi' he2 _ e c',
    mulf_apply, mulf_apply, vecGather_apply hN wfv D _ e, vecGather_apply hN wfv D _ e,
    vecBroadcast_apply h1 h2 D _ c', hg', hDv]
  -- `r · (h · d) = h · (d · r)`
  rw [mul_left_comm, mul_comm (r : EReal)]

/-- The layer theorem with the scaled features narrowed to `bf16` before the gather and the gathered rows widened
    back to `f32` after it: on extended reals both format changes are the identity, so this is `layer_eq`. -/
theorem layer_eq_conv {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs)
          (mulf (F := Ideal) (φ := .f32)
            (broadcastInDim ⟨2, ![N, C]⟩ ![0, 1] h2 (broadcastInDim ⟨2, ![N, 1]⟩ ![0] h1 D)) Z)
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) :=
  layer_eq hN wfg wfv wfs H Z D hD src' dst dst' hdst h1 h2 hi hi' he2

/-- A product with an array of zeros is that array: `x · 0 = 0` for every extended real `x`, the infinities included. -/
theorem mulf_zeros {s : Shape} {φ : FTy} (A Z : s.Idx → EReal) (hZ : ∀ i, Z i = 0) :
    mulf (F := Ideal) (φ := φ) A Z = Z := by
  funext i
  rw [mulf_apply, hZ i, mul_zero]

/-- The layer theorem (with the format changes around the gather) over an operand of zeros: the same operand on both
    sides. -/
theorem layer_eq_conv_zero {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (hZ : ∀ i, Z i = 0) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi hi' : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2))
    (hlt : FTy.bf16.bits < FTy.f32.bits) (hlt' : FTy.bf16.bits < FTy.f32.bits) :
    mulf (F := Ideal) (φ := .f32)
        (broadcastInDim ⟨2, ![N, C]⟩ ![0, 1] h2 (broadcastInDim ⟨2, ![N, 1]⟩ ![0] h1 D))
        (Host.scatterAdd (F := Ideal) (φ := .f32) (rowScatter N E C wfs) Z
          (broadcastInDim ⟨2, ![E, 1]⟩ ![0] hi dst)
          (extf (F := Ideal) .f32
            (Host.gather (rowGather N E C wfg)
              (truncf (F := Ideal) .bf16
                (mulf (F := Ideal) (φ := .f32) H
                  (broadcastInDim ⟨2, ![N, C]⟩ ![0, 1] h2 (broadcastInDim ⟨2, ![N, 1]⟩ ![0] h1 D))) hlt)
              (broadcastInDim ⟨2, ![E, 1]⟩ ![0] hi src')) hlt'))
      = Host.scatterAdd (F := Ideal) (φ := .f32) (rowScatter N E C wfs) Z
          (broadcastInDim ⟨2, ![E, 1]⟩ ![0] hi dst)
          (mulf (F := Ideal) (φ := .f32)
            (Host.gather (rowGather N E C wfg) H (broadcastInDim ⟨2, ![E, 1]⟩ ![0] hi src'))
            (broadcastInDim ⟨2, ![E, C]⟩ ![0, 1] he2 (broadcastInDim ⟨2, ![E, 1]⟩ ![0] hi'
              (mulf (F := Ideal) (φ := .f32)
                (Host.gather (vecGather N E wfv) D (broadcastInDim ⟨2, ![E, 1]⟩ ![0] hi src'))
                (Host.gather (vecGather N E wfv) D (broadcastInDim ⟨2, ![E, 1]⟩ ![0] hi dst')))))) := by
  rw [layer_eq_conv hN wfg wfv wfs H Z D hD src' dst dst' hdst h1 h2 hi hi' he2 hlt hlt', mulf_zeros _ Z hZ]

end Layer

/-! ## The scale: an inverse square root where the degree is positive, zero elsewhere -/

section Scale

/-- The inverse square root of a positive extended real is a nonnegative real (`0` at `⊤`, `(√x)⁻¹` at a real `x`). -/
theorem rsqrt_nonneg_of_pos (d : EReal) (hd : 0 < d) : ∃ r : ℝ, 0 ≤ r ∧ Ideal.rsqrt d = (r : EReal) := by
  induction d using EReal.rec with
  | bot => exact absurd hd (not_lt_bot)
  | top => exact ⟨0, le_refl 0, by rw [Ideal.rsqrt_top]; rfl⟩
  | coe x =>
    have hx : 0 < x := EReal.coe_pos.mp hd
    refine ⟨(Real.sqrt x)⁻¹, inv_nonneg.mpr (Real.sqrt_nonneg x), ?_⟩
    rw [Ideal.rsqrt_coe, if_neg (not_lt.mpr hx.le), if_neg (ne_of_gt hx)]

/-- ONE ELEMENT OF THE SCALE: the inverse square root of `d` selected where `d > 0`, a zero elsewhere, is a nonnegative
    real — for every extended real `d`, the infinities and the negative reals included. -/
theorem dinv_nonneg (d z0 z : EReal) (hz0 : z0 = 0) (hz : z = 0) :
    ∃ r : ℝ, 0 ≤ r ∧ Scalar.select (Scalar.cmpf (F := Ideal) (φ := .f32) .ogt d z0) (Ideal.rsqrt d) z = (r : EReal) := by
  subst hz0 hz
  by_cases hd : (0 : EReal) < d
  · obtain ⟨r, hr, he⟩ := rsqrt_nonneg_of_pos d hd
    refine ⟨r, hr, ?_⟩
    have hc : Scalar.cmpf (F := Ideal) (φ := .f32) .ogt d 0 = 1#1 := by
      rw [Ideal.scalar_cmpf_def]; unfold Ideal.cmp; simp [hd]
    rw [hc, select_one, he]
  · refine ⟨0, le_refl 0, ?_⟩
    have hc : Scalar.cmpf (F := Ideal) (φ := .f32) .ogt d 0 = 0#1 := by
      rw [Ideal.scalar_cmpf_def]; unfold Ideal.cmp; simp [hd]
    rw [hc, select_zero]; rfl

/-- THE SCALE IS A NONNEGATIVE REAL EVERYWHERE: `select (deg > 0) (rsqrt deg) 0` over any shape. -/
theorem dinv_nonneg_vec {s : Shape} (deg zeros zeros' : s.Idx → EReal)
    (hz : ∀ i, zeros i = 0) (hz' : ∀ i, zeros' i = 0) (i : s.Idx) :
    ∃ r : ℝ, 0 ≤ r ∧ select (cmpf (F := Ideal) (φ := .f32) .ogt deg zeros)
      (Host.rsqrt (F := Ideal) (φ := .f32) deg) zeros' i = (r : EReal) :=
  dinv_nonneg (deg i) (zeros i) (zeros' i) (hz i) (hz' i)

/-- The `f32` zero scalar broadcast to any shape reads `0` everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  Ideal.ofBits_zero_f32

/-- The scale with its two zero arrays the broadcast `f32` zero scalar, as a program writes
    `where(deg > 0, rsqrt(deg), 0)`. -/
theorem dinv_nonneg_zeros {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (constant (F := Ideal) ⟨0, ![]⟩ .f32 0x00000000#32)) i = (r : EReal) :=
  dinv_nonneg_vec deg _ _ (zeros_apply h) (zeros_apply h') i

/-- The same with the second zero scalar passed through an identity conversion before its broadcast. -/
theorem dinv_nonneg_where {s : Shape} (deg : s.Idx → EReal)
    (h h' : (⟨0, ![]⟩ : Shape).BroadcastsInDim s (![] : Fin 0 → Fin s.rank)) (i : s.Idx) :
    ∃ r : ℝ, 0 ≤ r ∧ select
      (cmpf (F := Ideal) (φ := .f32) .ogt deg (broadcastInDim s ![] h (constant (F := Ideal) ⟨0, ![]⟩ .f32 0x00000000#32)))
      (Host.rsqrt (F := Ideal) (φ := .f32) deg)
      (broadcastInDim s ![] h' (id (constant (F := Ideal) ⟨0, ![]⟩ .f32 0x00000000#32))) i = (r : EReal) :=
  dinv_nonneg_zeros deg h h' i

end Scale

end Cert.LibSegment

end
-- ==== Proof.BridgeStep.lean ====
/-
  One fused pass of the kernel is one propagation step of the reference, and so four passes are four steps.

  The kernel scales the features by the per-node scale d before it gathers the source rows, adds the gathered rows at
  the edges' targets, and scales the sums by d again inside the pass; the reference scales every edge's gathered row
  by d(target) · d(source) and adds those.  For an update that lands on node v the target is v itself, so the factor
  d(target) is the common factor d(v); it is a nonnegative real, and a nonnegative real factor moves inside a finite
  sum of extended reals with no term required finite.  That is the layer theorem; here it is put between the two
  programs' own spellings of the gathers and the scatter-add, and the rest of a pass is read pointwise.
-/
import proofs.«168759_j50216757625453_2_alg».proof.Proof.Spec
import proofs.«168759_j50216757625453_2_alg».proof.Proof.LibSegment
import proofs.«168759_j50216757625453_2_alg».proof.Proof.BridgeDinv

noncomputable section

open scoped BigOperators

namespace Cert.Spec

open Idealize.ShloMosaic Idealize.ShloMosaic.ValueIdx

/-! ## The layer theorem once more, free of any program -/

/-- A product of two arrays commutes. -/
theorem mulf_comm' {s : Shape} {φ : FTy} (X Y : FVec Ideal s φ) : mulf X Y = mulf Y X :=
  funext fun i => mul_comm (X i) (Y i)

/-- The layer theorem over an operand of zeros, the two gathered scale factors in the order (target end, source
    end). -/
theorem layer_zero_comm {N E C : Nat} (hN : 0 < N)
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H Z : (⟨2, ![N, C]⟩ : Shape).Idx → EReal) (hZ : ∀ i, Z i = 0) (D : (⟨1, ![N]⟩ : Shape).Idx → EReal)
    (hD : ∀ i, ∃ r : ℝ, 0 ≤ r ∧ D i = (r : EReal))
    (src' dst dst' : IVec ⟨1, ![E]⟩ 32)
    (hdst : ∀ e, 0 ≤ (dst e).toInt → dst' e = dst e)
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (hi : (⟨1, ![E]⟩ : Shape).BroadcastsInDim ⟨2, ![E, 1]⟩ (![0] : Fin 1 → Fin 2))
    (he2 : (⟨2, ![E, 1]⟩ : Shape).BroadcastsInDim ⟨2, ![E, C]⟩ (![0, 1] : Fin 2 → Fin 2)) :
    mulf (F := Ideal) (φ := .f32)
        (broadcastInDim ⟨2, ![N, C]⟩ ![0, 1] h2 (broadcastInDim ⟨2, ![N, 1]⟩ ![0] h1 D))
        (Host.scatterAdd (F := Ideal) (φ := .f32) (Cert.LibSegment.rowScatter N E C wfs) Z
          (broadcastInDim ⟨2, ![E, 1]⟩ ![0] hi dst)
          (Host.gather (Cert.LibSegment.rowGather N E C wfg)
            (mulf (F := Ideal) (φ := .f32) H
              (broadcastInDim ⟨2, ![N, C]⟩ ![0, 1] h2 (broadcastInDim ⟨2, ![N, 1]⟩ ![0] h1 D)))
            (broadcastInDim ⟨2, ![E, 1]⟩ ![0] hi src')))
      = Host.scatterAdd (F := Ideal) (φ := .f32) (Cert.LibSegment.rowScatter N E C wfs) Z
          (broadcastInDim ⟨2, ![E, 1]⟩ ![0] hi dst)
          (mulf (F := Ideal) (φ := .f32)
            (Host.gather (Cert.LibSegment.rowGather N E C wfg) H (broadcastInDim ⟨2, ![E, 1]⟩ ![0] hi src'))
            (broadcastInDim ⟨2, ![E, C]⟩ ![0, 1] he2 (broadcastInDim ⟨2, ![E, 1]⟩ ![0] hi
              (mulf (F := Ideal) (φ := .f32)
                (Host.gather (Cert.LibSegment.vecGather N E wfv) D (broadcastInDim ⟨2, ![E, 1]⟩ ![0] hi dst'))
                (Host.gather (Cert.LibSegment.vecGather N E wfv) D (broadcastInDim ⟨2, ![E, 1]⟩ ![0] hi src')))))) := by
  rw [Cert.LibSegment.layer_eq hN wfg wfv wfs H Z D hD src' dst dst' hdst h1 h2 hi hi he2,
    Cert.LibSegment.mulf_zeros _ Z hZ,
    mulf_comm' (Host.gather (Cert.LibSegment.vecGather N E wfv) D (broadcastInDim ⟨2, ![E, 1]⟩ ![0] hi src'))]

/-! ## Between the two programs -/

section

variable [Cert.KernelIdeal.Facts] [Cert.ReferenceIdeal.Facts]

open Cert.ReferenceIdeal Cert.ReferenceIdeal.Facts₀

/-- The zeros `[N, C]` a scatter-add starts from. -/
abbrev zerosNC : FVec Ideal S100000x128 .f32 :=
  broadcastInDim S100000x128 ![] bcast_S_S100000x128 (constant (F := Ideal) S_ .f32 0x00000000#32)

/-- A per-node vector as the `[N, C]` array that holds it along every row. -/
abbrev rowsOf (D : FVec Ideal S100000 .f32) : FVec Ideal S100000x128 .f32 :=
  broadcastInDim S100000x128 ![0, 1] bcast_S100000x1_S100000x128_0_1
    (broadcastInDim S100000x1 ![0] bcast_S100000_S100000x1_0 D)

theorem rowsOf_apply (D : FVec Ideal S100000 .f32) (v : Fin 100000) (c : Fin 128) : rowsOf D (ix2 v c) = D (ix1 v) :=
  Cert.LibSegment.vecBroadcast_apply _ _ D v c

/-- ONE PASS WITH THE TWO SCATTER SUMS OPAQUE: if the kernel's segment sums `SK`, scaled by the node's scale, are
    the reference's weighted segment sums `SR`, the fused pass is the reference's step. -/
theorem comb_eq_core (H SK SR : FVec Ideal S100000x128 .f32) (D : FVec Ideal S100000 .f32) (dc : S100000x1.Idx → EReal)
    (hdc : ∀ v : Fin 100000, dc (ix2 v (0 : Fin 1)) = D (ix1 v))
    (hS : ∀ (v : Fin 100000) (c : Fin 128), D (ix1 v) * SK (ix2 v c) = SR (ix2 v c)) :
    K.comb H SK dc = addf (mulf Ref.half H) (mulf Ref.half (addf SR (mulf H (rowsOf (mulf D D))))) := by
  funext i
  obtain ⟨v, c, rfl⟩ : ∃ (v : Fin 100000) (c : Fin 128), i = ix2 v c := ⟨i 0, i 1, eq_ix2 i⟩
  rw [K.comb_apply]
  unfold K.combE
  rw [hdc v, hS v c, addf_apply, mulf_apply, mulf_apply, addf_apply, mulf_apply, rowsOf_apply, mulf_apply]
  rfl

/-- The reference's weighted segment sums of a step: every edge's source row times the edge's weight, added at the
    edge's target. -/
def Ref.agg (row col : IVec S1600000 32) (H : FVec Ideal S100000x128 .f32) : FVec Ideal S100000x128 .f32 :=
  Host.scatterAdd scatter_S100000x128_S1600000x1_S1600000x128_1_0_0_1 zerosNC (Ref.ecol row)
    (mulf (Host.gather gather_S100000x128_S1600000x1_S1600000x128_1_0_n_n_0_1_1128 H (Ref.ecol (Ref.wrap col)))
      (broadcastInDim S1600000x128 ![0, 1] bcast_S1600000x1_S1600000x128_0_1
        (broadcastInDim S1600000x1 ![0] bcast_S1600000_S1600000x1_0 (Ref.wedge row col))))

/-- The reference's step spelt over its weighted segment sums. -/
theorem Ref.step_eq_agg (row col : IVec S1600000 32) (H : FVec Ideal S100000x128 .f32) :
    Ref.step row col H
      = addf (mulf Ref.half H)
          (mulf Ref.half (addf (Ref.agg row col H) (mulf H (rowsOf (mulf (Ref.dinv row) (Ref.dinv row)))))) := rfl

/-- The kernel's segment sums, spelt over the general row gather and row scatter. -/
theorem sagg_eq (row col : IVec S1600000 32) (hs : FVec Ideal S100000x128 .f32) :
    K.sagg row col hs
      = Host.scatterAdd (F := Ideal) (φ := .f32)
          (Cert.LibSegment.rowScatter 100000 1600000 128 scatter_S100000x128_S1600000x1_S1600000x128_1_0_0_1_wf) zerosNC
          (broadcastInDim S1600000x1 ![0] bcast_S1600000_S1600000x1_0 row)
          (Host.gather (Cert.LibSegment.rowGather 100000 1600000 128 gather_S100000x128_S1600000x1_S1600000x128_1_0_n_n_0_1_1128_wf)
            hs (broadcastInDim S1600000x1 ![0] bcast_S1600000_S1600000x1_0 (Ref.wrap col))) := rfl

/-- The reference's weighted segment sums, spelt over the general gathers and the row scatter. -/
theorem agg_eq_lib (row col : IVec S1600000 32) (H : FVec Ideal S100000x128 .f32) :
    Ref.agg row col H
      = Host.scatterAdd (F := Ideal) (φ := .f32)
          (Cert.LibSegment.rowScatter 100000 1600000 128 scatter_S100000x128_S1600000x1_S1600000x128_1_0_0_1_wf) zerosNC
          (broadcastInDim S1600000x1 ![0] bcast_S1600000_S1600000x1_0 row)
          (mulf (F := Ideal) (φ := .f32)
            (Host.gather (Cert.LibSegment.rowGather 100000 1600000 128 gather_S100000x128_S1600000x1_S1600000x128_1_0_n_n_0_1_1128_wf)
              H (broadcastInDim S1600000x1 ![0] bcast_S1600000_S1600000x1_0 (Ref.wrap col)))
            (broadcastInDim S1600000x128 ![0, 1] bcast_S1600000x1_S1600000x128_0_1
              (broadcastInDim S1600000x1 ![0] bcast_S1600000_S1600000x1_0
                (mulf (F := Ideal) (φ := .f32)
                  (Host.gather (Cert.LibSegment.vecGather 100000 1600000 gather_S100000_S1600000x1_S1600000_n_0_n_n_0_1_1_wf)
                    (Ref.dinv row) (broadcastInDim S1600000x1 ![0] bcast_S1600000_S1600000x1_0 (Ref.wrap row)))
                  (Host.gather (Cert.LibSegment.vecGather 100000 1600000 gather_S100000_S1600000x1_S1600000_n_0_n_n_0_1_1_wf)
                    (Ref.dinv row) (broadcastInDim S1600000x1 ![0] bcast_S1600000_S1600000x1_0 (Ref.wrap col))))))) := rfl

/-- THE LAYER: the kernel's segment sums of the scaled features, scaled again by the node's scale, are the
    reference's weighted segment sums. -/
theorem agg_eq (row col : IVec S1600000 32) (H : FVec Ideal S100000x128 .f32)
    (hD : ∀ i, ∃ r : ℝ, 0 ≤ r ∧ Ref.dinv row i = (r : EReal)) :
    mulf (rowsOf (Ref.dinv row)) (K.sagg row col (mulf H (rowsOf (Ref.dinv row)))) = Ref.agg row col H := by
  rw [sagg_eq, agg_eq_lib]
  exact layer_zero_comm (N := 100000) (E := 1600000) (C := 128) (by norm_num)
    gather_S100000x128_S1600000x1_S1600000x128_1_0_n_n_0_1_1128_wf
    gather_S100000_S1600000x1_S1600000_n_0_n_n_0_1_1_wf
    scatter_S100000x128_S1600000x1_S1600000x128_1_0_0_1_wf
    H zerosNC (fun i => Cert.LibSegment.zeros_apply _ i) (Ref.dinv row) hD (Ref.wrap col) row (Ref.wrap row)
    (fun e h => Cert.LibSegment.normalize_const_of_nonneg row 100000#32 bcast_S_S1600000 e h)
    bcast_S100000_S100000x1_0 bcast_S100000x1_S100000x128_0_1 bcast_S1600000_S1600000x1_0
    bcast_S1600000x1_S1600000x128_0_1

/-- ONE STEP: a fused pass over `H`, the segment sums of `H` scaled by the node's scale, and the scale column, is the
    reference's propagation step of `H`. -/
theorem step_eq (row col : IVec S1600000 32) (H hs : FVec Ideal S100000x128 .f32)
    (hD : ∀ i, ∃ r : ℝ, 0 ≤ r ∧ Ref.dinv row i = (r : EReal))
    (hhs : ∀ (v : Fin 100000) (c : Fin 128), hs (ix2 v c) = H (ix2 v c) * K.dinv row (ix1 v)) :
    K.comb H (K.sagg row col hs) (K.dcol row) = Ref.step row col H := by
  have hB : hs = mulf H (rowsOf (Ref.dinv row)) := funext fun i => by
    obtain ⟨v, c, rfl⟩ : ∃ (v : Fin 100000) (c : Fin 128), i = ix2 v c := ⟨i 0, i 1, eq_ix2 i⟩
    rw [hhs v c, mulf_apply, rowsOf_apply, dinv_eq]
  subst hB
  rw [Ref.step_eq_agg]
  refine comb_eq_core H _ _ (Ref.dinv row) (K.dcol row)
    (fun v => (K.dcol_apply row v 0).trans (congrFun (dinv_eq row).symm (ix1 v))) (fun v c => ?_)
  have h := congrFun (agg_eq row col H hD) (ix2 v c)
  rw [mulf_apply, rowsOf_apply] at h
  exact h

/-- The host's scaled features, at `(v, c)`. -/
theorem hs0_apply (feat : FVec Ideal S100000x128 .f32) (row : IVec S1600000 32) (v : Fin 100000) (c : Fin 128) :
    K.hs0 feat row (ix2 v c) = feat (ix2 v c) * K.dinv row (ix1 v) := by
  unfold K.hs0
  rw [mulf_apply, Cert.LibSegment.rowBroadcast_apply, K.dcol_apply]

/-- A pass's second result is its first times the node's scale. -/
theorem combS_eq (H S : FVec Ideal S100000x128 .f32) (row : IVec S1600000 32) (v : Fin 100000) (c : Fin 128) :
    K.combS H S (K.dcol row) (ix2 v c) = K.comb H S (K.dcol row) (ix2 v c) * K.dinv row (ix1 v) := by
  rw [K.combS_apply, K.comb_apply, K.dcol_apply]

section Chain

variable (feat : FVec Ideal S100000x128 .f32) (row col : IVec S1600000 32)

theorem hs1_apply (v : Fin 100000) (c : Fin 128) :
    K.hs1 feat row col (ix2 v c) = K.h1 feat row col (ix2 v c) * K.dinv row (ix1 v) := by
  unfold K.hs1 K.h1
  exact combS_eq _ _ row v c

theorem hs2_apply (v : Fin 100000) (c : Fin 128) :
    K.hs2 feat row col (ix2 v c) = K.h2 feat row col (ix2 v c) * K.dinv row (ix1 v) := by
  unfold K.hs2 K.h2
  exact combS_eq _ _ row v c

theorem hs3_apply (v : Fin 100000) (c : Fin 128) :
    K.hs3 feat row col (ix2 v c) = K.h3 feat row col (ix2 v c) * K.dinv row (ix1 v) := by
  unfold K.hs3 K.h3
  exact combS_eq _ _ row v c

variable (hD : ∀ i, ∃ r : ℝ, 0 ≤ r ∧ Ref.dinv row i = (r : EReal))
include hD

theorem h1_eq : K.h1 feat row col = Ref.step row col feat := by
  unfold K.h1
  exact step_eq row col feat (K.hs0 feat row) hD (hs0_apply feat row)

theorem h2_eq : K.h2 feat row col = Ref.step row col (Ref.step row col feat) := by
  unfold K.h2
  rw [step_eq row col (K.h1 feat row col) (K.hs1 feat row col) hD (hs1_apply feat row col), h1_eq feat row col hD]

theorem h3_eq : K.h3 feat row col = Ref.step row col (Ref.step row col (Ref.step row col feat)) := by
  unfold K.h3
  rw [step_eq row col (K.h2 feat row col) (K.hs2 feat row col) hD (hs2_apply feat row col), h2_eq feat row col hD]

/-- FOUR PASSES ARE FOUR STEPS. -/
theorem h4_eq_of : K.h4 feat row col = Ref.h4 feat row col := by
  unfold K.h4 Ref.h4
  rw [step_eq row col (K.h3 feat row col) (K.hs3 feat row col) hD (hs3_apply feat row col), h3_eq feat row col hD]

end Chain

end

end Cert.Spec

end
-- ==== Proof.LibDegree.lean ====
/-
  General lemmas about counting the edges that arrive at a node, at the ideal instance (floats are extended reals,
  every operation exact), free of any program.

  A mean over incoming edges divides a node's sum by the number of edges that arrive at it (or by one where none
  does).  Two programs may count those edges differently: a scatter-add of a FLAT array of ones `[E]` into `[N]`, or a
  scatter-add of a COLUMN of ones `[E, 1]` into `[N, 1]`; and they may divide by the count, or multiply by its
  reciprocal.  Here:
    * where an update of the flat scatter lands (its start index read signed, not clamped, dropped outside);
    * the flat and the column scatter-add of the same two constants (one for every operand entry, one for every
      update) agree, node by node: the updates that land on node `v` are, in both, the edges whose index is `v`;
    * a scatter-add of ones into zeros holds a natural number at every entry;
    * for a natural number `n`, `max n 1` is a nonzero real, so multiplying by `1 / max n 1` is dividing by
      `max n 1`, on every extended real.
-/
import Idealize.ShloMosaic.Lib.ValueIdx
import Idealize.ShloMosaic.PureOps.Ideal
import Mathlib.Data.EReal.Operations
import proofs.«168759_j50216757625453_2_alg».proof.Proof.LibSegment

noncomputable section

open scoped BigOperators

namespace Cert.LibDegree

open Idealize.ShloMosaic Idealize.ShloMosaic.ValueIdx Cert.LibSegment

/-! ## The flat scatter -/

/-- Flat scatter: operand `[N]`, scatter indices `[E, 1]`, updates `[E]`; update `e` goes to the operand's entry
    `idx[e, 0]`.  There is no window axis: the operand's one axis is an inserted one. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The flat scatter's start for update `e`: the scatter index `idx[e, 0]`, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx ⟨0, Nat.one_pos⟩ = (idx (ix2 e 0)).toInt := by
  unfold ScatterDims.start
  rw [dif_pos (show (⟨0, Nat.one_pos⟩ : Fin 1) ∈ (vecScatter N E wf).scatterDimsToOperandDims from
    List.mem_singleton.mpr rfl)]
  have hsi : (vecScatter N E wf).siIdx (ix1 e)
      ⟨List.idxOf (⟨0, Nat.one_pos⟩ : Fin 1) (vecScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is `0`: the operand's one axis is inserted. -/
theorem vecScatter_window0 {N E : Nat}
    (wf : ScatterDims.WF ⟨1, ![N]⟩ ⟨2, ![E, 1]⟩ ⟨1, ![E]⟩ [] [0] [0] 1) (e : Fin E) :
    (vecScatter N E wf).window (ix1 e) ⟨0, Nat.one_pos⟩ = 0 := by
  unfold ScatterDims.window
  rw [dif_neg (by simp [ScatterDims.sKept, Shape.kept])]

/-- WHERE AN UPDATE LANDS: update `e` of the flat scatter lands on operand entry `v` exactly when the scatter index
    `idx[e, 0]`, read signed and not clamped, is `v`. -/
theorem vecScatter_lands {N E w : Nat}
    (wf : ScatterDims.WF ⟨1, ![N]⟩ ⟨2, ![E, 1]⟩ ⟨1, ![E]⟩ [] [0] [0] 1)
    (idx : IVec ⟨2, ![E, 1]⟩ w) (e : Fin E) (v : Fin N) :
    (vecScatter N E wf).resultIdx? (ix1 e) idx = some (ix1 v) ↔ (idx (ix2 e 0)).toInt = (v.val : Int) := by
  have hs0 := vecScatter_start0 wf idx e
  have hw0 := vecScatter_window0 wf e
  unfold ScatterDims.resultIdx?
  constructor
  · intro h
    split at h
    · have hf := Option.some.inj h
      have h0 := congrArg (fun f => (f ⟨0, Nat.one_pos⟩).val) hf
      simp only [hs0, hw0] at h0
      rename_i hin
      have hin0 := (hin ⟨0, Nat.one_pos⟩).1
      simp only [hs0, hw0] at hin0
      change ((idx (ix2 e 0)).toInt + ((0 : Nat) : Int)).toNat = v.val at h0
      omega
    · exact absurd h (by simp)
  · intro hv
    have hin : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Nat) := by
      intro a
      match a with
      | ⟨0, _⟩ =>
        rw [hs0, hw0, hv]
        have := v.isLt
        change 0 ≤ (v.val : Int) + ((0 : Nat) : Int) ∧ (v.val : Int) + ((0 : Nat) : Int) < (N : Int)
        omega
    rw [dif_pos hin]
    congr 1
    funext a
    refine Fin.ext ?_
    match a with
    | ⟨0, _⟩ =>
      change ((vecScatter N E wf).start (ix1 e) idx ⟨0, Nat.one_pos⟩
        + ((vecScatter N E wf).window (ix1 e) ⟨0, Nat.one_pos⟩ : Nat)).toNat = v.val
      rw [hs0, hw0, hv]; omega

/-! ## The flat count is the column count -/

/-- A scatter-add of one constant `u` per update into one constant `z` per entry gives node `v` the same value whether
    the updates are a flat array `[E]` scattered into `[N]` or a column `[E, 1]` scattered into `[N, 1]`: in both the
    updates that land on `v` are the edges whose index, read signed, is `v`. -/
theorem flat_eq_column {N E w : Nat}
    (wfV : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w) (z u : EReal) (v : Fin N) :
    Ideal.hostScatterAdd (vecScatter N E wfV) (fun _ => z) idx (fun _ => u) (ix1 v)
      = Ideal.hostScatterAdd (rowScatter N E 1 wfR) (fun _ => z) idx (fun _ => u) (ix2 v 0) := by
  unfold Ideal.hostScatterAdd
  refine congrArg (z + ·) ?_
  refine Finset.sum_nbij' (fun j => ix2 (j 0) 0) (fun k => ix1 (k 0)) ?_ ?_ ?_ ?_ ?_
  · intro j hj
    rw [Finset.mem_filter] at hj ⊢
    refine ⟨Finset.mem_univ _, ?_⟩
    have hj' := hj.2
    rw [eq_ix1 j] at hj'
    exact (rowScatter_lands wfR idx (j 0) 0 0 v).2 ⟨(vecScatter_lands wfV idx (j 0) v).1 hj', rfl⟩
  · intro k hk
    rw [Finset.mem_filter] at hk ⊢
    refine ⟨Finset.mem_univ _, ?_⟩
    have hk' := hk.2
    rw [eq_ix2 k] at hk'
    have h1 := ((rowScatter_lands wfR idx (k 0) (k 1) 0 v).1 hk').1
    exact (vecScatter_lands wfV idx (k 0) v).2 h1
  · intro j _
    exact (eq_ix1 j).symm
  · intro k _
    funext a
    refine Fin.ext ?_
    match a with
    | ⟨0, _⟩ => rfl
    | ⟨1, _⟩ =>
      show (0 : Nat) = (k ⟨1, Nat.one_lt_two⟩).val
      have h : (k ⟨1, Nat.one_lt_two⟩).val < 1 := (k ⟨1, Nat.one_lt_two⟩).isLt
      omega
  · intro j _
    rfl

/-! ## A count is a natural number -/

/-- Adding the extended real one to itself `n` times gives the real number `n`. -/
theorem nsmul_one (n : ℕ) : n • (1 : EReal) = ((n : ℝ) : EReal) := by
  induction n with
  | zero => simp
  | succ k ih => rw [succ_nsmul, ih, Nat.cast_succ, EReal.coe_add, EReal.coe_one]

/-- Zero plus a sum of ones over a finite set is the set's number of elements. -/
theorem zero_add_sum_ones {ι : Type*} (S : Finset ι) :
    (0 : EReal) + ∑ _j ∈ S, (1 : EReal) = ((S.card : ℝ) : EReal) := by
  rw [zero_add, Finset.sum_const, nsmul_one]

/-- A scatter-add of ones into zeros holds, at every entry, a natural number: the number of updates that land there. -/
theorem count_nat {s si su : Shape} (d : ScatterDims s si su) {w : Nat} (idx : IVec si w) (i : s.Idx) :
    ∃ n : ℕ, Ideal.hostScatterAdd d (fun _ => (0 : EReal)) idx (fun _ => (1 : EReal)) i = ((n : ℝ) : EReal) := by
  unfold Ideal.hostScatterAdd
  exact ⟨_, zero_add_sum_ones _⟩

/-! ## Multiplying by the reciprocal of a count is dividing by it -/

/-- For a natural number `n`, the larger of `n` and one is a nonzero real number, so on every extended real `a` the
    product with its reciprocal is the quotient by it. -/
theorem mul_recip_eq_div (a : EReal) (n : ℕ) :
    a * Ideal.div 1 (max ((n : ℝ) : EReal) 1) = Ideal.div a (max ((n : ℝ) : EReal) 1) := by
  have hmax : max ((n : ℝ) : EReal) 1 = ((max (n : ℝ) 1 : ℝ) : EReal) := by
    rw [← EReal.coe_one]
    exact (EReal.coe_strictMono.monotone.map_max (a := (n : ℝ)) (b := 1)).symm
  have hne : (max (n : ℝ) 1 : ℝ) ≠ 0 := by
    have : (1 : ℝ) ≤ max (n : ℝ) 1 := le_max_right _ _
    exact ne_of_gt (lt_of_lt_of_le one_pos this)
  rw [hmax, Ideal.div_coe hne, Ideal.div_coe hne, one_mul]

end Cert.LibDegree

end
-- ==== Proof.DinvReal.lean ====
/-
  The per-node scale dinv = deg^(-1/2) is a nonnegative real at every node.

  deg is one plus what a scatter-add of ones onto zeros leaves, and such a scatter-add leaves at every entry the number
  of updates that land there: a natural number.  So deg ≥ 1 > 0 is a positive real, and the inverse square root of a
  positive real is a nonnegative real.  The counting facts are stated over arbitrary shapes and instantiated last.
-/
import proofs.«168759_j50216757625453_2_alg».proof.Proof.Spec
import proofs.«168759_j50216757625453_2_alg».proof.Proof.LibSegment
import proofs.«168759_j50216757625453_2_alg».proof.Proof.LibDegree

noncomputable section

open scoped BigOperators

namespace Cert.Spec.DinvReal

open Idealize.ShloMosaic Idealize.ShloMosaic.ValueIdx

/-- The pattern of 1.0 denotes the real one. -/
theorem ofBits_one : Ideal.ofBits .f32 0x3F800000#32 = 1 := by
  simp [Ideal.ofBits, Ideal.ieee, -EReal.coe_mul]; norm_num

/-- The one scalar broadcast to any shape reads 1 everywhere. -/
theorem ones_apply {t : Shape} (h : (⟨0, ![]⟩ : Shape).BroadcastsInDim t (![] : Fin 0 → Fin t.rank)) (i : t.Idx) :
    broadcastInDim t ![] h (constant (F := Ideal) ⟨0, ![]⟩ .f32 0x3F800000#32) i = (1 : EReal) :=
  ofBits_one

/-- Ones scattered onto zeros, plus one, is one plus a natural number at every entry — for any shapes, any scatter
    dimension numbers and any index array. -/
theorem count_add_one {s si su : Shape} (d : ScatterDims s si su) {w : Nat} (idx : IVec si w)
    (z one : FVec Ideal s .f32) (o : FVec Ideal su .f32)
    (hz : ∀ i, z i = 0) (ho : ∀ j, o j = 1) (h1 : ∀ i, one i = 1) (i : s.Idx) :
    ∃ n : ℕ, addf (Host.scatterAdd (F := Ideal) d z idx o) one i = ((n : ℝ) : EReal) + 1 := by
  obtain ⟨n, hn⟩ := Cert.LibDegree.count_nat d idx i
  refine ⟨n, ?_⟩
  obtain rfl : z = fun _ => 0 := funext hz
  obtain rfl : o = fun _ => 1 := funext ho
  rw [addf_apply, h1 i]
  refine congrArg (· + (1 : EReal)) ?_
  simp only [Host.scatterAdd, Ideal.hostScatterAdd_def]
  exact hn

/-- The inverse square root of one plus a natural number is a nonnegative real. -/
theorem rsqrt_succ_nonneg {s : Shape} (deg : FVec Ideal s .f32) (i : s.Idx)
    (h : ∃ n : ℕ, deg i = ((n : ℝ) : EReal) + 1) :
    ∃ r : ℝ, 0 ≤ r ∧ Host.rsqrt (F := Ideal) deg i = (r : EReal) := by
  obtain ⟨n, hn⟩ := h
  have hpos : (0 : EReal) < deg i := by
    rw [hn]
    have h' : (0 : EReal) < (((n : ℝ) + 1 : ℝ) : EReal) := EReal.coe_pos.mpr (by positivity)
    rwa [EReal.coe_add, EReal.coe_one] at h'
  exact Cert.LibSegment.rsqrt_nonneg_of_pos (deg i) hpos

/-- EVERY ENTRY OF THE KERNEL'S SCALE IS A NONNEGATIVE REAL. -/
theorem dinv_nonneg [Cert.KernelIdeal.Facts] (row : IVec Cert.KernelIdeal.S1600000 32) (i : Cert.KernelIdeal.S100000.Idx) :
    ∃ r : ℝ, 0 ≤ r ∧ Cert.Spec.K.dinv row i = (r : EReal) := by
  unfold Cert.Spec.K.dinv
  refine rsqrt_succ_nonneg _ i ?_
  unfold Cert.Spec.K.deg
  exact count_add_one _ _ _ _ _ (Cert.LibSegment.zeros_apply _) (ones_apply _) (ones_apply _) i

end Cert.Spec.DinvReal

end
-- ==== Proof.LibHostRow.lean ====
/-
  Host operations along a row, read at an index at the ideal instance (floats are extended reals, every operation
  exact), free of any program.

    * a host float sum of a `[m, n]` array over its second axis, at row `p`: the initial value plus the sum over the
      `n` columns of that row;
    * a vector `[b]` broadcast to one row `[1, b]`, and one row `[1, b]` broadcast over `a` rows to `[a, b]`: entry
      `(·, q)` of either is entry `q` of the vector, or `(0, q)` of the row.
-/
import Idealize.ShloMosaic.Lib.ValueIdx
import Idealize.ShloMosaic.Lib.Pipeline.Value
import Idealize.ShloMosaic.PureOps.Ideal.Laws
import Idealize.ShloMosaic.PureOps.Reduce
import proofs.«168759_j50216757625453_2_alg».proof.Proof.LibRowReduce

noncomputable section

open scoped BigOperators

namespace Cert.LibHostRow

open Idealize.ShloMosaic Idealize.ShloMosaic.ValueIdx

variable {m n : Nat}

/-- The host's float sum over a row: the initial value plus the sum over the row's columns. -/
theorem hostRowSum_apply (x : FVec Ideal ⟨2, ![m, n]⟩ .f32) (init : (⟨0, ![]⟩ : Shape).Idx → EReal)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduceAdd (F := Ideal) (φ := .f32) x init h' hu (ix1 p)
      = init (Shape.Idx.first hu) + ∑ k : Fin n, x (ix2 p k) := by
  simp only [Host.reduceAdd, Ideal.hostReduceAdd_def]
  rw [Ideal.hostReduceAdd_single h' h]
  exact congrArg (_ + ·) (Finset.sum_congr rfl fun k _ => congrArg x (Cert.LibRowReduce.lift_row h p k))

variable {α : Type} {a b : Nat}

/-- A vector `[b]` broadcast to the one row `[1, b]`, read at `(u, q)`: the vector's entry `q`. -/
theorem vecToRow_apply (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ ![1] h x (ix2 u q) = x (ix1 q) := by
  refine broadcastInDim_apply _ h x _ _ ?_
  intro d
  obtain rfl : d = 0 := Subsingleton.elim _ _
  show q.val = if b = 1 then 0 else q.val
  have := q.isLt
  split <;> omega

/-- One row `[1, b]` broadcast over `a` rows to `[a, b]`, read at `(p, q)`: the row's entry `(0, q)`. -/
theorem rowToRows_apply (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x _ _ ?_
  intro d
  match d with
  | ⟨0, _⟩ => rfl
  | ⟨1, _⟩ =>
    show q.val = if b = 1 then 0 else q.val
    have := q.isLt
    split <;> omega

end Cert.LibHostRow

end
-- ==== Proof.BridgeTail.lean ====
/-
  The last stage — logits, row normalisation, scale and shift — is the same function on both sides.

  For an array h [100000, 128], a weight matrix W [40, 128] and vectors b, gamma, beta [40]:
      x(v, q)   = Σ_k h(v, k) · Wᵀ(k, q) + b(q)                       (a product with the transposed matrix, plus the bias)
      mean(v)   = (Σ_q x(v, q)) / 40,   var(v) = (Σ_q (x(v, q) − mean(v))²) / 40
      out(v, q) = (x(v, q) − mean(v)) · (var(v) + ε)^(−1/2) · gamma(q) + beta(q).
  The reference states it with whole-array operations (the library variance divides by 40 − 0, selected because that
  divisor is positive); the kernel side is the specification's pointwise fcln.  Read at an index (v, q) the two agree
  term by term: a sum's initial zero is absorbed, 40 − 0 is 40 and positive, a row broadcast reads its row.
-/
import proofs.«168759_j50216757625453_2_alg».proof.Proof.Spec
import proofs.«168759_j50216757625453_2_alg».proof.Proof.LibSegment
import proofs.«168759_j50216757625453_2_alg».proof.Proof.LibPlainDot
import proofs.«168759_j50216757625453_2_alg».proof.Proof.LibHostRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Spec

open Idealize.ShloMosaic Idealize.ShloMosaic.ValueIdx

namespace Tail

open Cert.ReferenceIdeal Cert.ReferenceIdeal.Facts₀

variable [Cert.KernelIdeal.Facts] [Cert.ReferenceIdeal.Facts]

/-- The pattern of 40.0 denotes the real forty. -/
theorem ofBits_forty : Ideal.ofBits .f32 0x42200000#32 = ((40 : ℝ) : EReal) := by
  simp [Ideal.ofBits, Ideal.ieee, -EReal.coe_mul]; norm_num

/-- The printed product's dimension numbers are those of a plain [100000,128] × [128,40] product. -/
theorem dot_plain : dot_S100000x128_S128x40_S100000x40_1_0_0_1_n_n = DotDims.plain 100000 128 40 := rfl

variable (h : FVec Ideal S100000x128 .f32) (W : FVec Ideal S40x128 .f32) (b gamma beta : FVec Ideal S40 .f32)

/-- The kernel side's transposed weight matrix and rows. -/
abbrev wt : Cert.KernelIdeal.S128x40.Idx → EReal :=
  transpose Cert.KernelIdeal.S128x40 [1, 0] W Cert.KernelIdeal.Facts₀.transposes_S40x128_S128x40_1_0
abbrev rowOf (x : FVec Ideal S40 .f32) : Cert.KernelIdeal.S1x40.Idx → EReal :=
  shapeCast Cert.KernelIdeal.S1x40 x Cert.KernelIdeal.Facts₀.shapeCasts_S40_S1x40

/-- A vector as a [1, 40] row reads, at (0, q), its entry q. -/
theorem rowOf_apply (x : FVec Ideal S40 .f32) (u : Fin 1) (q : Fin 40) : rowOf x (ix2 u q) = x (ix1 q) :=
  shapeCast_a_1a_apply x _ u q

/-- A vector broadcast to every row reads, at (v, q), its entry q. -/
theorem vecRows_apply (x : FVec Ideal S40 .f32) (v : Fin 100000) (q : Fin 40) :
    broadcastInDim S100000x40 ![0, 1] bcast_S1x40_S100000x40_0_1 (broadcastInDim S1x40 ![1] bcast_S40_S1x40_1 x) (ix2 v q)
      = x (ix1 q) := by
  rw [Cert.LibHostRow.rowToRows_apply, Cert.LibHostRow.vecToRow_apply]

/-- THE LOGITS at (v, q). -/
theorem logits_apply (v : Fin 100000) (q : Fin 40) :
    Ref.logits h W b (ix2 v q) = K.logitE (n := 100000) h (wt W) (rowOf b) v q := by
  unfold Ref.logits K.logitE
  rw [addf_apply, vecRows_apply, rowOf_apply, dot_plain]
  refine congrArg (· + b (ix1 q)) ?_
  exact Cert.LibPlainDot.dotGeneral_plain_apply none _ h _ v q

/-- A scalar broadcast to any shape reads the scalar. -/
theorem scalar_apply {α : Type} {t : Shape} (hb : S_.BroadcastsInDim t (![] : Fin 0 → Fin t.rank)) (s : S_.Idx → α) (i : t.Idx) :
    broadcastInDim t ![] hb s i = s (Shape.Idx.first h_S_) :=
  broadcastInDim_apply _ hb s i _ (fun d => d.elim0)

/-- A host division and a host inverse square root read entry by entry. -/
theorem hostDivf_apply {s : Shape} (a c : FVec Ideal s .f32) (i : s.Idx) : Host.divf (F := Ideal) a c i = Ideal.div (a i) (c i) := rfl
theorem hostRsqrt_apply {s : Shape} (a : FVec Ideal s .f32) (i : s.Idx) : Host.rsqrt (F := Ideal) a i = Ideal.rsqrt (a i) := rfl

theorem reduces40 : S100000x40.Reduces [1] S100000 := by decide

/-- THE ROW MEAN, as a column: the row's sum over 40. -/
theorem mean_apply (x : FVec Ideal S100000x40 .f32) (v : Fin 100000) (u : Fin 1) :
    Ref.mean x (ix2 v u) = Ideal.div (∑ q : Fin 40, x (ix2 v q)) K.fortyW := by
  unfold Ref.mean
  rw [hostDivf_apply, Cert.LibSegment.colBroadcast_apply, Cert.LibHostRow.hostRowSum_apply x _ _ reduces40 _ v, scalar_apply,
    constant_apply, constant_apply, Ideal.ofBits_zero_f32, zero_add]
  rfl

/-- The variance's divisor 40 − 0 is forty. -/
theorem nfree_zero (i : S_.Idx) : Ref.nfree (constantI S_ 32 0#32) i = K.fortyW := by
  unfold Ref.nfree
  rw [subf_apply, constant_apply, sitofp_apply, constantI_apply]
  show Ideal.ofBits .f32 0x42200000#32 - (((0#32 : BitVec 32).toInt : ℝ) : EReal) = _
  simp [K.fortyW]

/-- … and positive: the comparison that guards the library variance is true. -/
theorem guard_true (i : S_.Idx) :
    cmpf (F := Ideal) .ogt (Ref.nfree (constantI S_ 32 0#32)) (constant (F := Ideal) S_ .f32 0x00000000#32) i = 1#1 := by
  rw [cmpf_apply, nfree_zero, constant_apply, Ideal.ofBits_zero_f32]
  show Scalar.cmpf (F := Ideal) (φ := .f32) .ogt K.fortyW 0 = 1#1
  rw [Ideal.scalar_cmpf_def]
  unfold Ideal.cmp K.fortyW
  rw [ofBits_forty]
  simp

/-- THE ROW VARIANCE, as a column: the squared deviations' sum over 40. -/
theorem var_apply (x : FVec Ideal S100000x40 .f32) (v : Fin 100000) (u : Fin 1) :
    Ref.var x (constantI S_ 32 0#32) (ix2 v u)
      = Ideal.div (∑ q : Fin 40, (x (ix2 v q) - Ref.mean x (ix2 v (0 : Fin 1))) * (x (ix2 v q) - Ref.mean x (ix2 v (0 : Fin 1)))) K.fortyW := by
  unfold Ref.var
  rw [select_apply, scalar_apply, guard_true, select_one]
  rw [hostDivf_apply, Cert.LibSegment.colBroadcast_apply, Cert.LibHostRow.hostRowSum_apply _ _ _ reduces40 _ v, scalar_apply,
    nfree_zero, constant_apply, Ideal.ofBits_zero_f32, zero_add]
  refine congrArg (fun s => Ideal.div s K.fortyW) (Finset.sum_congr rfl fun q _ => ?_)
  rw [mulf_apply, subf_apply, Cert.LibSegment.rowBroadcast_apply]

variable (h : FVec Ideal S100000x128 .f32) (W : FVec Ideal S40x128 .f32) (b gamma beta : FVec Ideal S40 .f32)

/-- The reference's row mean of the logits is the specification's. -/
theorem mean_logits (v : Fin 100000) (u : Fin 1) :
    Ref.mean (Ref.logits h W b) (ix2 v u) = K.muE (n := 100000) h (wt W) (rowOf b) v := by
  rw [mean_apply]
  unfold K.muE
  exact congrArg (fun s => Ideal.div s K.fortyW) (Finset.sum_congr rfl fun q _ => logits_apply h W b v q)

/-- The reference's row variance of the logits is the specification's. -/
theorem var_logits (v : Fin 100000) (u : Fin 1) :
    Ref.var (Ref.logits h W b) (constantI S_ 32 0#32) (ix2 v u) = K.varE (n := 100000) h (wt W) (rowOf b) v := by
  rw [var_apply]
  unfold K.varE
  refine congrArg (fun s => Ideal.div s K.fortyW) (Finset.sum_congr rfl fun q _ => ?_)
  rw [logits_apply, mean_logits]

end Tail

/-- THE LAST STAGE IS ONE FUNCTION: the reference's whole-array normalisation of its logits is the specification's
    pointwise fcln of the same array, the transposed weights and the three parameter rows. -/
theorem tail_eq [Cert.KernelIdeal.Facts] [Cert.ReferenceIdeal.Facts] (h : FVec Ideal Cert.ReferenceIdeal.S100000x128 .f32)
    (W : FVec Ideal Cert.ReferenceIdeal.S40x128 .f32) (b gamma beta : FVec Ideal Cert.ReferenceIdeal.S40 .f32) :
    Ref.norm (Ref.logits h W b) gamma beta
      = K.fcln h (transpose Cert.KernelIdeal.S128x40 [1, 0] W Cert.KernelIdeal.Facts₀.transposes_S40x128_S128x40_1_0)
          (shapeCast Cert.KernelIdeal.S1x40 b Cert.KernelIdeal.Facts₀.shapeCasts_S40_S1x40)
          (shapeCast Cert.KernelIdeal.S1x40 gamma Cert.KernelIdeal.Facts₀.shapeCasts_S40_S1x40)
          (shapeCast Cert.KernelIdeal.S1x40 beta Cert.KernelIdeal.Facts₀.shapeCasts_S40_S1x40) := by
  funext i
  obtain ⟨v, q, rfl⟩ : ∃ (v : Fin 100000) (q : Fin 40), i = ix2 v q := ⟨i 0, i 1, eq_ix2 i⟩
  rw [K.fcln_apply]
  unfold Ref.norm K.fclnE
  rw [addf_apply, mulf_apply, mulf_apply, subf_apply, Tail.vecRows_apply, Tail.vecRows_apply,
    Cert.LibSegment.rowBroadcast_apply, Cert.LibSegment.rowBroadcast_apply, Tail.hostRsqrt_apply, addf_apply,
    Tail.scalar_apply, constant_apply, Tail.logits_apply, Tail.mean_logits, Tail.var_logits,
    shapeCast_a_1a_apply, shapeCast_a_1a_apply]
  rfl

end Cert.Spec

end
-- ==== Proof.Bridge.lean ====
/-
  The two sides of the claim are one function: the reference's result — four propagation steps, the logits, the row
  normalisation — is the kernel's — four fused passes over the host's segment sums, the last going on to the logits
  and the normalisation.  The per-node scale is everywhere a nonnegative real, so every pass is a step; the tail is
  the same function of the fourth h on both sides.
-/
import proofs.«168759_j50216757625453_2_alg».proof.Proof.Spec
import proofs.«168759_j50216757625453_2_alg».proof.Proof.BridgeDinv
import proofs.«168759_j50216757625453_2_alg».proof.Proof.BridgeStep
import proofs.«168759_j50216757625453_2_alg».proof.Proof.DinvReal
import proofs.«168759_j50216757625453_2_alg».proof.Proof.BridgeTail

noncomputable section

open scoped BigOperators

namespace Cert.Spec

open Idealize.ShloMosaic Idealize.ShloMosaic.ValueIdx

variable [Cert.KernelIdeal.Facts] [Cert.ReferenceIdeal.Facts]

/-- Four passes are four steps, with no hypothesis left: the scale is a nonnegative real at every node. -/
theorem h4_eq (feat : FVec Ideal Cert.ReferenceIdeal.S100000x128 .f32) (row col : IVec Cert.ReferenceIdeal.S1600000 32) :
    K.h4 feat row col = Ref.h4 feat row col :=
  h4_eq_of feat row col (fun i => by rw [dinv_eq row]; exact DinvReal.dinv_nonneg row i)

/-- THE BRIDGE: the reference's result is the kernel's. -/
theorem out_eq
    (feat : FVec Ideal Cert.ReferenceIdeal.S100000x128 .f32) (row col : IVec Cert.ReferenceIdeal.S1600000 32)
    (W : FVec Ideal Cert.ReferenceIdeal.S40x128 .f32) (b gamma beta : FVec Ideal Cert.ReferenceIdeal.S40 .f32) :
    Ref.out feat row col W b gamma beta = K.out feat row col W b gamma beta := by
  unfold Ref.out K.out
  rw [tail_eq, h4_eq]

end Cert.Spec

end
-- ==== Proof.lean ====
/-
  The claim: a graph propagation with a dense head, computed two ways, is one function on the extended reals.

  Both programs take node features [100000, 128], two index vectors row and col over 1600000 edges, a weight matrix
  [40, 128] and three vectors [40].  With deg(v) = 1 + #{e : row e = v} and dinv = deg^(−1/2) they apply four times
      h ← ½·h + ½·(A h + h·dinv²),     (A h)(v) = Σ_{e : row e = v} h(col e) · dinv(row e) · dinv(col e),
  then logits = h·Wᵀ + b, and normalise every row of logits (mean and variance over its 40 entries, ε under the inverse
  square root), scale by gamma, shift by beta.

  The reference weighs each gathered row by dinv(row e)·dinv(col e) before the segment sum.  The kernel scales the
  features by dinv once per node, sums the gathered scaled rows, and multiplies the sum at node v by dinv(v) inside a
  fused pass — the factor dinv(row e) = dinv(v), constant on the edges that land on v, taken out of the sum.  dinv(v) is
  a nonnegative real (a degree is a count plus one), and a nonnegative real factor distributes over any finite sum of
  extended reals, so the two agree whatever the features hold; the last stage is the same arithmetic read two ways.

  The pieces: the kernel program's run ends with its result at the specification's K.out (the four passes' closed
  forms over the whole array, the host stretches between them); the reference's run ends at Ref.out; Ref.out = K.out.
  Each program's frame is its run with the value dropped (the word-level kernel's frame is the generated one), and the
  idealisation rewrote nothing, so there is nothing to preserve.
-/
import proofs.«168759_j50216757625453_2_alg».proof.Defs
import proofs.«168759_j50216757625453_2_alg».proof.Proof.Gen.Kernel
import proofs.«168759_j50216757625453_2_alg».proof.Proof.Gen.Kernel.Frame
import proofs.«168759_j50216757625453_2_alg».proof.Proof.Gen.KernelIdeal
import proofs.«168759_j50216757625453_2_alg».proof.Proof.Gen.KernelIdeal.Frame
import proofs.«168759_j50216757625453_2_alg».proof.Proof.Gen.ReferenceIdeal
import proofs.«168759_j50216757625453_2_alg».proof.Proof.Gen.Pre_finite_inputs
import proofs.«168759_j50216757625453_2_alg».proof.Proof.KRun
import proofs.«168759_j50216757625453_2_alg».proof.Proof.RefRun
import proofs.«168759_j50216757625453_2_alg».proof.Proof.Bridge
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result's value dropped. -/
theorem frame_ri : Cert.frame_ReferenceIdeal := fun m ρ _ =>
  (θ_run Cert.ReferenceIdeal.defs _ _).mono (fun _ h c => (h c).2) (Cert.ReferenceIdeal.RefRun.run m ρ)

/-- The idealisation rewrote no operation. -/
theorem preserves : Cert.preserves_Kernel_KernelIdeal := trivial

/-- From memories agreeing on the seven arguments both programs end with the same result array: the kernel's at
    K.out of the arguments, the reference's at Ref.out of the same arguments, and the two are one function. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6⟩ := hagree c
  rw [e0, e1, e2, e3, e4, e5, e6]
  exact Cert.Spec.out_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
